-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S256x128 : Shape := ⟨2, ![256, 128]⟩
abbrev S128x32 : Shape := ⟨2, ![128, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  main_v53

def fn_part2 {F : FTy → Type} [FloatOps F] (main_arg9 : FVec F S128 .f32) (main_arg10 : FVec F S128 .f32) (main_arg11 : FVec F S128x32 .f32) (main_arg12 : FVec F S32 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x32 .f32 := Host.absf main_arg11
  let main_cst_16 : FVec F S_ .f32 := constant S_ .f32 0x7F800000#32
  let main_v45 : FVec F S128x32 .f32 := broadcastInDim S128x32 ![] bcast_S_S128x32 main_cst_16
  let main_v46 : IVec S128x32 1 := cmpf .olt main_v44 main_v45
  let main_c_17 : IVec S_ 1 := constantI S_ 1 1#1
  let main_v47 : IVec S_ 1 := (fun x v => Host.reduce IntOp.andi x v reducesTo_S128x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_v48 main_v49 main_v50

def fn_part1 {F : FTy → Type} [FloatOps F] (main_arg6 : FVec F S128 .f32) (main_arg7 : FVec F S256x128 .f32) (main_arg8 : FVec F S128 .f32) (main_arg9 : FVec F S128 .f32) (main_arg10 : FVec F S128 .f32) (main_arg11 : FVec F S128x32 .f32) (main_arg12 : FVec F S32 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S640000 32) (main_arg2 : IVec S640000 32) (main_arg3 : FVec F S128x128 .f32) (main_arg4 : FVec F S128 .f32) (main_arg5 : FVec F S256x128 .f32) (main_arg6 : FVec F S128 .f32) (main_arg7 : FVec F S256x128 .f32) (main_arg8 : FVec F S128 .f32) (main_arg9 : FVec F S128 .f32) (main_arg10 : FVec F S128 .f32) (main_arg11 : FVec F S128x32 .f32) (main_arg12 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S256x128 : Shape := ⟨2, ![256, 128]⟩
abbrev S128x32 : Shape := ⟨2, ![128, 32]⟩
abbrev S32 : Shape := ⟨1, ![32]⟩
abbrev S1x128 : Shape := ⟨2, ![1, 128]⟩
abbrev S1x32 : Shape := ⟨2, ![1, 32]⟩
abbrev S2000x128 : Shape := ⟨2, ![2000, 128]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S2000x1 : Shape := ⟨2, ![2000, 1]⟩
abbrev S2000 : Shape := ⟨1, ![2000]⟩

abbrev nBuf : Space → Nat
  | .hbm => 64
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x32, .f32⟩
  | .hbm, ⟨12, _⟩ => ⟨S32, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S1x32, .f32⟩
  | .hbm, ⟨19, _⟩ => ⟨S128x128, .f32⟩
  | .hbm, ⟨20, _⟩ => ⟨S128x128, .f32⟩
  | .hbm, ⟨21, _⟩ => ⟨S50000x128, .f32⟩
  | .hbm, ⟨22, _⟩ => ⟨S50000x128, .bf16⟩
  | .hbm, ⟨23, _⟩ => ⟨S50000x128, .bf16⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .bf16⟩
  | .hbm, ⟨33, _⟩ => ⟨S_, .i32⟩
  | .hbm, ⟨34, _⟩ => ⟨S640000, .i32⟩
  | .hbm, ⟨35, _⟩ => ⟨S640000, .i1⟩
  | .hbm, ⟨36, _⟩ => ⟨S_, .i32⟩
  | .hbm, ⟨37, _⟩ => ⟨S640000, .i32⟩
  | .hbm, ⟨38, _⟩ => ⟨S640000, .i32⟩
  | .hbm, ⟨39, _⟩ => ⟨S640000, .i32⟩
  | .hbm, ⟨40, _⟩ => ⟨S640000x1, .i32⟩
  | .hbm, ⟨41, _⟩ => ⟨S640000x128, .bf16⟩
  | .hbm, ⟨42, _⟩ => ⟨S640000x128, .f32⟩
  | .hbm, ⟨43, _⟩ => ⟨S640000x128, .f32⟩
  | .hbm, ⟨44, _⟩ => ⟨S640000x128, .f32⟩
  | .hbm, ⟨45, _⟩ => ⟨S640000x128, .f32⟩
  | .hbm, ⟨46, _⟩ => ⟨S640000x128, .f32⟩
  | .hbm, ⟨47, _⟩ => ⟨S_, .f32⟩
  | .hbm, ⟨48, _⟩ => ⟨S640000x128, .f32⟩
  | .hbm, ⟨49, _⟩ => ⟨S640000x128, .f32⟩
  | .hbm, ⟨50, _⟩ => ⟨S_, .f32⟩
  | .hbm, ⟨51, _⟩ => ⟨S50000x128, .f32⟩
  | .hbm, ⟨52, _⟩ => ⟨S640000x1, .i32⟩
  | .hbm, ⟨53, _⟩ => ⟨S50000x128, .f32⟩
  | .hbm, ⟨54, _⟩ => ⟨S_, .f32⟩
  | .hbm, ⟨55, _⟩ => ⟨S640000, .f32⟩
  | .hbm, ⟨56, _⟩ => ⟨S_, .f32⟩
  | .hbm, ⟨57, _⟩ => ⟨S50000, .f32⟩
  | .hbm, ⟨58, _⟩ => ⟨S640000x1, .i32⟩
  | .hbm, ⟨59, _⟩ => ⟨S50000, .f32⟩
  | .hbm, ⟨60, _⟩ => ⟨S50000x1, .f32⟩
  | .hbm, ⟨61, _⟩ => ⟨S128x128, .f32⟩
  | .hbm, ⟨62, _⟩ => ⟨S128x128, .f32⟩
  | .hbm, ⟨63, _⟩ => ⟨S1x32, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S128x128, .f32⟩
  | .local _ .vmem, ⟨6, _⟩ => ⟨S2000x128, .f32⟩
  | .local _ .vmem, ⟨7, _⟩ => ⟨S2000x128, .f32⟩
  | .local _ .vmem, ⟨8, _⟩ => ⟨S2000x128, .bf16⟩
  | .local _ .vmem, ⟨9, _⟩ => ⟨S2000x128, .bf16⟩
  | .local _ .vmem, ⟨10, _⟩ => ⟨S2000x128, .bf16⟩
  | .local _ .vmem, ⟨11, _⟩ => ⟨S2000x128, .bf16⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S128x128, .f32⟩
  | .local _ .vmem, ⟨19, _⟩ => ⟨S128x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S128x32, .f32⟩
  | .local _ .vmem, ⟨24, _⟩ => ⟨S1x32, .f32⟩
  | .local _ .vmem, ⟨25, _⟩ => ⟨S1x32, .f32⟩
  | .local _ .vmem, ⟨26, _⟩ => ⟨S1x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_1 : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call0_cst : Ref sig .tc := ⟨.hbm, 47, rfl⟩
abbrev main_call0_v0 : Ref sig .tc := ⟨.hbm, 48, rfl⟩
abbrev main_v28 : Ref sig .tc := ⟨.hbm, 49, rfl⟩
abbrev main_cst : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v65 : BitVec 1 := Scalar.cmpi .eq arg0 c24_i32
  let v66 : BitVec 32 := Scalar.extui v65
  let c0_i32_29 : BitVec 32 := 0#32
  let v67 : BitVec 1 := Scalar.cmpi .ne v66 c0_i32_29
  v67

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x32 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

class Facts₀ : Prop where
  shapeCasts_S128_S1x128 : S128.ShapeCasts S1x128
  shapeCasts_S32_S1x32 : S32.ShapeCasts S1x32
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S128x128_S128x128 : S128x128.ShapeCasts S128x128
  packedbf16_S2000x128_S2000x128_0_0 : (Rect.unit (s := S2000x128) ![0, 0] S2000x128.size inb_S2000x128_S2000x128_0_0).PackedRows (EltTy.packing .bf16)
  bcast_S_S640000 : S_.BroadcastsInDim S640000 (![] : Fin 0 → Fin S640000.rank)
  bcast_S640000_S640000x1_0 : S640000.BroadcastsInDim S640000x1 (![0] : Fin 1 → Fin S640000x1.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  reduces_S2000x128_S2000 : S2000x128.Reduces [1] S2000
  shapeCasts_S2000_S2000x1 : S2000.ShapeCasts S2000x1
  reduces_S2000x128_S128 : S2000x128.Reduces [0] S128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  dot_S2000x128_S128x128_S2000x128_1_0_0_1_n_n_wf : DotDims.WF S2000x128 S128x128 S2000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S1x128_S128x32_S1x32_1_0_0_1_n_n_wf : DotDims.WF S1x128 S128x32 S1x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .bf16 = 32 ∨ (Rect.block (s := S50000x128) S2000x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .bf16 = 32 ∨ (Rect.block (s := S50000x128) S2000x128.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x32.size a ≤ S128x32.size a
  hwx1_8 : ∀ i : grid1.Coords, EltTy.bits .f32 = 32 ∨ (Rect.block (s := S128x32) S128x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x32.size a ≤ S1x32.size a
  hwx1_9 : ∀ i : grid1.Coords, EltTy.bits .f32 = 32 ∨ (Rect.block (s := S1x32) S1x32.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x32.size a ≤ S1x32.size a
  hwx1_10 : ∀ i : grid1.Coords, EltTy.bits .f32 = 32 ∨ (Rect.block (s := S1x32) S1x32.size (cc1_transform_10 i) (hinb1_10 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S1x128_S128x32_S1x32_1_0_0_1_n_n : DotDims S1x128 S128x32 S1x32 where
  lhsContracting := [1]
  rhsContracting := [0]
  lhsNonContracting := [0]
  rhsNonContracting := [1]
  lhsBatch := []
  rhsBatch := []
  wf := dot_S1x128_S128x32_S1x32_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_1) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_2) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v8_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v4) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S128x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v5) S1x32.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v39) S1x32.size cc1_transform_10 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev idle1 : Fin 11 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k1_cond2 i == 1#1) | ⟨_ + 11, h⟩ => absurd h (Nat.not_lt.2 (Nat.le_add_left _ _))

class Facts : Prop extends Facts₀ where

variable [Facts]
-- ==== ReferenceIdeal.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S256x128 : Shape := ⟨2, ![256, 128]⟩
abbrev S128x32 : Shape := ⟨2, ![128, 32]⟩
abbrev S32 : Shape := ⟨1, ![32]⟩
abbrev S1x128 : Shape := ⟨2, ![1, 128]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S1x32 : Shape := ⟨2, ![1, 32]⟩

abbrev nBuf : Space → Nat
  | .hbm => 112
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x32, .f32⟩
  | .hbm, ⟨12, _⟩ => ⟨S32, .f32⟩
  | .hbm, ⟨13, _⟩ => ⟨S50000x128, .f32⟩
  | .hbm, ⟨14, _⟩ => ⟨S1x128, .f32⟩
  | .hbm, ⟨15, _⟩ => ⟨S50000x128, .f32⟩
  | .hbm, ⟨16, _⟩ => ⟨S50000x128, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S128x128, .f32⟩
  | .hbm, ⟨27, _⟩ => ⟨S640000x128, .f32⟩
  | .hbm, ⟨28, _⟩ => ⟨S_, .i32⟩
  | .hbm, ⟨29, _⟩ => ⟨S640000, .i32⟩
  | .hbm, ⟨30, _⟩ => ⟨S640000, .i1⟩
  | .hbm, ⟨31, _⟩ => ⟨S_, .i32⟩
  | .hbm, ⟨32, _⟩ => ⟨S640000, .i32⟩
  | .hbm, ⟨33, _⟩ => ⟨S640000, .i32⟩
  | .hbm, ⟨34, _⟩ => ⟨S640000, .i32⟩
  | .hbm, ⟨35, _⟩ => ⟨S640000x1, .i32⟩
  | .hbm, ⟨36, _⟩ => ⟨S640000x128, .f32⟩
  | .hbm, ⟨37, _⟩ => ⟨S128x128, .f32⟩
  | .hbm, ⟨38, _⟩ => ⟨S640000x128, .f32⟩
  | .hbm, ⟨39, _⟩ => ⟨S640000x128, .f32⟩
  | .hbm, ⟨40, _⟩ => ⟨S1x128, .f32⟩
  | .hbm, ⟨41, _⟩ => ⟨S640000x128, .f32⟩
  | .hbm, ⟨42, _⟩ => ⟨S640000x128, .f32⟩
  | .hbm, ⟨43, _⟩ => ⟨S_, .f32⟩
  | .hbm, ⟨44, _⟩ => ⟨S640000x128, .f32⟩
  | .hbm, ⟨45, _⟩ => ⟨S640000x128, .f32⟩
  | .hbm, ⟨46, _⟩ => ⟨S_, .f32⟩
  | .hbm, ⟨47, _⟩ => ⟨S50000x128, .f32⟩
  | .hbm, ⟨48, _⟩ => ⟨S640000x1, .i32⟩
  | .hbm, ⟨49, _⟩ => ⟨S50000x128, .f32⟩
  | .hbm, ⟨50, _⟩ => ⟨S_, .f32⟩
  | .hbm, ⟨51, _⟩ => ⟨S640000, .f32⟩
  | .hbm, ⟨52, _⟩ => ⟨S_, .f32⟩
  | .hbm, ⟨53, _⟩ => ⟨S50000, .f32⟩
  | .hbm, ⟨54, _⟩ => ⟨S640000x1, .i32⟩
  | .hbm, ⟨55, _⟩ => ⟨S50000, .f32⟩
  | .hbm, ⟨56, _⟩ => ⟨S_, .f32⟩
  | .hbm, ⟨57, _⟩ => ⟨S50000, .f32⟩
  | .hbm, ⟨58, _⟩ => ⟨S50000, .f32⟩
  | .hbm, ⟨59, _⟩ => ⟨S50000x1, .f32⟩
  | .hbm, ⟨60, _⟩ => ⟨S50000x128, .f32⟩
  | .hbm, ⟨61, _⟩ => ⟨S50000x128, .f32⟩
  | .hbm, ⟨62, _⟩ => ⟨S128x128, .f32⟩
  | .hbm, ⟨63, _⟩ => ⟨S50000x128, .f32⟩
  | .hbm, ⟨64, _⟩ => ⟨S128x128, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S50000, .f32⟩
  | .hbm, ⟨76, _⟩ => ⟨S50000x1, .f32⟩
  | .hbm, ⟨77, _⟩ => ⟨S_, .f32⟩
  | .hbm, ⟨78, _⟩ => ⟨S50000x1, .f32⟩
  | .hbm, ⟨79, _⟩ => ⟨S50000x1, .f32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S50000, .f32⟩
  | .hbm, ⟨85, _⟩ => ⟨S50000x1, .f32⟩
  | .hbm, ⟨86, _⟩ => ⟨S_, .f32⟩
  | .hbm, ⟨87, _⟩ => ⟨S50000x1, .f32⟩
  | .hbm, ⟨88, _⟩ => ⟨S50000x1, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S50000x1, .f32⟩
  | .hbm, ⟨93, _⟩ => ⟨S50000x1, .f32⟩
  | .hbm, ⟨94, _⟩ => ⟨S50000x1, .f32⟩
  | .hbm, ⟨95, _⟩ => ⟨S50000x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S1x128, .f32⟩
  | .hbm, ⟨101, _⟩ => ⟨S50000x128, .f32⟩
  | .hbm, ⟨102, _⟩ => ⟨S50000x128, .f32⟩
  | .hbm, ⟨103, _⟩ => ⟨S_, .f32⟩
  | .hbm, ⟨104, _⟩ => ⟨S128, .f32⟩
  | .hbm, ⟨105, _⟩ => ⟨S1x128, .f32⟩
  | .hbm, ⟨106, _⟩ => ⟨S_, .f32⟩
  | .hbm, ⟨107, _⟩ => ⟨S1x128, .f32⟩
  | .hbm, ⟨108, _⟩ => ⟨S1x128, .f32⟩
  | .hbm, ⟨109, _⟩ => ⟨S1x32, .f32⟩
  | .hbm, ⟨110, _⟩ => ⟨S1x32, .f32⟩
  | .hbm, ⟨111, _⟩ => ⟨S1x32, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_cst : Ref sig .tc := ⟨.hbm, 43, rfl⟩
abbrev main_call0_v0 : Ref sig .tc := ⟨.hbm, 44, rfl⟩
abbrev main_v26 : Ref sig .tc := ⟨.hbm, 45, rfl⟩
abbrev main_cst : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call1_cst : Ref sig .tc := ⟨.hbm, 71, rfl⟩
abbrev main_call1_v0 : Ref sig .tc := ⟨.hbm, 72, rfl⟩
abbrev main_v48 : Ref sig .tc := ⟨.hbm, 73, rfl⟩
abbrev main_cst_6 : Ref sig .tc := ⟨.hbm, 74, rfl⟩
abbrev main_v49 : Ref sig .tc := ⟨.hbm, 75, rfl⟩
abbrev main_v50 : Ref sig .tc := ⟨.hbm, 76, rfl⟩
abbrev main_cst_7 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_8 : Ref sig .tc := ⟨.hbm, 83, rfl⟩
abbrev main_v56 : Ref sig .tc := ⟨.hbm, 84, rfl⟩
abbrev main_v57 : Ref sig .tc := ⟨.hbm, 85, rfl⟩
abbrev main_cst_9 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_10 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_11 : Ref sig .tc := ⟨.hbm, 103, rfl⟩
abbrev main_v73 : Ref sig .tc := ⟨.hbm, 104, rfl⟩
abbrev main_v74 : Ref sig .tc := ⟨.hbm, 105, rfl⟩
abbrev main_cst_12 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S640000 : S_.BroadcastsInDim S640000 (![] : Fin 0 → Fin S640000.rank)
  bcast_S640000_S640000x1_0 : S640000.BroadcastsInDim S640000x1 (![0] : Fin 1 → Fin S640000x1.rank)
  slices_S256x128_S128x128_0_0 : S256x128.Slices ![0, 0] S128x128
  slices_S256x128_S128x128_128_0 : S256x128.Slices ![128, 0] S128x128
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  reducesTo_S50000x128_S128_d0 : S50000x128.ReducesTo [0] S128
  bcast_S_S1x128 : S_.BroadcastsInDim S1x128 (![] : Fin 0 → Fin S1x128.rank)
  bcast_S32_S1x32_1 : S32.BroadcastsInDim S1x32 (![1] : Fin 1 → Fin S1x32.rank)
  dot_S50000x128_S128x128_S50000x128_1_0_0_1_n_n_wf : DotDims.WF S50000x128 S128x128 S50000x128 [1] [0] [0] [1] [] []
  gather_S50000x128_S640000x1_S640000x128_1_0_n_n_0_1_1128_wf : GatherDims.WF S50000x128 S640000x1 S640000x128 [1] [0] [] [0] [] 1 ![1, 128]
  dot_S640000x128_S128x128_S640000x128_1_0_0_1_n_n_wf : DotDims.WF S640000x128 S128x128 S640000x128 [1] [0] [0] [1] [] []
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S1x128_S128x32_S1x32_1_0_0_1_n_n_wf : DotDims.WF S1x128 S128x32 S1x32 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S1x128_S128x32_S1x32_1_0_0_1_n_n : DotDims S1x128 S128x32 S1x32 where
  lhsContracting := [1]
  rhsContracting := [0]
  lhsNonContracting := [0]
  rhsNonContracting := [1]
  lhsBatch := []
  rhsBatch := []
  wf := dot_S1x128_S128x32_S1x32_1_0_0_1_n_n_wf

class Facts : Prop extends Facts₀ where

variable [Facts]
-- ==== Proof.KR0Body.lean ====
/- Region 0 (the projection kernel, 25 grid points of 2000 rows): the kernel body's triple on whole staging
   buffers and the pipeline's proof data at arbitrary region-entry contents `V`, at any float interpretation.
   The five inputs keep their blocks; each of the three outputs is left at the canonical form of its one whole
   store, a function of the input blocks. -/
import proofs.«113755_j53815940219242_2_alg».proof.Proof.Gen.Kernel.Launch
import proofs.«113755_j53815940219242_2_alg».proof.Proof.Gen.Kernel.Skeleton
import proofs.«113755_j53815940219242_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and store is of a whole buffer -/

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-! ## What the body leaves in each output window's buffer -/

/-- Window 5 (the projected rows) after the body, from the input blocks: its one store. -/
def out0_5 (x0 : Vec F S2000x128 .f32) (x1 : Vec F S128x128 .f32) (x2 : Vec F S1x128 .f32) (x3 : Vec F S128x128 .f32) (x4 : Vec F S128x128 .f32) : Vec F S2000x128 .f32 :=
  View.canon [⟨r0_0, k0_pay1 (View.ld x0 r0_0) (View.ld x1 r0_1) (View.ld x2 r0_2)⟩]

/-- Window 6 (the rows times the top half of the message weights) after the body: its one store. -/
def out0_6 (x0 : Vec F S2000x128 .f32) (x1 : Vec F S128x128 .f32) (x2 : Vec F S1x128 .f32) (x3 : Vec F S128x128 .f32) (x4 : Vec F S128x128 .f32) : Vec F S2000x128 .bf16 :=
  View.canon [⟨r0_0, k0_pay3 (View.ld x0 r0_0) (View.ld x1 r0_1) (View.ld x2 r0_2) (View.ld x3 r0_1)⟩]

/-- Window 7 (the rows times the bottom half of the message weights) after the body: its one store. -/
def out0_7 (x0 : Vec F S2000x128 .f32) (x1 : Vec F S128x128 .f32) (x2 : Vec F S1x128 .f32) (x3 : Vec F S128x128 .f32) (x4 : Vec F S128x128 .f32) : Vec F S2000x128 .bf16 :=
  View.canon [⟨r0_0, k0_pay4 (View.ld x0 r0_0) (View.ld x1 r0_1) (View.ld x2 r0_2) (View.ld x4 r0_1)⟩]

/-- A whole store tiles the buffer, so it covers it. -/
theorem cover0_5 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y
theorem cover0_6 (p0 : Vec F S2000x128 .bf16) (y : S2000x128.Idx) :
    ∃ pc ∈ ([⟨r0_0, p0⟩] : List (View.Piece (Elt F) S2000x128 .bf16)), y ∈ pc.1.set :=
  View.cover_of_tiled [⟨r0_0, p0⟩] S2000x128.size (by rfl) y
theorem cover0_7 (p0 : Vec F S2000x128 .bf16) (y : S2000x128.Idx) :
    ∃ pc ∈ ([⟨r0_0, p0⟩] : List (View.Piece (Elt F) S2000x128 .bf16)), y ∈ pc.1.set :=
  View.cover_of_tiled [⟨r0_0, p0⟩] S2000x128.size (by rfl) y

/-! ## The body's triple -/

set_option maxHeartbeats 4000000 in
/-- The kernel body on whole staging memrefs, the inputs' at read contents `xW` and the outputs' at anything, runs to
    the continuation holding the inputs' as they were and each output's at `out0_W` of the inputs'. -/
theorem sound_kernel0 (c : Dev nD) (E : Set ℕ) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S2000x128 .f32) (harg6 : arg6.IsWhole) (arg7 : Memref sig .tc .vmem S2000x128 .bf16) (harg7 : arg7.IsWhole) (arg8 : Memref sig .tc .vmem S2000x128 .bf16) (harg8 : arg8.IsWhole)
    (x0 : Vec F S2000x128 .f32) (x1 : Vec F S128x128 .f32) (x2 : Vec F S1x128 .f32) (x3 : Vec F S128x128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0_5 x0 x1 x2 x3 x4) ∗ owns (c : Thread nD τ) arg7 fullShare (out0_6 x0 x1 x2 x3 x4) ∗ owns (c : Thread nD τ) arg8 fullShare (out0_7 x0 x1 x2 x3 x4)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The pipeline's proof data -/

/-- The proof data of pipeline 0 on core `c`: the arrays as the region finds them; after the body at point `t`
    each input's buffer at its block and each output's at `out0_W` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.KR1Runs.lean ====
/-
  The second kernel (residual update, layer norm, column sums, dense head) is entered once per block of 2000 rows.
  This module fixes what all of its runs share, at any contents `V` of the buffers when the region is entered:
  the block of each input window at a point, the two conditions on the grid position (first point: the
  accumulator is reset; last point: the head is computed and the result stored), where the result window is
  idle, and the memrefs the body is called with.
-/
import proofs.«113755_j53815940219242_2_alg».proof.Proof.Gen.Kernel.Launch
import proofs.«113755_j53815940219242_2_alg».proof.Proof.Gen.Kernel.Skeleton
import proofs.«113755_j53815940219242_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions on the grid position -/

/-- The first condition: the grid position is 0 (the accumulator is reset). -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 25 = 0 :=
  (by decide +kernel : ∀ t : Fin grid1.N, cond1_0 (grid1.coords t) ↔ t.val % 25 = 0)

/-- The second condition: the grid position is 24, the last (the head is computed). -/
abbrev cond1_1 (i : grid1.Coords) : Prop := k1_cond2 i = 1#1
theorem hcond1_1 : ∀ t : Fin cfg1.N, cond1_1 (grid1.coords t) ↔ t.val % 25 = 24 :=
  (by decide +kernel : ∀ t : Fin grid1.N, cond1_1 (grid1.coords t) ↔ t.val % 25 = 24)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
/-- Away from the last point the result window is idle and not written back. -/
theorem idleAt1_10 : ∀ t : Fin cfg1.N, ¬cond1_1 (grid1.coords t) → cfg1.idle 10 (grid1.coords t) = true := by decide +kernel
theorem noFlush1_10 : ∀ t : Fin cfg1.N, ¬cond1_1 (grid1.coords t) → (cfg1.win 10).flush t = false := by decide +kernel
/-- At the last point it is live. -/
theorem liveAt1_10 : ∀ t : Fin cfg1.N, cond1_1 (grid1.coords t) → cfg1.idle 10 (grid1.coords t) = false := by decide +kernel

/-! ## The memrefs the body is called with -/

/-- One staging buffer of the result window, through which its contents are stated. -/
abbrev VO1_10 : View sig .tc .vmem S1x32 .f32 := (Memref.whole cc1_stg10_0 : Memref sig .tc .vmem S1x32 .f32).view
abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x32 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x32 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x32 .f32 := win1_10.stage (cfg1.slots t 10)
abbrev hs1_10 (t : Fin cfg1.N) : (ms1_10 t).IsWhole := hstage1_10 ((cfg1.slots t 10).cast nbuf1_10)
/-- The accumulator: a whole scoped buffer of the kernel's own, passed beside the windows and carried from point to point. -/
abbrev scM1_0 : Memref sig .tc .vmem S1x128 .f32 := Memref.whole cc1_scratch0
abbrev VS1_0 : View sig .tc .vmem S1x128 .f32 := scM1_0.view

end Cert.Kernel.R1

end
-- ==== Proof.KR1RunA.lean ====
/-
  The second kernel's body run at the first grid point (the accumulator is reset first; no result is stored): on whole staging memrefs holding the input blocks,
  the body runs to a state where the inputs are as they were and the accumulator (and, at the last point, the
  result buffer) holds the pieces the body's stores wrote. The pieces are found by the run itself.
-/
import proofs.«113755_j53815940219242_2_alg».proof.Proof.KR1Runs

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : cond1_0 i) (hc1 : ¬cond1_1 i)
    (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) :
    Σ' (L10 : List (View.Piece (Elt F) S1x32 .f32)), { LS0 : List (View.Piece (Elt F) S1x128 .f32) //
      ∀ (xi10 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ f, arg12.view.loc (c : Thread nD τ) ↦[arg12.view.set]{fullShare} arg12.view.writes (Elt F) f LS0)) -∗ K ⟨⟩))
          ⊢ wp frame (wpE (defs₀ (F := F)) Variants.none c none) E (cc1__final_kernel i arg1 harg1 arg2 harg2 arg3 harg3 arg4 harg4 arg5 harg5 arg6 harg6 arg7 harg7 arg8 harg8 arg9 harg9 arg10 harg10 arg11 harg11 arg12 harg12) K } := by
  refine ⟨[], ?_, fun xi10 E K => ?run⟩
  case run =>
    simp only [cc1__final_kernel_eq_skeleton]; unfold cc1__final_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    iexists _; iexact HS0

end Cert.Kernel.R1

end
-- ==== Proof.KR1RunB.lean ====
/-
  The second kernel's body run at a grid point that is neither the first nor the last (the accumulator is added to; no result is stored): on whole staging memrefs holding the input blocks,
  the body runs to a state where the inputs are as they were and the accumulator (and, at the last point, the
  result buffer) holds the pieces the body's stores wrote. The pieces are found by the run itself.
-/
import proofs.«113755_j53815940219242_2_alg».proof.Proof.KR1RunA

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : ¬cond1_0 i) (hc1 : ¬cond1_1 i)
    (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) (xs0 : Vec F S1x128 .f32) :
    Σ' (L10 : List (View.Piece (Elt F) S1x32 .f32)), { LS0 : List (View.Piece (Elt F) S1x128 .f32) //
      ∀ (xi10 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ f, arg12.view.loc (c : Thread nD τ) ↦[arg12.view.set]{fullShare} arg12.view.writes (Elt F) f LS0)) -∗ K ⟨⟩))
          ⊢ wp frame (wpE (defs₀ (F := F)) Variants.none c none) E (cc1__final_kernel i arg1 harg1 arg2 harg2 arg3 harg3 arg4 harg4 arg5 harg5 arg6 harg6 arg7 harg7 arg8 harg8 arg9 harg9 arg10 harg10 arg11 harg11 arg12 harg12) K } := by
  refine ⟨[], ?_, fun xi10 E K => ?run⟩
  case run =>
    simp only [cc1__final_kernel_eq_skeleton]; unfold cc1__final_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    iexists _; iexact HS0

end Cert.Kernel.R1

end
-- ==== Proof.KR1RunC.lean ====
/-
  The second kernel's body run at the last grid point (the accumulator is added to, then the head is computed from it and the result stored): on whole staging memrefs holding the input blocks,
  the body runs to a state where the inputs are as they were and the accumulator (and, at the last point, the
  result buffer) holds the pieces the body's stores wrote. The pieces are found by the run itself.
-/
import proofs.«113755_j53815940219242_2_alg».proof.Proof.KR1RunB

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : ¬cond1_0 i) (hc1 : cond1_1 i)
    (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) (xs0 : Vec F S1x128 .f32) :
    Σ' (L10 : List (View.Piece (Elt F) S1x32 .f32)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc1__final_kernel i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__final_kernel_eq_skeleton]; unfold cc1__final_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    iexists _; iexact HS0

end Cert.Kernel.R1

end
-- ==== Proof.KR1Body.lean ====
/-
  The second kernel over its 25 grid points. Each point adds its block's column sums of the normalised rows to
  an accumulator the kernel keeps in a scratch buffer (reset at the first point); only the last point stores a
  result. This module names what each kind of point leaves in the accumulator and in the result buffer, folds
  these over the points (`outsAt1`), states the invariant between points (the accumulator at what the point
  before left, every other scoped buffer at some contents), and proves the body's obligation at every point.
-/
import proofs.«113755_j53815940219242_2_alg».proof.Proof.KR1RunC

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

/-- What a point of kind A leaves in the result buffer (nothing is stored: a placeholder no one consults). -/
def out1_A_10 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : cond1_0 i) (hc1 : ¬cond1_1 i)
    (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) : Vec F S1x32 .f32 :=
  VO1_10.read (Elt F) (VO1_10.writes (Elt F) VO1_10.junk (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9).1)

/-- The stores of a point of kind A into the accumulator cover it. -/
theorem scover1_A_0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : cond1_0 i) (hc1 : ¬cond1_1 i)
    (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) (y : S1x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9).2.1 S1x128.size (by sl_kernel_rfl) y

/-- What a point of kind A leaves in the accumulator. -/
def sout1_A_0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : cond1_0 i) (hc1 : ¬cond1_1 i)
    (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) : Vec F S1x128 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9).2.1)

/-- What a point of kind B leaves in the result buffer (nothing is stored: a placeholder no one consults). -/
def out1_B_10 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : ¬cond1_0 i) (hc1 : ¬cond1_1 i)
    (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) (xs0 : Vec F S1x128 .f32) : Vec F S1x32 .f32 :=
  VO1_10.read (Elt F) (VO1_10.writes (Elt F) VO1_10.junk (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0).1)

/-- The stores of a point of kind B into the accumulator cover it. -/
theorem scover1_B_0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : ¬cond1_0 i) (hc1 : ¬cond1_1 i)
    (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) (xs0 : Vec F S1x128 .f32) (y : S1x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0).2.1 S1x128.size (by sl_kernel_rfl) y

/-- What a point of kind B leaves in the accumulator. -/
def sout1_B_0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : ¬cond1_0 i) (hc1 : ¬cond1_1 i)
    (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) (xs0 : Vec F S1x128 .f32) : Vec F S1x128 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0).2.1)

/-- The last point's one store into the result buffer covers it. -/
theorem cover1_C_10 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : ¬cond1_0 i) (hc1 : cond1_1 i)
    (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) (xs0 : Vec F S1x128 .f32) (y : S1x32.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0).1 S1x32.size (by sl_kernel_rfl) y

/-- What a point of kind C leaves in the result buffer: its pieces read back. -/
def out1_C_10 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : ¬cond1_0 i) (hc1 : cond1_1 i)
    (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) (xs0 : Vec F S1x128 .f32) : Vec F S1x32 .f32 :=
  VO1_10.read (Elt F) (VO1_10.writes (Elt F) VO1_10.junk (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0).1)

/-- The stores of a point of kind C into the accumulator cover it. -/
theorem scover1_C_0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : ¬cond1_0 i) (hc1 : cond1_1 i)
    (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) (xs0 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0).2.1 S1x128.size (by sl_kernel_rfl) y

/-- What a point of kind C leaves in the accumulator. -/
def sout1_C_0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : ¬cond1_0 i) (hc1 : cond1_1 i)
    (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) (xs0 : Vec F S1x128 .f32) : Vec F S1x128 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0).2.1)

/-! ## The accumulation over the points -/

/-- What the result buffer and the accumulator hold after the body at position `n`: the kind of point the position
    selects, run on the point's blocks and on what the position before left in the accumulator. -/
def outsAt1 (c : Dev nD) : (n : ℕ) → n < cfg1.N → Vec F S1x32 .f32 × Vec F S1x128 .f32
  | 0, hn => (out1_A_10 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩))
  | n + 1, hn =>
    if h0 : (n + 1) % 25 = 0 then
      if h1 : (n + 1) % 25 = 24 then
        False.elim (by omega)
      else
        (out1_A_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩))
    else
      if h1 : (n + 1) % 25 = 24 then
        (out1_C_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2)
      else
        (out1_B_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2)

theorem outsAt1_A (c : Dev nD) (t : Fin cfg1.N) (h0 : t.val % 25 = 0) (h1 : ¬t.val % 25 = 24) :
    outsAt1 V c t.val t.isLt = (out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) := by
  obtain ⟨n, hn⟩ := t
  cases n with
  | zero => exact rfl
  | succ n => exact (dif_pos h0).trans ((dif_neg h1).trans rfl)

theorem outsAt1_B (c : Dev nD) (t : Fin cfg1.N) (h0 : ¬t.val % 25 = 0) (h1 : ¬t.val % 25 = 24) :
    outsAt1 V c t.val t.isLt = (out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 25 = 0) (h1 : t.val % 25 = 24) :
    outsAt1 V c t.val t.isLt = (out1_C_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Every scoped buffer that is neither one of this call's staging buffers nor its accumulator, at some contents:
    carried along untouched. -/
abbrev Rest1 (c : Dev nD) : sProp 𝕄 :=
  Pipeline.scopedRestBut (Ix := Unit) (Name := ℕ) (U := UR sig nD τ) (Lvl := ℕ) (Val := Elt F) spec1 c [cc1_scratch0]

/-- The class invariant with the accumulator split off as a memref owned at some contents. -/
theorem PhiA1_eq (c : Dev nD) :
    (Pipeline.ΦA spec1 c : sProp 𝕄)
      = iprop(iprop((∃ d, owns (c : Thread nD τ) scM1_0 fullShare d) ∗ Rest1 (F := F) c) ∗ (∃ r, prngReg c r)) := by
  unfold Pipeline.ΦA
  rw [Pipeline.scopedRest_split_of_list spec1 c [cc1_scratch0] (by decide) (by decide)]
  simp only [scM1_0, owns_whole]; try rfl

/-- Before the first point: the class invariant. Afterwards: the accumulator at what the point before left. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ Rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Rest1 (F := F) c) ∗ (∃ r, prngReg c r)) := by
  cases n with
  | zero => exact absurd rfl hz
  | succ n => rfl

/-! ## The proof data -/

/-- The arrays as the region finds them; after the body each input's buffer at its block, the result's at
    `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 8000000 in
/-- The body at any point: the inputs' memrefs hold their blocks; the position decides the kind of point; the
    invariant hands the body the accumulator (at anything at the first point, at what the point before left
    afterwards) and takes it back at this point's contents; every other scoped buffer rides along; the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  by_cases h0 : t.val % 25 = 0
  · by_cases h1 : t.val % 25 = 24
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [Dat.leavesExact_idle (dat1 V c) 10 t (idleAt1_10 t (fun h => h1 ((hcond1_1 t).mp h))) (noFlush1_10 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_A c (grid1.coords t) _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iintro ⟨H0, H1, H2, H3, H4, H5, H6, H7, H8, H9, H10, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
      · exfalso; omega
  · by_cases h1 : t.val % 25 = 24
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [show (dat1 V c).leavesExact 10 t = owns (c : Thread nD τ) (ms1_10 t) fullShare ((dat1 V c).after 10 t) from by
        unfold Dat.leavesExact; rw [liveAt1_10 t ((hcond1_1 t).mpr h1)], after1_10]
      rw [outsAt1_C V c t h0 h1]
      unfold out1_C_10 sout1_C_0; (try dsimp only)
      have hz : t.val ≠ 0 := by omega
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun1_C c (grid1.coords t) _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      iintro ⟨H0, H1, H2, H3, H4, H5, H6, H7, H8, H9, ⟨%e10, H10⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover1_C_10 c _ _ _ _ _ _ _ _ _ _ _ _ _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [Dat.leavesExact_idle (dat1 V c) 10 t (idleAt1_10 t (fun h => h1 ((hcond1_1 t).mp h))) (noFlush1_10 t (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun1_B c (grid1.coords t) _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      iintro ⟨H0, H1, H2, H3, H4, H5, H6, H7, H8, H9, H10, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 25 := N_1; omega), PhiA1_eq]
  iintro ⟨⟨HS0, HR⟩, Hg⟩
  isplitl [HS0 HR]
  · isplitl [HS0]
    · iexists _; iexact HS0
    iexact HR
  iexact Hg

end Cert.Kernel.R1

end
-- ==== Proof.KRun.lean ====
/-
  The whole program as six segments — the host lines before the first kernel, the first kernel (node projection
  and the two node-space message products), three stretches of host lines (index normalisation and the two row
  gathers; the rectifier; the two segment sums and the slices of the update weights), the second kernel — run by the
  library's several-region launch. The contents of every unscoped buffer at each segment boundary are a fold from
  the launch memory: a host stretch applies its operations, a kernel region replaces its arrays by what its
  write-backs leave. The run's post is that every unscoped buffer ends at the last boundary's contents; from it,
  each argument array ends as launched (no segment writes one) and the result array ends at what the second
  kernel's last write-back leaves.
-/
import proofs.«113755_j53815940219242_2_alg».proof.Proof.Gen.Kernel.Regions
import proofs.«113755_j53815940219242_2_alg».proof.Proof.KR0Body
import proofs.«113755_j53815940219242_2_alg».proof.Proof.KR1Body

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the host lines before the first kernel (its entry). -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- At the first kernel's exit: its arrays at what the pipeline leaves, every other buffer as entered. -/
def W2 (c : Dev nD) : Valuation τ sig (Elt F) :=
  Pipeline.withArrays spec0 c (W1 m c) fun w => (R0.dat0 (E1 m) c).arrAt w cfg0.N
theorem W2_arr (c : Dev nD) (w : Fin cfg0.W) :
    W2 m c (Proc.devRef .tc (Pipeline.arrRef spec0 w)) = (R0.dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev X2 : (c : Dev nD) → (b : Ref sig .tc) → Buf (Elt F) ((c : Thread nD τ).loc b) := fun c b => W2 m c b
theorem hF0 (c : Dev nD) (w : Fin cfg0.W) : (R0.dat0 (E1 m) c).arrAt w cfg0.N = X2 m c (Pipeline.arrRef spec0 w) :=
  (W2_arr m c w).symm
theorem hrest0 (c : Dev nD) : ∀ b, b ∉ Finset.univ.image (Pipeline.arrRef spec0) → X2 m c b = E1 m c b :=
  fun b hb => W2_of_ne m c b fun w e => hb (Finset.mem_image.mpr ⟨w, Finset.mem_univ _, e⟩)

/-- After the gathers and additions, after the rectifier, after the segment sums (the second kernel's entry). -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev E5 : (c : Dev nD) → (b : Ref sig .tc) → Buf (Elt F) ((c : Thread nD τ).loc b) := fun c b => W5 m c b
/-- At the second kernel's exit. -/
def W6 (c : Dev nD) : Valuation τ sig (Elt F) :=
  Pipeline.withArrays spec1 c (W5 m c) fun w => (R1.dat1 (E5 m) c).arrAt w cfg1.N
theorem W6_arr (c : Dev nD) (w : Fin cfg1.W) :
    W6 m c (Proc.devRef .tc (Pipeline.arrRef spec1 w)) = (R1.dat1 (E5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev X6 : (c : Dev nD) → (b : Ref sig .tc) → Buf (Elt F) ((c : Thread nD τ).loc b) := fun c b => W6 m c b
theorem hF1 (c : Dev nD) (w : Fin cfg1.W) : (R1.dat1 (E5 m) c).arrAt w cfg1.N = X6 m c (Pipeline.arrRef spec1 w) :=
  (W6_arr m c w).symm
theorem hrest1 (c : Dev nD) : ∀ b, b ∉ Finset.univ.image (Pipeline.arrRef spec1) → X6 m c b = E5 m c b :=
  fun b hb => W6_of_ne m c b fun w e => hb (Finset.mem_image.mpr ⟨w, Finset.mem_univ _, e⟩)

/-! ## A kernel changes its output arrays only -/

theorem isIn0 : ∀ w : Fin cfg0.W, Pipeline.arrRef spec0 w ≠ main_v8_0 → Pipeline.arrRef spec0 w ≠ main_v8_1 → Pipeline.arrRef spec0 w ≠ main_v8_2 →
    (cfg0.win w).isOut = false := by decide
theorem isIn1 : ∀ w : Fin cfg1.W, Pipeline.arrRef spec1 w ≠ main_v39 → (cfg1.win w).isOut = false := by decide

theorem W2_keep (c : Dev nD) (b : Ref sig .tc) (h5 : b ≠ main_v8_0) (h6 : b ≠ main_v8_1) (h7 : b ≠ main_v8_2) :
    W2 m c (Proc.devRef .tc b) = W1 m c (Proc.devRef .tc b) := by
  by_cases h : ∃ w, Pipeline.arrRef spec0 w = b
  · obtain ⟨w, rfl⟩ := h
    exact (W2_arr m c w).trans (((R0.dat0 (E1 m) c).arrAt_in w (isIn0 w h5 h6 h7) _).trans (R0.A_eq0 (E1 m) c w))
  · exact W2_of_ne m c b (fun w e => h ⟨w, e⟩)

theorem W6_keep (c : Dev nD) (b : Ref sig .tc) (h : b ≠ main_v39) :
    W6 m c (Proc.devRef .tc b) = W5 m c (Proc.devRef .tc b) := by
  by_cases h' : ∃ w, Pipeline.arrRef spec1 w = b
  · obtain ⟨w, rfl⟩ := h'
    exact (W6_arr m c w).trans (((R1.dat1 (E5 m) c).arrAt_in w (isIn1 w h) _).trans (R1.A_eq1 (E5 m) c w))
  · exact W6_of_ne m c b (fun w e => h' ⟨w, e⟩)

/-- A buffer no host line writes and no kernel stores into ends as launched. -/
theorem W6_untouched (c : Dev nD) (b : Ref sig .tc) (h6 : b ≠ main_v39) (h5 : b ∉ hostOps1_2_W) (h4 : b ∉ hostOps1_1_W) (h3 : b ∉ hostOps1_W)
    (h2a : b ≠ main_v8_0) (h2b : b ≠ main_v8_1) (h2c : b ≠ main_v8_2) (h1 : b ∉ hostOps0_W) :
    W6 m c (Proc.devRef .tc b) = m ((c : Thread nD τ).loc b) :=
  calc W6 m c (Proc.devRef .tc b)
    _ = W5 m c (Proc.devRef .tc b) := W6_keep m c b h6
    _ = W4 m c (Proc.devRef .tc b) := StableHlo.after_of_writes_sub hostOps1_2 _ hostOps1_2_writes h5
    _ = W3 m c (Proc.devRef .tc b) := StableHlo.after_of_writes_sub hostOps1_1 _ hostOps1_1_writes h4
    _ = W2 m c (Proc.devRef .tc b) := StableHlo.after_of_writes_sub hostOps1 _ hostOps1_writes h3
    _ = W1 m c (Proc.devRef .tc b) := W2_keep m c b h2a h2b h2c
    _ = W0 m c (Proc.devRef .tc b) := StableHlo.after_of_writes_sub hostOps0 _ hostOps0_writes h1
    _ = m ((c : Thread nD τ).loc b) := rfl

theorem W6_main_arg0 (c : Dev nD) : W6 m c (Proc.devRef .tc main_arg0) = m ((c : Thread nD τ).loc main_arg0) :=
  W6_untouched m c main_arg0 (by decide) (by decide) (by decide) (by decide) (by decide) (by decide) (by decide) (by decide)
theorem W6_main_arg1 (c : Dev nD) : W6 m c (Proc.devRef .tc main_arg1) = m ((c : Thread nD τ).loc main_arg1) :=
  W6_untouched m c main_arg1 (by decide) (by decide) (by decide) (by decide) (by decide) (by decide) (by decide) (by decide)
theorem W6_main_arg2 (c : Dev nD) : W6 m c (Proc.devRef .tc main_arg2) = m ((c : Thread nD τ).loc main_arg2) :=
  W6_untouched m c main_arg2 (by decide) (by decide) (by decide) (by decide) (by decide) (by decide) (by decide) (by decide)
theorem W6_main_arg3 (c : Dev nD) : W6 m c (Proc.devRef .tc main_arg3) = m ((c : Thread nD τ).loc main_arg3) :=
  W6_untouched m c main_arg3 (by decide) (by decide) (by decide) (by decide) (by decide) (by decide) (by decide) (by decide)
theorem W6_main_arg4 (c : Dev nD) : W6 m c (Proc.devRef .tc main_arg4) = m ((c : Thread nD τ).loc main_arg4) :=
  W6_untouched m c main_arg4 (by decide) (by decide) (by decide) (by decide) (by decide) (by decide) (by decide) (by decide)
theorem W6_main_arg5 (c : Dev nD) : W6 m c (Proc.devRef .tc main_arg5) = m ((c : Thread nD τ).loc main_arg5) :=
  W6_untouched m c main_arg5 (by decide) (by decide) (by decide) (by decide) (by decide) (by decide) (by decide) (by decide)
theorem W6_main_arg6 (c : Dev nD) : W6 m c (Proc.devRef .tc main_arg6) = m ((c : Thread nD τ).loc main_arg6) :=
  W6_untouched m c main_arg6 (by decide) (by decide) (by decide) (by decide) (by decide) (by decide) (by decide) (by decide)
theorem W6_main_arg7 (c : Dev nD) : W6 m c (Proc.devRef .tc main_arg7) = m ((c : Thread nD τ).loc main_arg7) :=
  W6_untouched m c main_arg7 (by decide) (by decide) (by decide) (by decide) (by decide) (by decide) (by decide) (by decide)
theorem W6_main_arg8 (c : Dev nD) : W6 m c (Proc.devRef .tc main_arg8) = m ((c : Thread nD τ).loc main_arg8) :=
  W6_untouched m c main_arg8 (by decide) (by decide) (by decide) (by decide) (by decide) (by decide) (by decide) (by decide)
theorem W6_main_arg9 (c : Dev nD) : W6 m c (Proc.devRef .tc main_arg9) = m ((c : Thread nD τ).loc main_arg9) :=
  W6_untouched m c main_arg9 (by decide) (by decide) (by decide) (by decide) (by decide) (by decide) (by decide) (by decide)
theorem W6_main_arg10 (c : Dev nD) : W6 m c (Proc.devRef .tc main_arg10) = m ((c : Thread nD τ).loc main_arg10) :=
  W6_untouched m c main_arg10 (by decide) (by decide) (by decide) (by decide) (by decide) (by decide) (by decide) (by decide)
theorem W6_main_arg11 (c : Dev nD) : W6 m c (Proc.devRef .tc main_arg11) = m ((c : Thread nD τ).loc main_arg11) :=
  W6_untouched m c main_arg11 (by decide) (by decide) (by decide) (by decide) (by decide) (by decide) (by decide) (by decide)
theorem W6_main_arg12 (c : Dev nD) : W6 m c (Proc.devRef .tc main_arg12) = m ((c : Thread nD τ).loc main_arg12) :=
  W6_untouched m c main_arg12 (by decide) (by decide) (by decide) (by decide) (by decide) (by decide) (by decide) (by decide)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (E1 m) c
  | ⟨1, _⟩ => fun c => R1.dat1 (E5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- The first kernel over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel over the thread state: entered from every unscoped buffer at `W5`, left at `W6`. Its
    invariant starts as the class's and ends giving the class's back (the accumulator's contents forgotten). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (E5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (R1.hout1 (E5 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (X6 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m) ]

set_option backward.isDefEq.respectTransparency.types false in
/-- THE RUN. From any memory with zero counters every weakly fair execution of the program terminates, nothing
    faulting, and every unscoped buffer of every core ends at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c),
     (h c _ (mem_uc main_arg7 (by decide))).trans (W6_main_arg7 m c),
     (h c _ (mem_uc main_arg8 (by decide))).trans (W6_main_arg8 m c),
     (h c _ (mem_uc main_arg9 (by decide))).trans (W6_main_arg9 m c),
     (h c _ (mem_uc main_arg10 (by decide))).trans (W6_main_arg10 m c),
     (h c _ (mem_uc main_arg11 (by decide))).trans (W6_main_arg11 m c),
     (h c _ (mem_uc main_arg12 (by decide))).trans (W6_main_arg12 m c)⟩) (run_all m ρ)

/-- THE RESULT: besides the frame, the result array ends at what the second kernel's write-backs leave. -/
theorem run_result : θ_run defs (onTc (τ := τ) (main (F := F))) ⟨m, fun _ => 0, ρ⟩ (fun r => ∀ c : Dev nD,
      r.2.mem ((c.tc : Thread nD τ).loc main_v39) = (R1.dat1 (E5 m) c).arrAt 10 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(h c _ (mem_uc main_v39 (by decide))).trans (W6_arr m c 10),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c),
     (h c _ (mem_uc main_arg7 (by decide))).trans (W6_main_arg7 m c),
     (h c _ (mem_uc main_arg8 (by decide))).trans (W6_main_arg8 m c),
     (h c _ (mem_uc main_arg9 (by decide))).trans (W6_main_arg9 m c),
     (h c _ (mem_uc main_arg10 (by decide))).trans (W6_main_arg10 m c),
     (h c _ (mem_uc main_arg11 (by decide))).trans (W6_main_arg11 m c),
     (h c _ (mem_uc main_arg12 (by decide))).trans (W6_main_arg12 m c)⟩) (run_all m ρ)

end Cert.Kernel.Run

end
-- ==== Proof.R0Body.lean ====
/- Region 0 (the projection kernel, 25 grid points of 2000 rows): the kernel body's triple on whole staging
   buffers and the pipeline's proof data at arbitrary region-entry contents `V`, at any float interpretation.
   The five inputs keep their blocks; each of the three outputs is left at the canonical form of its one whole
   store, a function of the input blocks. -/
import proofs.«113755_j53815940219242_2_alg».proof.Proof.Gen.KernelIdeal.Launch
import proofs.«113755_j53815940219242_2_alg».proof.Proof.Gen.KernelIdeal.Skeleton
import proofs.«113755_j53815940219242_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and store is of a whole buffer -/

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-! ## What the body leaves in each output window's buffer -/

/-- Window 5 (the projected rows) after the body, from the input blocks: its one store. -/
def out0_5 (x0 : Vec F S2000x128 .f32) (x1 : Vec F S128x128 .f32) (x2 : Vec F S1x128 .f32) (x3 : Vec F S128x128 .f32) (x4 : Vec F S128x128 .f32) : Vec F S2000x128 .f32 :=
  View.canon [⟨r0_0, k0_pay1 (View.ld x0 r0_0) (View.ld x1 r0_1) (View.ld x2 r0_2)⟩]

/-- Window 6 (the rows times the top half of the message weights) after the body: its one store. -/
def out0_6 (x0 : Vec F S2000x128 .f32) (x1 : Vec F S128x128 .f32) (x2 : Vec F S1x128 .f32) (x3 : Vec F S128x128 .f32) (x4 : Vec F S128x128 .f32) : Vec F S2000x128 .bf16 :=
  View.canon [⟨r0_0, k0_pay3 (View.ld x0 r0_0) (View.ld x1 r0_1) (View.ld x2 r0_2) (View.ld x3 r0_1)⟩]

/-- Window 7 (the rows times the bottom half of the message weights) after the body: its one store. -/
def out0_7 (x0 : Vec F S2000x128 .f32) (x1 : Vec F S128x128 .f32) (x2 : Vec F S1x128 .f32) (x3 : Vec F S128x128 .f32) (x4 : Vec F S128x128 .f32) : Vec F S2000x128 .bf16 :=
  View.canon [⟨r0_0, k0_pay4 (View.ld x0 r0_0) (View.ld x1 r0_1) (View.ld x2 r0_2) (View.ld x4 r0_1)⟩]

/-- A whole store tiles the buffer, so it covers it. -/
theorem cover0_5 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y
theorem cover0_6 (p0 : Vec F S2000x128 .bf16) (y : S2000x128.Idx) :
    ∃ pc ∈ ([⟨r0_0, p0⟩] : List (View.Piece (Elt F) S2000x128 .bf16)), y ∈ pc.1.set :=
  View.cover_of_tiled [⟨r0_0, p0⟩] S2000x128.size (by rfl) y
theorem cover0_7 (p0 : Vec F S2000x128 .bf16) (y : S2000x128.Idx) :
    ∃ pc ∈ ([⟨r0_0, p0⟩] : List (View.Piece (Elt F) S2000x128 .bf16)), y ∈ pc.1.set :=
  View.cover_of_tiled [⟨r0_0, p0⟩] S2000x128.size (by rfl) y

/-! ## The body's triple -/

set_option maxHeartbeats 4000000 in
/-- The kernel body on whole staging memrefs, the inputs' at read contents `xW` and the outputs' at anything, runs to
    the continuation holding the inputs' as they were and each output's at `out0_W` of the inputs'. -/
theorem sound_kernel0 (c : Dev nD) (E : Set ℕ) (i : grid0.Coords) (arg1 : Memref sig .tc .vmem S2000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S2000x128 .f32) (harg6 : arg6.IsWhole) (arg7 : Memref sig .tc .vmem S2000x128 .bf16) (harg7 : arg7.IsWhole) (arg8 : Memref sig .tc .vmem S2000x128 .bf16) (harg8 : arg8.IsWhole)
    (x0 : Vec F S2000x128 .f32) (x1 : Vec F S128x128 .f32) (x2 : Vec F S1x128 .f32) (x3 : Vec F S128x128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0_5 x0 x1 x2 x3 x4) ∗ owns (c : Thread nD τ) arg7 fullShare (out0_6 x0 x1 x2 x3 x4) ∗ owns (c : Thread nD τ) arg8 fullShare (out0_7 x0 x1 x2 x3 x4)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The pipeline's proof data -/

/-- The proof data of pipeline 0 on core `c`: the arrays as the region finds them; after the body at point `t`
    each input's buffer at its block and each output's at `out0_W` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.R1Runs.lean ====
/-
  The second kernel (residual update, layer norm, column sums, dense head) is entered once per block of 2000 rows.
  This module fixes what all of its runs share, at any contents `V` of the buffers when the region is entered:
  the block of each input window at a point, the two conditions on the grid position (first point: the
  accumulator is reset; last point: the head is computed and the result stored), where the result window is
  idle, and the memrefs the body is called with.
-/
import proofs.«113755_j53815940219242_2_alg».proof.Proof.Gen.KernelIdeal.Launch
import proofs.«113755_j53815940219242_2_alg».proof.Proof.Gen.KernelIdeal.Skeleton
import proofs.«113755_j53815940219242_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions on the grid position -/

/-- The first condition: the grid position is 0 (the accumulator is reset). -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 25 = 0 :=
  (by decide +kernel : ∀ t : Fin grid1.N, cond1_0 (grid1.coords t) ↔ t.val % 25 = 0)

/-- The second condition: the grid position is 24, the last (the head is computed). -/
abbrev cond1_1 (i : grid1.Coords) : Prop := k1_cond2 i = 1#1
theorem hcond1_1 : ∀ t : Fin cfg1.N, cond1_1 (grid1.coords t) ↔ t.val % 25 = 24 :=
  (by decide +kernel : ∀ t : Fin grid1.N, cond1_1 (grid1.coords t) ↔ t.val % 25 = 24)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
/-- Away from the last point the result window is idle and not written back. -/
theorem idleAt1_10 : ∀ t : Fin cfg1.N, ¬cond1_1 (grid1.coords t) → cfg1.idle 10 (grid1.coords t) = true := by decide +kernel
theorem noFlush1_10 : ∀ t : Fin cfg1.N, ¬cond1_1 (grid1.coords t) → (cfg1.win 10).flush t = false := by decide +kernel
/-- At the last point it is live. -/
theorem liveAt1_10 : ∀ t : Fin cfg1.N, cond1_1 (grid1.coords t) → cfg1.idle 10 (grid1.coords t) = false := by decide +kernel

/-! ## The memrefs the body is called with -/

/-- One staging buffer of the result window, through which its contents are stated. -/
abbrev VO1_10 : View sig .tc .vmem S1x32 .f32 := (Memref.whole cc1_stg10_0 : Memref sig .tc .vmem S1x32 .f32).view
abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x32 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x32 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x32 .f32 := win1_10.stage (cfg1.slots t 10)
abbrev hs1_10 (t : Fin cfg1.N) : (ms1_10 t).IsWhole := hstage1_10 ((cfg1.slots t 10).cast nbuf1_10)
/-- The accumulator: a whole scoped buffer of the kernel's own, passed beside the windows and carried from point to point. -/
abbrev scM1_0 : Memref sig .tc .vmem S1x128 .f32 := Memref.whole cc1_scratch0
abbrev VS1_0 : View sig .tc .vmem S1x128 .f32 := scM1_0.view

end Cert.KernelIdeal.R1

end
-- ==== Proof.R1RunA.lean ====
/-
  The second kernel's body run at the first grid point (the accumulator is reset first; no result is stored): on whole staging memrefs holding the input blocks,
  the body runs to a state where the inputs are as they were and the accumulator (and, at the last point, the
  result buffer) holds the pieces the body's stores wrote. The pieces are found by the run itself.
-/
import proofs.«113755_j53815940219242_2_alg».proof.Proof.R1Runs

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
noncomputable def kernelRun1_A (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : cond1_0 i) (hc1 : ¬cond1_1 i)
    (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) :
    Σ' (L10 : List (View.Piece (Elt F) S1x32 .f32)), { LS0 : List (View.Piece (Elt F) S1x128 .f32) //
      ∀ (xi10 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ f, arg12.view.loc (c : Thread nD τ) ↦[arg12.view.set]{fullShare} arg12.view.writes (Elt F) f LS0)) -∗ K ⟨⟩))
          ⊢ wp frame (wpE (defs₀ (F := F)) Variants.none c none) E (cc1__final_kernel i arg1 harg1 arg2 harg2 arg3 harg3 arg4 harg4 arg5 harg5 arg6 harg6 arg7 harg7 arg8 harg8 arg9 harg9 arg10 harg10 arg11 harg11 arg12 harg12) K } := by
  refine ⟨[], ?_, fun xi10 E K => ?run⟩
  case run =>
    simp only [cc1__final_kernel_eq_skeleton]; unfold cc1__final_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    iexists _; iexact HS0

end Cert.KernelIdeal.R1

end
-- ==== Proof.R1RunB.lean ====
/-
  The second kernel's body run at a grid point that is neither the first nor the last (the accumulator is added to; no result is stored): on whole staging memrefs holding the input blocks,
  the body runs to a state where the inputs are as they were and the accumulator (and, at the last point, the
  result buffer) holds the pieces the body's stores wrote. The pieces are found by the run itself.
-/
import proofs.«113755_j53815940219242_2_alg».proof.Proof.R1RunA

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
noncomputable def kernelRun1_B (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : ¬cond1_0 i) (hc1 : ¬cond1_1 i)
    (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) (xs0 : Vec F S1x128 .f32) :
    Σ' (L10 : List (View.Piece (Elt F) S1x32 .f32)), { LS0 : List (View.Piece (Elt F) S1x128 .f32) //
      ∀ (xi10 : Vec F S1x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xi10 ∗ (∃ f, arg12.view.loc (c : Thread nD τ) ↦[arg12.view.set]{fullShare} arg12.view.writes (Elt F) f LS0)) -∗ K ⟨⟩))
          ⊢ wp frame (wpE (defs₀ (F := F)) Variants.none c none) E (cc1__final_kernel i arg1 harg1 arg2 harg2 arg3 harg3 arg4 harg4 arg5 harg5 arg6 harg6 arg7 harg7 arg8 harg8 arg9 harg9 arg10 harg10 arg11 harg11 arg12 harg12) K } := by
  refine ⟨[], ?_, fun xi10 E K => ?run⟩
  case run =>
    simp only [cc1__final_kernel_eq_skeleton]; unfold cc1__final_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    iexists _; iexact HS0

end Cert.KernelIdeal.R1

end
-- ==== Proof.R1RunC.lean ====
/-
  The second kernel's body run at the last grid point (the accumulator is added to, then the head is computed from it and the result stored): on whole staging memrefs holding the input blocks,
  the body runs to a state where the inputs are as they were and the accumulator (and, at the last point, the
  result buffer) holds the pieces the body's stores wrote. The pieces are found by the run itself.
-/
import proofs.«113755_j53815940219242_2_alg».proof.Proof.R1RunB

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
noncomputable def kernelRun1_C (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : ¬cond1_0 i) (hc1 : cond1_1 i)
    (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) (xs0 : Vec F S1x128 .f32) :
    Σ' (L10 : List (View.Piece (Elt F) S1x32 .f32)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc1__final_kernel i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__final_kernel_eq_skeleton]; unfold cc1__final_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    iexists _; iexact HS0

end Cert.KernelIdeal.R1

end
-- ==== Proof.R1Body.lean ====
/-
  The second kernel over its 25 grid points. Each point adds its block's column sums of the normalised rows to
  an accumulator the kernel keeps in a scratch buffer (reset at the first point); only the last point stores a
  result. This module names what each kind of point leaves in the accumulator and in the result buffer, folds
  these over the points (`outsAt1`), states the invariant between points (the accumulator at what the point
  before left, every other scoped buffer at some contents), and proves the body's obligation at every point.
-/
import proofs.«113755_j53815940219242_2_alg».proof.Proof.R1RunC

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## What each kind of point leaves -/

/-- What a point of kind A leaves in the result buffer (nothing is stored: a placeholder no one consults). -/
def out1_A_10 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : cond1_0 i) (hc1 : ¬cond1_1 i)
    (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) : Vec F S1x32 .f32 :=
  VO1_10.read (Elt F) (VO1_10.writes (Elt F) VO1_10.junk (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9).1)

/-- The stores of a point of kind A into the accumulator cover it. -/
theorem scover1_A_0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : cond1_0 i) (hc1 : ¬cond1_1 i)
    (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) (y : S1x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9).2.1 S1x128.size (by sl_kernel_rfl) y

/-- What a point of kind A leaves in the accumulator. -/
def sout1_A_0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : cond1_0 i) (hc1 : ¬cond1_1 i)
    (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) : Vec F S1x128 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9).2.1)

/-- What a point of kind B leaves in the result buffer (nothing is stored: a placeholder no one consults). -/
def out1_B_10 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : ¬cond1_0 i) (hc1 : ¬cond1_1 i)
    (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) (xs0 : Vec F S1x128 .f32) : Vec F S1x32 .f32 :=
  VO1_10.read (Elt F) (VO1_10.writes (Elt F) VO1_10.junk (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0).1)

/-- The stores of a point of kind B into the accumulator cover it. -/
theorem scover1_B_0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : ¬cond1_0 i) (hc1 : ¬cond1_1 i)
    (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) (xs0 : Vec F S1x128 .f32) (y : S1x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0).2.1 S1x128.size (by sl_kernel_rfl) y

/-- What a point of kind B leaves in the accumulator. -/
def sout1_B_0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : ¬cond1_0 i) (hc1 : ¬cond1_1 i)
    (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) (xs0 : Vec F S1x128 .f32) : Vec F S1x128 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0).2.1)

/-- The last point's one store into the result buffer covers it. -/
theorem cover1_C_10 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : ¬cond1_0 i) (hc1 : cond1_1 i)
    (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) (xs0 : Vec F S1x128 .f32) (y : S1x32.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0).1 S1x32.size (by sl_kernel_rfl) y

/-- What a point of kind C leaves in the result buffer: its pieces read back. -/
def out1_C_10 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : ¬cond1_0 i) (hc1 : cond1_1 i)
    (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) (xs0 : Vec F S1x128 .f32) : Vec F S1x32 .f32 :=
  VO1_10.read (Elt F) (VO1_10.writes (Elt F) VO1_10.junk (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0).1)

/-- The stores of a point of kind C into the accumulator cover it. -/
theorem scover1_C_0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : ¬cond1_0 i) (hc1 : cond1_1 i)
    (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) (xs0 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0).2.1 S1x128.size (by sl_kernel_rfl) y

/-- What a point of kind C leaves in the accumulator. -/
def sout1_C_0 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : ¬cond1_0 i) (hc1 : cond1_1 i)
    (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) (xs0 : Vec F S1x128 .f32) : Vec F S1x128 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0).2.1)

/-! ## The accumulation over the points -/

/-- What the result buffer and the accumulator hold after the body at position `n`: the kind of point the position
    selects, run on the point's blocks and on what the position before left in the accumulator. -/
def outsAt1 (c : Dev nD) : (n : ℕ) → n < cfg1.N → Vec F S1x32 .f32 × Vec F S1x128 .f32
  | 0, hn => (out1_A_10 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩))
  | n + 1, hn =>
    if h0 : (n + 1) % 25 = 0 then
      if h1 : (n + 1) % 25 = 24 then
        False.elim (by omega)
      else
        (out1_A_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩))
    else
      if h1 : (n + 1) % 25 = 24 then
        (out1_C_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2)
      else
        (out1_B_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2)

theorem outsAt1_A (c : Dev nD) (t : Fin cfg1.N) (h0 : t.val % 25 = 0) (h1 : ¬t.val % 25 = 24) :
    outsAt1 V c t.val t.isLt = (out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) := by
  obtain ⟨n, hn⟩ := t
  cases n with
  | zero => exact rfl
  | succ n => exact (dif_pos h0).trans ((dif_neg h1).trans rfl)

theorem outsAt1_B (c : Dev nD) (t : Fin cfg1.N) (h0 : ¬t.val % 25 = 0) (h1 : ¬t.val % 25 = 24) :
    outsAt1 V c t.val t.isLt = (out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 25 = 0) (h1 : t.val % 25 = 24) :
    outsAt1 V c t.val t.isLt = (out1_C_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Every scoped buffer that is neither one of this call's staging buffers nor its accumulator, at some contents:
    carried along untouched. -/
abbrev Rest1 (c : Dev nD) : sProp 𝕄 :=
  Pipeline.scopedRestBut (Ix := Unit) (Name := ℕ) (U := UR sig nD τ) (Lvl := ℕ) (Val := Elt F) spec1 c [cc1_scratch0]

/-- The class invariant with the accumulator split off as a memref owned at some contents. -/
theorem PhiA1_eq (c : Dev nD) :
    (Pipeline.ΦA spec1 c : sProp 𝕄)
      = iprop(iprop((∃ d, owns (c : Thread nD τ) scM1_0 fullShare d) ∗ Rest1 (F := F) c) ∗ (∃ r, prngReg c r)) := by
  unfold Pipeline.ΦA
  rw [Pipeline.scopedRest_split_of_list spec1 c [cc1_scratch0] (by decide) (by decide)]
  simp only [scM1_0, owns_whole]; try rfl

/-- Before the first point: the class invariant. Afterwards: the accumulator at what the point before left. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ Rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Rest1 (F := F) c) ∗ (∃ r, prngReg c r)) := by
  cases n with
  | zero => exact absurd rfl hz
  | succ n => rfl

/-! ## The proof data -/

/-- The arrays as the region finds them; after the body each input's buffer at its block, the result's at
    `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 8000000 in
/-- The body at any point: the inputs' memrefs hold their blocks; the position decides the kind of point; the
    invariant hands the body the accumulator (at anything at the first point, at what the point before left
    afterwards) and takes it back at this point's contents; every other scoped buffer rides along; the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  by_cases h0 : t.val % 25 = 0
  · by_cases h1 : t.val % 25 = 24
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [Dat.leavesExact_idle (dat1 V c) 10 t (idleAt1_10 t (fun h => h1 ((hcond1_1 t).mp h))) (noFlush1_10 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun1_A c (grid1.coords t) _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iintro ⟨H0, H1, H2, H3, H4, H5, H6, H7, H8, H9, H10, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexists _; iexact H10
      · exfalso; omega
  · by_cases h1 : t.val % 25 = 24
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [show (dat1 V c).leavesExact 10 t = owns (c : Thread nD τ) (ms1_10 t) fullShare ((dat1 V c).after 10 t) from by
        unfold Dat.leavesExact; rw [liveAt1_10 t ((hcond1_1 t).mpr h1)], after1_10]
      rw [outsAt1_C V c t h0 h1]
      unfold out1_C_10 sout1_C_0; (try dsimp only)
      have hz : t.val ≠ 0 := by omega
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun1_C c (grid1.coords t) _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      iintro ⟨H0, H1, H2, H3, H4, H5, H6, H7, H8, H9, ⟨%e10, H10⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover1_C_10 c _ _ _ _ _ _ _ _ _ _ _ _ _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8 t], after1_8]
      rw [show (dat1 V c).leavesExact 9 t = owns (c : Thread nD τ) (ms1_9 t) fullShare ((dat1 V c).after 9 t) from by
        unfold Dat.leavesExact; rw [liveAt1_9 t], after1_9]
      rw [Dat.leavesExact_idle (dat1 V c) 10 t (idleAt1_10 t (fun h => h1 ((hcond1_1 t).mp h))) (noFlush1_10 t (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun1_B c (grid1.coords t) _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      iintro ⟨H0, H1, H2, H3, H4, H5, H6, H7, H8, H9, H10, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 25 := N_1; omega), PhiA1_eq]
  iintro ⟨⟨HS0, HR⟩, Hg⟩
  isplitl [HS0 HR]
  · isplitl [HS0]
    · iexists _; iexact HS0
    iexact HR
  iexact Hg

end Cert.KernelIdeal.R1

end
-- ==== Proof.Run.lean ====
/-
  The whole program as six segments — the host lines before the first kernel, the first kernel (node projection
  and the two node-space message products), three stretches of host lines (index normalisation and the two row
  gathers; the rectifier; the two segment sums and the slices of the update weights), the second kernel — run by the
  library's several-region launch. The contents of every unscoped buffer at each segment boundary are a fold from
  the launch memory: a host stretch applies its operations, a kernel region replaces its arrays by what its
  write-backs leave. The run's post is that every unscoped buffer ends at the last boundary's contents; from it,
  each argument array ends as launched (no segment writes one) and the result array ends at what the second
  kernel's last write-back leaves.
-/
import proofs.«113755_j53815940219242_2_alg».proof.Proof.Gen.KernelIdeal.Regions
import proofs.«113755_j53815940219242_2_alg».proof.Proof.R0Body
import proofs.«113755_j53815940219242_2_alg».proof.Proof.R1Body

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the host lines before the first kernel (its entry). -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- At the first kernel's exit: its arrays at what the pipeline leaves, every other buffer as entered. -/
def W2 (c : Dev nD) : Valuation τ sig (Elt F) :=
  Pipeline.withArrays spec0 c (W1 m c) fun w => (R0.dat0 (E1 m) c).arrAt w cfg0.N
theorem W2_arr (c : Dev nD) (w : Fin cfg0.W) :
    W2 m c (Proc.devRef .tc (Pipeline.arrRef spec0 w)) = (R0.dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev X2 : (c : Dev nD) → (b : Ref sig .tc) → Buf (Elt F) ((c : Thread nD τ).loc b) := fun c b => W2 m c b
theorem hF0 (c : Dev nD) (w : Fin cfg0.W) : (R0.dat0 (E1 m) c).arrAt w cfg0.N = X2 m c (Pipeline.arrRef spec0 w) :=
  (W2_arr m c w).symm
theorem hrest0 (c : Dev nD) : ∀ b, b ∉ Finset.univ.image (Pipeline.arrRef spec0) → X2 m c b = E1 m c b :=
  fun b hb => W2_of_ne m c b fun w e => hb (Finset.mem_image.mpr ⟨w, Finset.mem_univ _, e⟩)

/-- After the gathers and additions, after the rectifier, after the segment sums (the second kernel's entry). -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev E5 : (c : Dev nD) → (b : Ref sig .tc) → Buf (Elt F) ((c : Thread nD τ).loc b) := fun c b => W5 m c b
/-- At the second kernel's exit. -/
def W6 (c : Dev nD) : Valuation τ sig (Elt F) :=
  Pipeline.withArrays spec1 c (W5 m c) fun w => (R1.dat1 (E5 m) c).arrAt w cfg1.N
theorem W6_arr (c : Dev nD) (w : Fin cfg1.W) :
    W6 m c (Proc.devRef .tc (Pipeline.arrRef spec1 w)) = (R1.dat1 (E5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev X6 : (c : Dev nD) → (b : Ref sig .tc) → Buf (Elt F) ((c : Thread nD τ).loc b) := fun c b => W6 m c b
theorem hF1 (c : Dev nD) (w : Fin cfg1.W) : (R1.dat1 (E5 m) c).arrAt w cfg1.N = X6 m c (Pipeline.arrRef spec1 w) :=
  (W6_arr m c w).symm
theorem hrest1 (c : Dev nD) : ∀ b, b ∉ Finset.univ.image (Pipeline.arrRef spec1) → X6 m c b = E5 m c b :=
  fun b hb => W6_of_ne m c b fun w e => hb (Finset.mem_image.mpr ⟨w, Finset.mem_univ _, e⟩)

/-! ## A kernel changes its output arrays only -/

theorem isIn0 : ∀ w : Fin cfg0.W, Pipeline.arrRef spec0 w ≠ main_v8_0 → Pipeline.arrRef spec0 w ≠ main_v8_1 → Pipeline.arrRef spec0 w ≠ main_v8_2 →
    (cfg0.win w).isOut = false := by decide
theorem isIn1 : ∀ w : Fin cfg1.W, Pipeline.arrRef spec1 w ≠ main_v39 → (cfg1.win w).isOut = false := by decide

theorem W2_keep (c : Dev nD) (b : Ref sig .tc) (h5 : b ≠ main_v8_0) (h6 : b ≠ main_v8_1) (h7 : b ≠ main_v8_2) :
    W2 m c (Proc.devRef .tc b) = W1 m c (Proc.devRef .tc b) := by
  by_cases h : ∃ w, Pipeline.arrRef spec0 w = b
  · obtain ⟨w, rfl⟩ := h
    exact (W2_arr m c w).trans (((R0.dat0 (E1 m) c).arrAt_in w (isIn0 w h5 h6 h7) _).trans (R0.A_eq0 (E1 m) c w))
  · exact W2_of_ne m c b (fun w e => h ⟨w, e⟩)

theorem W6_keep (c : Dev nD) (b : Ref sig .tc) (h : b ≠ main_v39) :
    W6 m c (Proc.devRef .tc b) = W5 m c (Proc.devRef .tc b) := by
  by_cases h' : ∃ w, Pipeline.arrRef spec1 w = b
  · obtain ⟨w, rfl⟩ := h'
    exact (W6_arr m c w).trans (((R1.dat1 (E5 m) c).arrAt_in w (isIn1 w h) _).trans (R1.A_eq1 (E5 m) c w))
  · exact W6_of_ne m c b (fun w e => h' ⟨w, e⟩)

/-- A buffer no host line writes and no kernel stores into ends as launched. -/
theorem W6_untouched (c : Dev nD) (b : Ref sig .tc) (h6 : b ≠ main_v39) (h5 : b ∉ hostOps1_2_W) (h4 : b ∉ hostOps1_1_W) (h3 : b ∉ hostOps1_W)
    (h2a : b ≠ main_v8_0) (h2b : b ≠ main_v8_1) (h2c : b ≠ main_v8_2) (h1 : b ∉ hostOps0_W) :
    W6 m c (Proc.devRef .tc b) = m ((c : Thread nD τ).loc b) :=
  calc W6 m c (Proc.devRef .tc b)
    _ = W5 m c (Proc.devRef .tc b) := W6_keep m c b h6
    _ = W4 m c (Proc.devRef .tc b) := StableHlo.after_of_writes_sub hostOps1_2 _ hostOps1_2_writes h5
    _ = W3 m c (Proc.devRef .tc b) := StableHlo.after_of_writes_sub hostOps1_1 _ hostOps1_1_writes h4
    _ = W2 m c (Proc.devRef .tc b) := StableHlo.after_of_writes_sub hostOps1 _ hostOps1_writes h3
    _ = W1 m c (Proc.devRef .tc b) := W2_keep m c b h2a h2b h2c
    _ = W0 m c (Proc.devRef .tc b) := StableHlo.after_of_writes_sub hostOps0 _ hostOps0_writes h1
    _ = m ((c : Thread nD τ).loc b) := rfl

theorem W6_main_arg0 (c : Dev nD) : W6 m c (Proc.devRef .tc main_arg0) = m ((c : Thread nD τ).loc main_arg0) :=
  W6_untouched m c main_arg0 (by decide) (by decide) (by decide) (by decide) (by decide) (by decide) (by decide) (by decide)
theorem W6_main_arg1 (c : Dev nD) : W6 m c (Proc.devRef .tc main_arg1) = m ((c : Thread nD τ).loc main_arg1) :=
  W6_untouched m c main_arg1 (by decide) (by decide) (by decide) (by decide) (by decide) (by decide) (by decide) (by decide)
theorem W6_main_arg2 (c : Dev nD) : W6 m c (Proc.devRef .tc main_arg2) = m ((c : Thread nD τ).loc main_arg2) :=
  W6_untouched m c main_arg2 (by decide) (by decide) (by decide) (by decide) (by decide) (by decide) (by decide) (by decide)
theorem W6_main_arg3 (c : Dev nD) : W6 m c (Proc.devRef .tc main_arg3) = m ((c : Thread nD τ).loc main_arg3) :=
  W6_untouched m c main_arg3 (by decide) (by decide) (by decide) (by decide) (by decide) (by decide) (by decide) (by decide)
theorem W6_main_arg4 (c : Dev nD) : W6 m c (Proc.devRef .tc main_arg4) = m ((c : Thread nD τ).loc main_arg4) :=
  W6_untouched m c main_arg4 (by decide) (by decide) (by decide) (by decide) (by decide) (by decide) (by decide) (by decide)
theorem W6_main_arg5 (c : Dev nD) : W6 m c (Proc.devRef .tc main_arg5) = m ((c : Thread nD τ).loc main_arg5) :=
  W6_untouched m c main_arg5 (by decide) (by decide) (by decide) (by decide) (by decide) (by decide) (by decide) (by decide)
theorem W6_main_arg6 (c : Dev nD) : W6 m c (Proc.devRef .tc main_arg6) = m ((c : Thread nD τ).loc main_arg6) :=
  W6_untouched m c main_arg6 (by decide) (by decide) (by decide) (by decide) (by decide) (by decide) (by decide) (by decide)
theorem W6_main_arg7 (c : Dev nD) : W6 m c (Proc.devRef .tc main_arg7) = m ((c : Thread nD τ).loc main_arg7) :=
  W6_untouched m c main_arg7 (by decide) (by decide) (by decide) (by decide) (by decide) (by decide) (by decide) (by decide)
theorem W6_main_arg8 (c : Dev nD) : W6 m c (Proc.devRef .tc main_arg8) = m ((c : Thread nD τ).loc main_arg8) :=
  W6_untouched m c main_arg8 (by decide) (by decide) (by decide) (by decide) (by decide) (by decide) (by decide) (by decide)
theorem W6_main_arg9 (c : Dev nD) : W6 m c (Proc.devRef .tc main_arg9) = m ((c : Thread nD τ).loc main_arg9) :=
  W6_untouched m c main_arg9 (by decide) (by decide) (by decide) (by decide) (by decide) (by decide) (by decide) (by decide)
theorem W6_main_arg10 (c : Dev nD) : W6 m c (Proc.devRef .tc main_arg10) = m ((c : Thread nD τ).loc main_arg10) :=
  W6_untouched m c main_arg10 (by decide) (by decide) (by decide) (by decide) (by decide) (by decide) (by decide) (by decide)
theorem W6_main_arg11 (c : Dev nD) : W6 m c (Proc.devRef .tc main_arg11) = m ((c : Thread nD τ).loc main_arg11) :=
  W6_untouched m c main_arg11 (by decide) (by decide) (by decide) (by decide) (by decide) (by decide) (by decide) (by decide)
theorem W6_main_arg12 (c : Dev nD) : W6 m c (Proc.devRef .tc main_arg12) = m ((c : Thread nD τ).loc main_arg12) :=
  W6_untouched m c main_arg12 (by decide) (by decide) (by decide) (by decide) (by decide) (by decide) (by decide) (by decide)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (E1 m) c
  | ⟨1, _⟩ => fun c => R1.dat1 (E5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- The first kernel over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (X2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel over the thread state: entered from every unscoped buffer at `W5`, left at `W6`. Its
    invariant starts as the class's and ends giving the class's back (the accumulator's contents forgotten). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (E5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (R1.hout1 (E5 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (X6 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m) ]

set_option backward.isDefEq.respectTransparency.types false in
/-- THE RUN. From any memory with zero counters every weakly fair execution of the program terminates, nothing
    faulting, and every unscoped buffer of every core ends at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c),
     (h c _ (mem_uc main_arg7 (by decide))).trans (W6_main_arg7 m c),
     (h c _ (mem_uc main_arg8 (by decide))).trans (W6_main_arg8 m c),
     (h c _ (mem_uc main_arg9 (by decide))).trans (W6_main_arg9 m c),
     (h c _ (mem_uc main_arg10 (by decide))).trans (W6_main_arg10 m c),
     (h c _ (mem_uc main_arg11 (by decide))).trans (W6_main_arg11 m c),
     (h c _ (mem_uc main_arg12 (by decide))).trans (W6_main_arg12 m c)⟩) (run_all m ρ)

/-- THE RESULT: besides the frame, the result array ends at what the second kernel's write-backs leave. -/
theorem run_result : θ_run defs (onTc (τ := τ) (main (F := F))) ⟨m, fun _ => 0, ρ⟩ (fun r => ∀ c : Dev nD,
      r.2.mem ((c.tc : Thread nD τ).loc main_v39) = (R1.dat1 (E5 m) c).arrAt 10 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(h c _ (mem_uc main_v39 (by decide))).trans (W6_arr m c 10),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c),
     (h c _ (mem_uc main_arg7 (by decide))).trans (W6_main_arg7 m c),
     (h c _ (mem_uc main_arg8 (by decide))).trans (W6_main_arg8 m c),
     (h c _ (mem_uc main_arg9 (by decide))).trans (W6_main_arg9 m c),
     (h c _ (mem_uc main_arg10 (by decide))).trans (W6_main_arg10 m c),
     (h c _ (mem_uc main_arg11 (by decide))).trans (W6_main_arg11 m c),
     (h c _ (mem_uc main_arg12 (by decide))).trans (W6_main_arg12 m c)⟩) (run_all m ρ)

end Cert.KernelIdeal.Run

end
-- ==== Proof.Spec.lean ====
/-
  One message-passing layer over a graph of 50000 nodes and 640000 edges, followed by a mean readout, stated stage by
  stage over the extended reals. Every stage is a plain function of the arrays it reads, indexed by literal finite
  types, so that each of two programs can be compared with it one stage at a time; `out` composes the stages.

  Node features are projected (`h0`); each edge carries relu (a (src) + d (dst) + bm), where a and d are the two halves
  of one dense map of the concatenated endpoint features (`am`, `ad`); messages are summed into their target node
  (`psum`) and divided by the larger of the number of incoming edges and one (`cnt`, `pooled`); the node state is
  updated with a residual dense map of (h0, pooled) and a relu (`upd`, `hn`); each row is normalised to mean zero
  and variance one, scaled and shifted (`mu`, `dev`, `var`, `y`); the column means (`colsum`, `g`) go through a last
  dense map (`readout`).

  An edge endpoint is a 32-bit word. As a row to read it is taken signed, a negative value is raised by 50000, and the
  result is clamped into [0, 49999] (`row`). As a row to add into it is taken signed as it stands, and an edge whose
  target is not a row in [0, 49999] adds nothing (`hits`).

  The float constants 1, 128, 50000 and the small constant added to the variance stay the 32-bit words they are
  written as. A sum that starts from a zero accumulator is written `0 + ∑`; the `_eq` lemmas drop the zero.
-/
import Idealize.ShloMosaic.PureOps.Ideal
import Idealize.ShloMosaic.Lib.ValueIdx

noncomputable section

open scoped BigOperators

namespace Cert.Spec

open Idealize.ShloMosaic

/-- The word of the float 1. -/
abbrev one : EReal := Ideal.ofBits .f32 0x3F800000#32
/-- The word of the float 128, the row length. -/
abbrev c128 : EReal := Ideal.ofBits .f32 0x43000000#32
/-- The word of the float 50000, the number of rows. -/
abbrev c50000 : EReal := Ideal.ofBits .f32 0x47435000#32
/-- The word of the small float added to a variance before the inverse square root. -/
abbrev eps : EReal := Ideal.ofBits .f32 0x358637BD#32

/-- The upper half of a 256-row matrix: row k. -/
abbrev lo (k : Fin 128) : Fin 256 := ⟨k.val, by omega⟩
/-- The lower half of a 256-row matrix: row 128 + k. -/
abbrev hi (k : Fin 128) : Fin 256 := ⟨128 + k.val, by omega⟩

/-- Node projection: x Wp + bp. -/
def h0 (x : Fin 50000 → Fin 128 → EReal) (Wp : Fin 128 → Fin 128 → EReal) (bp : Fin 128 → EReal)
    (n : Fin 50000) (j : Fin 128) : EReal :=
  (∑ k : Fin 128, x n k * Wp k j) + bp j

/-- The node array times the upper half of Wm. -/
def am (h : Fin 50000 → Fin 128 → EReal) (Wm : Fin 256 → Fin 128 → EReal) (n : Fin 50000) (j : Fin 128) : EReal :=
  ∑ k : Fin 128, h n k * Wm (lo k) j

/-- The node array times the lower half of Wm. -/
def ad (h : Fin 50000 → Fin 128 → EReal) (Wm : Fin 256 → Fin 128 → EReal) (n : Fin 50000) (j : Fin 128) : EReal :=
  ∑ k : Fin 128, h n k * Wm (hi k) j

/-- An endpoint word with a negative value raised by 50000. -/
def wrap (s : BitVec 32) : BitVec 32 :=
  Scalar.select (IntOp.cmpi .slt s 0#32) (IntOp.addi s 50000#32) s

/-- The row an endpoint word reads: raised if negative, then signed and clamped into [0, 49999]. -/
def row (s : BitVec 32) : Fin 50000 :=
  ⟨min (wrap s).toInt.toNat (50000 - 1), by omega⟩

/-- The message of edge e: relu ((a (src e) + d (dst e)) + bm). -/
def msg (a d : Fin 50000 → Fin 128 → EReal) (src dst : Fin 640000 → BitVec 32) (bm : Fin 128 → EReal)
    (e : Fin 640000) (j : Fin 128) : EReal :=
  max ((a (row (src e)) j + d (row (dst e)) j) + bm j) 0

/-- The edges that add into row n: those whose target word, signed, is n. -/
def hits (dst : Fin 640000 → BitVec 32) (n : Fin 50000) : Finset (Fin 640000) :=
  Finset.univ.filter fun e => (dst e).toInt = (n.val : ℤ)

/-- The messages summed into their target rows. -/
def psum (ms : Fin 640000 → Fin 128 → EReal) (dst : Fin 640000 → BitVec 32) (n : Fin 50000) (j : Fin 128) : EReal :=
  0 + ∑ e ∈ hits dst n, ms e j

/-- The number of edges into each row, each counted as the float 1. -/
def cnt (dst : Fin 640000 → BitVec 32) (n : Fin 50000) : EReal :=
  0 + ∑ _e ∈ hits dst n, one

/-- The mean message: the sum over the larger of the count and 1. -/
def pooled (ps : Fin 50000 → Fin 128 → EReal) (c : Fin 50000 → EReal) (n : Fin 50000) (j : Fin 128) : EReal :=
  Ideal.div (ps n j) (max (c n) one)

/-- The dense map of (h, p): (h Wu[upper] + p Wu[lower]) + bu. -/
def upd (h p : Fin 50000 → Fin 128 → EReal) (Wu : Fin 256 → Fin 128 → EReal) (bu : Fin 128 → EReal)
    (n : Fin 50000) (j : Fin 128) : EReal :=
  ((∑ k : Fin 128, h n k * Wu (lo k) j) + (∑ k : Fin 128, p n k * Wu (hi k) j)) + bu j

/-- The residual next state: relu (h + u). -/
def hn (h u : Fin 50000 → Fin 128 → EReal) (n : Fin 50000) (j : Fin 128) : EReal :=
  max (h n j + u n j) 0

/-- The row mean. -/
def mu (v : Fin 50000 → Fin 128 → EReal) (n : Fin 50000) : EReal :=
  Ideal.div (0 + ∑ k : Fin 128, v n k) c128

/-- The deviation from the row mean. -/
def dev (v : Fin 50000 → Fin 128 → EReal) (n : Fin 50000) (j : Fin 128) : EReal :=
  v n j - mu v n

/-- The row variance. -/
def var (v : Fin 50000 → Fin 128 → EReal) (n : Fin 50000) : EReal :=
  Ideal.div (0 + ∑ k : Fin 128, dev v n k * dev v n k) c128

/-- The normalised row, scaled and shifted: ((dev · rsqrt (var + eps)) · gamma) + beta. -/
def y (v : Fin 50000 → Fin 128 → EReal) (gamma beta : Fin 128 → EReal) (n : Fin 50000) (j : Fin 128) : EReal :=
  ((dev v n j * Ideal.rsqrt (var v n + eps)) * gamma j) + beta j

/-- The column sums. -/
def colsum (w : Fin 50000 → Fin 128 → EReal) (j : Fin 128) : EReal :=
  0 + ∑ n : Fin 50000, w n j

/-- The column means: the column sums over 50000. -/
def g (w : Fin 50000 → Fin 128 → EReal) (j : Fin 128) : EReal :=
  Ideal.div (colsum w j) c50000

/-- The last dense map: t Wd + bd. -/
def readout (t : Fin 128 → EReal) (Wd : Fin 128 → Fin 32 → EReal) (bd : Fin 32 → EReal) (o : Fin 32) : EReal :=
  (∑ j : Fin 128, t j * Wd j o) + bd o

/-- The message array of the inputs. -/
def msgOf (x : Fin 50000 → Fin 128 → EReal) (src dst : Fin 640000 → BitVec 32) (Wp : Fin 128 → Fin 128 → EReal)
    (bp : Fin 128 → EReal) (Wm : Fin 256 → Fin 128 → EReal) (bm : Fin 128 → EReal) :
    Fin 640000 → Fin 128 → EReal :=
  msg (am (h0 x Wp bp) Wm) (ad (h0 x Wp bp) Wm) src dst bm

/-- The next node state of the inputs, before normalisation. -/
def hnOf (x : Fin 50000 → Fin 128 → EReal) (src dst : Fin 640000 → BitVec 32) (Wp : Fin 128 → Fin 128 → EReal)
    (bp : Fin 128 → EReal) (Wm : Fin 256 → Fin 128 → EReal) (bm : Fin 128 → EReal) (Wu : Fin 256 → Fin 128 → EReal)
    (bu : Fin 128 → EReal) : Fin 50000 → Fin 128 → EReal :=
  hn (h0 x Wp bp)
    (upd (h0 x Wp bp) (pooled (psum (msgOf x src dst Wp bp Wm bm) dst) (cnt dst)) Wu bu)

/-- The whole result. -/
def out (x : Fin 50000 → Fin 128 → EReal) (src dst : Fin 640000 → BitVec 32) (Wp : Fin 128 → Fin 128 → EReal)
    (bp : Fin 128 → EReal) (Wm : Fin 256 → Fin 128 → EReal) (bm : Fin 128 → EReal) (Wu : Fin 256 → Fin 128 → EReal)
    (bu gamma beta : Fin 128 → EReal) (Wd : Fin 128 → Fin 32 → EReal) (bd : Fin 32 → EReal) (o : Fin 32) : EReal :=
  readout (g (y (hnOf x src dst Wp bp Wm bm Wu bu) gamma beta)) Wd bd o

/-! The sums without their zero accumulators. -/

theorem psum_eq (ms : Fin 640000 → Fin 128 → EReal) (dst : Fin 640000 → BitVec 32) (n : Fin 50000) (j : Fin 128) :
    psum ms dst n j = ∑ e ∈ hits dst n, ms e j := zero_add _

theorem cnt_eq (dst : Fin 640000 → BitVec 32) (n : Fin 50000) : cnt dst n = ∑ _e ∈ hits dst n, one := zero_add _

theorem mu_eq (v : Fin 50000 → Fin 128 → EReal) (n : Fin 50000) :
    mu v n = Ideal.div (∑ k : Fin 128, v n k) c128 := by unfold mu; rw [zero_add]

theorem var_eq (v : Fin 50000 → Fin 128 → EReal) (n : Fin 50000) :
    var v n = Ideal.div (∑ k : Fin 128, dev v n k * dev v n k) c128 := by unfold var; rw [zero_add]

theorem colsum_eq (w : Fin 50000 → Fin 128 → EReal) (j : Fin 128) : colsum w j = ∑ n : Fin 50000, w n j := zero_add _

end Cert.Spec

end
-- ==== Proof.LibGatherRows.lean ====
/-
  A row gather read at an entry.

  What x[idx] of an [N, C] array x at a vector of R row numbers lowers to: a gather with offset axis 1, collapsed
  slice axis 0, start index map [0], the index vector on axis 1 of the start indices [R, 1], and slices of size
  [1, C]. Its entry (e, j) is x at row (the start index idx (e, 0), read as a signed integer and clamped into
  [0, N - 1]) and column j. So the result is x with rows picked by a function of the start indices alone; in
  particular a gather of this kind commutes with every operation that acts on each row separately. The extents
  N, R, C and the element type are arbitrary.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather, for an operand [N, C], start indices [R, 1] and a result [R, C]; their
    conditions are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand row that result row e reads: the start index, signed, clamped into [0, N - 1]. -/
def rowOf {N R w : Nat} (hN : 0 < N) (idx : IVec ⟨2, ![R, 1]⟩ w) (e : Fin R) : Fin N :=
  ⟨min (idx (ix2 e (0 : Fin 1))).toInt.toNat (N - 1), by omega⟩

/-- The row gather at (e, j): the operand at the clamped start row and column j. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N R C wf) x idx (ix2 e j) = x (ix2 (rowOf hN idx e) j) := by
  unfold Host.gather
  congr 1
  funext a
  refine Fin.ext ?_
  match a with
  | ⟨0, _⟩ =>
    show (rowDims N R C wf).start (ix2 e j) idx 0 + (rowDims N R C wf).batchCoord (ix2 e j) 0
      + (rowDims N R C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 e j) ⟨List.idxOf (0 : Fin 2) (rowDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N R C wf).start (ix2 e j) idx 1 + (rowDims N R C wf).batchCoord (ix2 e j) 1
      + (rowDims N R C wf).offCoord (ix2 e j) 1 = j.val
    rw [GatherDims.batchCoord_eq_zero _ _ _ List.not_mem_nil]
    unfold GatherDims.start
    rw [dif_neg (show (1 : Fin 2) ∉ (rowDims N R C wf).startIndexMap from
      (show (1 : Fin 2) ∉ ([0] : List (Fin 2)) by decide))]
    unfold GatherDims.offCoord
    rw [dif_pos (show (1 : Fin 2) ∈ (rowDims N R C wf).sKept from
      (GatherDims.mem_sKept _ _).mpr ⟨(show (1 : Fin 2) ∉ ([0] : List (Fin 2)) by decide), List.not_mem_nil⟩)]
    have hval : ∀ k : Fin 2, k = 1 → ((ix2 e j k : Fin _) : Nat) = j.val := by rintro _ rfl; rfl
    rw [hval _ (List.getElem_singleton _)]
    omega

/-- The whole result: the operand's rows picked by the clamped start indices. -/
theorem gather_rows {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) :
    Host.gather (rowDims N R C wf) x idx = fun i => x (ix2 (rowOf hN idx (i 0)) (i 1)) := by
  funext i
  obtain ⟨e, j, rfl⟩ : ∃ (e : Fin R) (j : Fin C), i = ix2 e j := ⟨i 0, i 1, eq_ix2 i⟩
  exact gather_rows_apply hN wf x idx e j

end Idealize.ShloMosaic.GatherRows

end
-- ==== Proof.LibScatterRows.lean ====
/-
  A row scatter with an add body, read at an entry, over the extended reals.

  What segment_sum (x.at[idx].add(u) on rows) of an [N, C] operand with R update rows lowers to: a scatter with update
  window axis 1, inserted window axis 0, scatter axis 0 mapped to operand axis 0, the index vector on axis 1 of the
  scatter indices [R, 1], and updates [R, C]. Update entry (e, c) lands on the operand entry (idx (e, 0) read as a signed
  integer, c) when that row exists, and is dropped otherwise. So the result's entry (i, c) is the operand's entry plus
  the sum of the update entries (e, c) over the update rows e whose index is i: the set of those rows depends on the
  indices and on i alone, not on the column nor on the number of columns. The extents N, R, C are arbitrary.
-/
import Idealize.ShloMosaic.PureOps.Ideal
import Idealize.ShloMosaic.Lib.ValueIdx

noncomputable section

open scoped BigOperators

namespace Idealize.ShloMosaic.ScatterRows

open Idealize.ShloMosaic Idealize.ShloMosaic.ValueIdx

/-- An update lands on the operand index `p` exactly when, on every axis, its start plus its window coordinate is `p`'s
    coordinate (any dimension numbers). -/
theorem resultIdx?_eq_some_iff {s si u : Shape} (d : ScatterDims s si u) {w : Nat} (j : u.Idx) (idx : IVec si w) (p : s.Idx) :
    d.resultIdx? j idx = some p ↔ ∀ a, d.start j idx a + (d.window j a : ℤ) = ((p a).val : ℤ) := by
  unfold ScatterDims.resultIdx?
  split
  · rename_i h
    rw [Option.some.injEq]
    constructor
    · rintro rfl a
      have h1 := (h a).1
      show _ = (((d.start j idx a + (d.window j a : ℤ)).toNat : ℕ) : ℤ)
      omega
    · intro hp
      funext a
      apply Fin.ext
      have h1 := hp a
      show (d.start j idx a + (d.window j a : ℤ)).toNat = (p a).val
      omega
  · rename_i h
    constructor
    · intro h'
      exact absurd h' (by simp)
    · intro hp
      exfalso
      apply h
      intro a
      have h1 := hp a
      have h2 := (p a).isLt
      omega

/-- The dimension numbers of a row scatter, for an operand [N, C], scatter indices [R, 1] and updates [R, C]; their
    conditions are decided on a program's literal shapes. -/
abbrev rowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat}

/-- On the row axis the window starts at the update row's index, read signed. -/
theorem start_row (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) :
    (rowDims N R C wf).start j idx 0 = (idx (ix2 (j 0) (0 : Fin 1))).toInt := by
  unfold ScatterDims.start
  rw [dif_pos (show (0 : Fin 2) ∈ (rowDims N R C wf).scatterDimsToOperandDims from List.mem_singleton.mpr rfl)]
  have hsi : (rowDims N R C wf).siIdx j ⟨List.idxOf (0 : Fin 2) (rowDims N R C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at 0. -/
theorem start_col (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) :
    (rowDims N R C wf).start j idx 1 = 0 := by
  unfold ScatterDims.start
  rw [dif_neg (show (1 : Fin 2) ∉ (rowDims N R C wf).scatterDimsToOperandDims from
    (show (1 : Fin 2) ∉ ([0] : List (Fin 2)) by decide))]

/-- The row axis is inserted: its window coordinate is 0. -/
theorem window_row (wf : ScatterDims.WF ⟨2, ![N, C]⟩ ⟨2, ![R, 1]⟩ ⟨2, ![R, C]⟩ [1] [0] [0] 1)
    (j : (⟨2, ![R, C]⟩ : Shape).Idx) : (rowDims N R C wf).window j 0 = 0 := by
  unfold ScatterDims.window
  rw [dif_neg]
  intro h
  have h2 := (List.mem_filter.mp h).2
  simp at h2

/-- The column axis carries the update's column. -/
theorem window_col (wf : ScatterDims.WF ⟨2, ![N, C]⟩ ⟨2, ![R, 1]⟩ ⟨2, ![R, C]⟩ [1] [0] [0] 1)
    (j : (⟨2, ![R, C]⟩ : Shape).Idx) : (rowDims N R C wf).window j 1 = (j 1).val := by
  unfold ScatterDims.window
  rw [dif_pos (show (1 : Fin 2) ∈ (rowDims N R C wf).sKept from
    List.mem_filter.mpr ⟨List.mem_finRange _, by simp⟩)]
  rfl

/-- The update rows that land on operand row `i`: those whose index, read signed, is `i`. -/
def hits (idx : IVec ⟨2, ![R, 1]⟩ w) (i : Fin N) : Finset (Fin R) :=
  Finset.univ.filter fun e => (idx (ix2 e (0 : Fin 1))).toInt = (i.val : ℤ)

/-- An update entry lands on (i, c) exactly when its row's index is i and its column is c. -/
theorem lands_iff (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) (i : Fin N) (c : Fin C) :
    (rowDims N R C wf).resultIdx? j idx = some (ix2 i c)
      ↔ (idx (ix2 (j 0) (0 : Fin 1))).toInt = (i.val : ℤ) ∧ (j 1).val = c.val := by
  rw [resultIdx?_eq_some_iff]
  constructor
  · intro h
    have h0 : (rowDims N R C wf).start j idx 0 + (((rowDims N R C wf).window j 0 : ℕ) : ℤ) = (i.val : ℤ) := h 0
    have h1 : (rowDims N R C wf).start j idx 1 + (((rowDims N R C wf).window j 1 : ℕ) : ℤ) = (c.val : ℤ) := h 1
    rw [start_row, window_row] at h0
    rw [start_col, window_col] at h1
    exact ⟨by omega, by omega⟩
  · rintro ⟨h0, h1⟩ a
    match a with
    | ⟨0, _⟩ =>
      show (rowDims N R C wf).start j idx 0 + (((rowDims N R C wf).window j 0 : ℕ) : ℤ) = (i.val : ℤ)
      rw [start_row, window_row, h0]
      omega
    | ⟨1, _⟩ =>
      show (rowDims N R C wf).start j idx 1 + (((rowDims N R C wf).window j 1 : ℕ) : ℤ) = (c.val : ℤ)
      rw [start_col, window_col, h1]
      omega

/-- The accumulating row scatter at (i, c): the operand's entry plus the sum of column c over the update rows whose
    index is i. -/
theorem scatterAdd_rows_apply (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (i : Fin N) (c : Fin C) :
    Ideal.hostScatterAdd (rowDims N R C wf) x idx upd (ix2 i c) = x (ix2 i c) + ∑ e ∈ hits (N := N) idx i, upd (ix2 e c) := by
  unfold Ideal.hostScatterAdd
  congr 1
  have key : ∀ j : (⟨2, ![R, C]⟩ : Shape).Idx, (rowDims N R C wf).resultIdx? j idx = some (ix2 i c) → ix2 (j 0) c = j := by
    intro j hj
    have h1 := ((lands_iff wf j idx i c).mp hj).2
    have h2 : j 1 = c := Fin.ext h1
    rw [← h2]
    exact (eq_ix2 j).symm
  refine Finset.sum_nbij' (fun j => (j 0 : Fin R)) (fun e => ix2 e c) ?_ ?_ ?_ ?_ ?_
  · intro j hj
    rw [Finset.mem_filter] at hj
    exact Finset.mem_filter.mpr ⟨Finset.mem_univ _, ((lands_iff wf j idx i c).mp hj.2).1⟩
  · intro e he
    have he2 := (Finset.mem_filter.mp he).2
    rw [Finset.mem_filter]
    exact ⟨Finset.mem_univ _, (lands_iff wf (ix2 e c) idx i c).mpr ⟨he2, rfl⟩⟩
  · intro j hj
    rw [Finset.mem_filter] at hj
    exact key j hj.2
  · intro e _
    rfl
  · intro j hj
    rw [Finset.mem_filter] at hj
    exact congrArg upd (key j hj.2).symm

end Idealize.ShloMosaic.ScatterRows

end
-- ==== Proof.LibScatterVec.lean ====
/-
  A scatter with an add body into a vector, read at an entry, over the extended reals.

  What segment_sum (x.at[idx].add(u)) of a vector x of N entries with R updates lowers to: a scatter with no update
  window axis, inserted window axis 0, scatter axis 0 mapped to operand axis 0, the index vector on axis 1 of the
  scatter indices [R, 1], and updates [R]. Update entry e lands on the operand entry idx (e, 0), read as a signed
  integer, when that entry exists, and is dropped otherwise. So the result's entry i is the operand's entry plus the
  sum of the update entries e whose index is i: the same set of update rows as for a row scatter of an [N, C] operand
  with the same scatter indices. The extents N, R are arbitrary.
-/
import proofs.«113755_j53815940219242_2_alg».proof.Proof.LibScatterRows

noncomputable section

open scoped BigOperators

namespace Idealize.ShloMosaic.ScatterVec

open Idealize.ShloMosaic Idealize.ShloMosaic.ValueIdx

/-- The dimension numbers of a scatter into a vector, for an operand [N], scatter indices [R, 1] and updates [R]; their
    conditions are decided on a program's literal shapes. -/
abbrev vecDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R w : Nat}

/-- On the only operand axis the window starts at the update's index, read signed. -/
theorem start_vec (wf : ScatterDims.WF ⟨1, ![N]⟩ ⟨2, ![R, 1]⟩ ⟨1, ![R]⟩ [] [0] [0] 1)
    (j : (⟨1, ![R]⟩ : Shape).Idx) (idx : IVec ⟨2, ![R, 1]⟩ w) :
    (vecDims N R wf).start j idx 0 = (idx (ix2 (j 0) (0 : Fin 1))).toInt := by
  unfold ScatterDims.start
  rw [dif_pos (show (0 : Fin 1) ∈ (vecDims N R wf).scatterDimsToOperandDims from List.mem_singleton.mpr rfl)]
  have hsi : (vecDims N R wf).siIdx j ⟨List.idxOf (0 : Fin 1) (vecDims N R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The only operand axis is inserted: its window coordinate is 0. -/
theorem window_vec (wf : ScatterDims.WF ⟨1, ![N]⟩ ⟨2, ![R, 1]⟩ ⟨1, ![R]⟩ [] [0] [0] 1)
    (j : (⟨1, ![R]⟩ : Shape).Idx) : (vecDims N R wf).window j 0 = 0 := by
  unfold ScatterDims.window
  rw [dif_neg]
  intro h
  have h2 := (List.mem_filter.mp h).2
  simp at h2

/-- An update entry lands on entry i exactly when its index is i. -/
theorem lands_iff (wf : ScatterDims.WF ⟨1, ![N]⟩ ⟨2, ![R, 1]⟩ ⟨1, ![R]⟩ [] [0] [0] 1)
    (j : (⟨1, ![R]⟩ : Shape).Idx) (idx : IVec ⟨2, ![R, 1]⟩ w) (i : Fin N) :
    (vecDims N R wf).resultIdx? j idx = some (ix1 i) ↔ (idx (ix2 (j 0) (0 : Fin 1))).toInt = (i.val : ℤ) := by
  rw [ScatterRows.resultIdx?_eq_some_iff]
  constructor
  · intro h
    have h0 : (vecDims N R wf).start j idx 0 + (((vecDims N R wf).window j 0 : ℕ) : ℤ) = (i.val : ℤ) := h 0
    rw [start_vec, window_vec] at h0
    omega
  · intro h0 a
    match a with
    | ⟨0, _⟩ =>
      show (vecDims N R wf).start j idx 0 + (((vecDims N R wf).window j 0 : ℕ) : ℤ) = (i.val : ℤ)
      rw [start_vec, window_vec, h0]
      omega

/-- The accumulating scatter into a vector at entry i: the operand's entry plus the sum of the update entries whose
    index is i (the update rows that a row scatter with the same indices lands on row i). -/
theorem scatterAdd_vec_apply (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal)
    (i : Fin N) :
    Ideal.hostScatterAdd (vecDims N R wf) x idx upd (ix1 i)
      = x (ix1 i) + ∑ e ∈ ScatterRows.hits (N := N) idx i, upd (ix1 e) := by
  unfold Ideal.hostScatterAdd
  congr 1
  refine Finset.sum_nbij' (fun j => (j 0 : Fin R)) (fun e => ix1 e) ?_ ?_ ?_ ?_ ?_
  · intro j hj
    rw [Finset.mem_filter] at hj
    exact Finset.mem_filter.mpr ⟨Finset.mem_univ _, (lands_iff wf j idx i).mp hj.2⟩
  · intro e he
    have he2 := (Finset.mem_filter.mp he).2
    rw [Finset.mem_filter]
    exact ⟨Finset.mem_univ _, (lands_iff wf (ix1 e) idx i).mpr he2⟩
  · intro j _
    exact (eq_ix1 j).symm
  · intro e _
    rfl
  · intro j _
    exact congrArg upd (eq_ix1 j)

end Idealize.ShloMosaic.ScatterVec

end
-- ==== Proof.RefValue.lean ====
/-
  The reference program's result is the specification's `out` of its argument arrays.

  Each stage of the program is read at an entry and identified with the corresponding stage of `Cert.Spec`, from the
  node projection down to the readout. The stages whose entry depends on the VALUES of an operand are read by general
  lemmas: a row gather reads the operand's row picked by the start index (signed, clamped), and an accumulating
  scatter is the operand plus the sum of the update rows whose index, signed, is the row in question. A product of a
  gathered array with a matrix is then, entry by entry, the product taken before the gather and read at the picked
  row, which is how the specification states the two halves of the message.
-/
import proofs.«113755_j53815940219242_2_alg».proof.Proof.Gen.ReferenceIdeal.Run
import proofs.«113755_j53815940219242_2_alg».proof.Proof.Gen.ReferenceIdeal.Read
import proofs.«113755_j53815940219242_2_alg».proof.Proof.Spec
import proofs.«113755_j53815940219242_2_alg».proof.Proof.LibGatherRows
import proofs.«113755_j53815940219242_2_alg».proof.Proof.LibScatterRows
import proofs.«113755_j53815940219242_2_alg».proof.Proof.LibScatterVec

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.StableHlo Idealize.ShloMosaic.TcCoe Idealize.SL.Sem

/-- A rank-2 array as a function of its two coordinates. -/
abbrev fn2 {a b : Nat} {α : Type} (x : (⟨2, ![a, b]⟩ : Shape).Idx → α) (n : Fin a) (k : Fin b) : α := x (ix2 n k)
/-- A rank-1 array as a function of its coordinate. -/
abbrev fn1 {a : Nat} {α : Type} (x : (⟨1, ![a]⟩ : Shape).Idx → α) (n : Fin a) : α := x (ix1 n)

variable (x0 : (⟨S50000x128, .f32⟩ : BufTy).Contents (Elt Ideal)) (x1 x2 : (⟨S640000, .i32⟩ : BufTy).Contents (Elt Ideal))
  (x3 : (⟨S128x128, .f32⟩ : BufTy).Contents (Elt Ideal)) (x4 : (⟨S128, .f32⟩ : BufTy).Contents (Elt Ideal))
  (x5 : (⟨S256x128, .f32⟩ : BufTy).Contents (Elt Ideal)) (x6 : (⟨S128, .f32⟩ : BufTy).Contents (Elt Ideal))
  (x7 : (⟨S256x128, .f32⟩ : BufTy).Contents (Elt Ideal)) (x8 x9 x10 : (⟨S128, .f32⟩ : BufTy).Contents (Elt Ideal))
  (x11 : (⟨S128x32, .f32⟩ : BufTy).Contents (Elt Ideal)) (x12 : (⟨S32, .f32⟩ : BufTy).Contents (Elt Ideal))

/-! ### The node projection -/

theorem h0_read (n : Fin 50000) (j : Fin 128) :
    val_main_v3 (F := Ideal) x0 x3 x4 (ix2 n j) = Spec.h0 (fn2 x0) (fn2 x3) (fn1 x4) n j := by
  rw [val_main_v3_apply, val_main_v0_apply, val_main_v2_apply, val_main_v1_apply]
  unfold Spec.h0
  have el : ∀ k : Fin 128, lidx_main_v0 (ix2 n j) k = ix2 n k := fun k => funext fun a => Fin.ext (by
    match a with
    | ⟨0, _⟩ => rfl
    | ⟨1, _⟩ => rfl)
  have er : ∀ k : Fin 128, ridx_main_v0 (ix2 n j) k = ix2 k j := fun k => funext fun a => Fin.ext (by
    match a with
    | ⟨0, _⟩ => rfl
    | ⟨1, _⟩ => rfl)
  have eb : idx_main_v1 (idx_main_v2 (ix2 n j)) = ix1 j := funext fun a => Fin.ext (by
    match a with
    | ⟨0, _⟩ => rfl)
  simp only [el, er, eb]
  rfl

/-! ### The endpoint words as the gathers read them -/

theorem wrap_src_read (e : Fin 640000) :
    val_main_v9 (F := Ideal) x1 (ix2 e (0 : Fin 1)) = Spec.wrap (fn1 x1 e) := by
  rw [val_main_v9_apply, val_main_v8_apply, val_main_v5_apply, val_main_v7_apply, val_main_v4_apply,
    val_main_v6_apply, val_main_c_apply, val_main_c_0_apply]
  have ei : idx_main_v9 (ix2 e (0 : Fin 1)) = ix1 e := funext fun a => Fin.ext (by
    match a with
    | ⟨0, _⟩ => rfl)
  rw [ei]
  rfl

theorem wrap_dst_read (e : Fin 640000) :
    val_main_v18 (F := Ideal) x2 (ix2 e (0 : Fin 1)) = Spec.wrap (fn1 x2 e) := by
  rw [val_main_v18_apply, val_main_v17_apply, val_main_v14_apply, val_main_v16_apply, val_main_v13_apply,
    val_main_v15_apply, val_main_c_1_apply, val_main_c_2_apply]
  have ei : idx_main_v18 (ix2 e (0 : Fin 1)) = ix1 e := funext fun a => Fin.ext (by
    match a with
    | ⟨0, _⟩ => rfl)
  rw [ei]
  rfl

/-- The row a gather picks is the specification's `row` of the raw word. -/
theorem rowOf_eq (idx : IVec ⟨2, ![640000, 1]⟩ 32) (s : BitVec 32) (e : Fin 640000)
    (h : idx (ix2 e (0 : Fin 1)) = Spec.wrap s) :
    GatherRows.rowOf (N := 50000) (by decide) idx e = Spec.row s := by
  refine Fin.ext ?_
  show min (idx (ix2 e (0 : Fin 1))).toInt.toNat (50000 - 1) = min (Spec.wrap s).toInt.toNat (50000 - 1)
  rw [h]

theorem gather_src_read (e : Fin 640000) (k : Fin 128) :
    val_main_v10 (F := Ideal) x0 x1 x3 x4 (ix2 e k)
      = Spec.h0 (fn2 x0) (fn2 x3) (fn1 x4) (Spec.row (fn1 x1 e)) k := by
  unfold val_main_v10
  refine (GatherRows.gather_rows_apply (N := 50000) (R := 640000) (C := 128) (by decide)
    Facts₀.gather_S50000x128_S640000x1_S640000x128_1_0_n_n_0_1_1128_wf
    (val_main_v3 (F := Ideal) x0 x3 x4) (val_main_v9 (F := Ideal) x1) e k).trans ?_
  rw [rowOf_eq (val_main_v9 (F := Ideal) x1) (fn1 x1 e) e (wrap_src_read x1 e)]
  exact h0_read x0 x3 x4 _ k

theorem gather_dst_read (e : Fin 640000) (k : Fin 128) :
    val_main_v19 (F := Ideal) x0 x2 x3 x4 (ix2 e k)
      = Spec.h0 (fn2 x0) (fn2 x3) (fn1 x4) (Spec.row (fn1 x2 e)) k := by
  unfold val_main_v19
  refine (GatherRows.gather_rows_apply (N := 50000) (R := 640000) (C := 128) (by decide)
    Facts₀.gather_S50000x128_S640000x1_S640000x128_1_0_n_n_0_1_1128_wf
    (val_main_v3 (F := Ideal) x0 x3 x4) (val_main_v18 (F := Ideal) x2) e k).trans ?_
  rw [rowOf_eq (val_main_v18 (F := Ideal) x2) (fn1 x2 e) e (wrap_dst_read x2 e)]
  exact h0_read x0 x3 x4 _ k

/-! ### The two halves of the message and the message -/

theorem lo_idx (k : Fin 128) (j : Fin 128) : idx_main_v11 (ix2 k j) = ix2 (Spec.lo k) j :=
  funext fun a => Fin.ext (by
    match a with
    | ⟨0, _⟩ => rfl
    | ⟨1, _⟩ => rfl)

theorem hi_idx (k : Fin 128) (j : Fin 128) : idx_main_v20 (ix2 k j) = ix2 (Spec.hi k) j :=
  funext fun a => Fin.ext (by
    match a with
    | ⟨0, _⟩ => rfl
    | ⟨1, _⟩ => rfl)

theorem am_read (e : Fin 640000) (j : Fin 128) :
    val_main_v12 (F := Ideal) x0 x1 x3 x4 x5 (ix2 e j)
      = Spec.am (Spec.h0 (fn2 x0) (fn2 x3) (fn1 x4)) (fn2 x5) (Spec.row (fn1 x1 e)) j := by
  rw [val_main_v12_apply]
  unfold Spec.am
  refine Finset.sum_congr rfl fun k _ => ?_
  have el : lidx_main_v12 (ix2 e j) k = ix2 e k := funext fun a => Fin.ext (by
    match a with
    | ⟨0, _⟩ => rfl
    | ⟨1, _⟩ => rfl)
  have er : ridx_main_v12 (ix2 e j) k = ix2 k j := funext fun a => Fin.ext (by
    match a with
    | ⟨0, _⟩ => rfl
    | ⟨1, _⟩ => rfl)
  rw [el, er, gather_src_read, val_main_v11_apply, lo_idx]

theorem ad_read (e : Fin 640000) (j : Fin 128) :
    val_main_v21 (F := Ideal) x0 x2 x3 x4 x5 (ix2 e j)
      = Spec.ad (Spec.h0 (fn2 x0) (fn2 x3) (fn1 x4)) (fn2 x5) (Spec.row (fn1 x2 e)) j := by
  rw [val_main_v21_apply]
  unfold Spec.ad
  refine Finset.sum_congr rfl fun k _ => ?_
  have el : lidx_main_v21 (ix2 e j) k = ix2 e k := funext fun a => Fin.ext (by
    match a with
    | ⟨0, _⟩ => rfl
    | ⟨1, _⟩ => rfl)
  have er : ridx_main_v21 (ix2 e j) k = ix2 k j := funext fun a => Fin.ext (by
    match a with
    | ⟨0, _⟩ => rfl
    | ⟨1, _⟩ => rfl)
  rw [el, er, gather_dst_read, val_main_v20_apply, hi_idx]

theorem msg_read (e : Fin 640000) (j : Fin 128) :
    val_main_v26 (F := Ideal) x0 x1 x2 x3 x4 x5 x6 (ix2 e j)
      = Spec.msgOf (fn2 x0) (fn1 x1) (fn1 x2) (fn2 x3) (fn1 x4) (fn2 x5) (fn1 x6) e j := by
  rw [val_main_v26_apply, val_main_v25_apply, val_main_v22_apply, am_read, ad_read, val_main_v24_apply,
    val_main_v23_apply, val_main_call0_v0_apply, val_main_call0_cst_apply]
  have eb : idx_main_v23 (idx_main_v24 (ix2 e j)) = ix1 j := funext fun a => Fin.ext (by
    match a with
    | ⟨0, _⟩ => rfl)
  rw [eb]
  unfold Spec.msgOf Spec.msg
  simp only [Ideal.maximumf_def, Ideal.addf_def, Ideal.ofBits_def, Ideal.ofBits_zero_f32]

/-! ### The messages summed into their target rows, and the counts

Over the extended reals the host's accumulating scatter is the exact one, whatever the dimension numbers; and the
program's two dimension-number records are the row record and the vector record of the general lemmas. -/

theorem hostScatterAdd_eq {s si u : Shape} {w : Nat} (d : ScatterDims s si u) (x : s.Idx → EReal) (idx : IVec si w)
    (upd : u.Idx → EReal) :
    Host.scatterAdd (F := Ideal) (φ := .f32) d x idx upd = Ideal.hostScatterAdd d x idx upd := rfl

theorem rows_dims_eq :
    scatter_S50000x128_S640000x1_S640000x128_1_0_0_1
      = ScatterRows.rowDims 50000 640000 128 Facts₀.scatter_S50000x128_S640000x1_S640000x128_1_0_0_1_wf := rfl

theorem vec_dims_eq :
    scatter_S50000_S640000x1_S640000_n_0_0_1
      = ScatterVec.vecDims 50000 640000 Facts₀.scatter_S50000_S640000x1_S640000_n_0_0_1_wf := rfl

/-- The update rows a scatter with the raw target words lands on row n are the specification's `hits`. -/
theorem hits_eq (idx : IVec ⟨2, ![640000, 1]⟩ 32) (dst : Fin 640000 → BitVec 32)
    (h : ∀ e : Fin 640000, idx (ix2 e (0 : Fin 1)) = dst e) (n : Fin 50000) :
    ScatterRows.hits (N := 50000) idx n = Spec.hits dst n := by
  unfold ScatterRows.hits Spec.hits
  refine Finset.filter_congr fun e _ => ?_
  rw [h e]

theorem dst28_read (e : Fin 640000) : val_main_v28 (F := Ideal) x2 (ix2 e (0 : Fin 1)) = fn1 x2 e := by
  rw [val_main_v28_apply]
  exact congrArg x2 (funext fun a => Fin.ext (by
    match a with
    | ⟨0, _⟩ => rfl))

theorem dst32_read (e : Fin 640000) : val_main_v32 (F := Ideal) x2 (ix2 e (0 : Fin 1)) = fn1 x2 e := by
  rw [val_main_v32_apply]
  exact congrArg x2 (funext fun a => Fin.ext (by
    match a with
    | ⟨0, _⟩ => rfl))

theorem psum_read (n : Fin 50000) (j : Fin 128) :
    val_main_v29 (F := Ideal) x0 x1 x2 x3 x4 x5 x6 (ix2 n j)
      = Spec.psum (Spec.msgOf (fn2 x0) (fn1 x1) (fn1 x2) (fn2 x3) (fn1 x4) (fn2 x5) (fn1 x6)) (fn1 x2) n j := by
  unfold val_main_v29
  rw [hostScatterAdd_eq, rows_dims_eq]
  refine (ScatterRows.scatterAdd_rows_apply (N := 50000) (R := 640000) (C := 128)
    Facts₀.scatter_S50000x128_S640000x1_S640000x128_1_0_0_1_wf
    (val_main_v27 (F := Ideal)) (val_main_v28 (F := Ideal) x2) (val_main_v26 (F := Ideal) x0 x1 x2 x3 x4 x5 x6) n j).trans ?_
  unfold Spec.psum
  rw [hits_eq (val_main_v28 (F := Ideal) x2) (fn1 x2) (dst28_read x2) n, val_main_v27_apply, val_main_cst_apply]
  refine congrArg₂ (· + ·) (by simp only [Ideal.ofBits_def, Ideal.ofBits_zero_f32]) ?_
  exact Finset.sum_congr rfl fun e _ => msg_read x0 x1 x2 x3 x4 x5 x6 e j

theorem cnt_read (n : Fin 50000) :
    val_main_v33 (F := Ideal) x2 (ix1 n) = Spec.cnt (fn1 x2) n := by
  unfold val_main_v33
  rw [hostScatterAdd_eq, vec_dims_eq]
  refine (ScatterVec.scatterAdd_vec_apply (N := 50000) (R := 640000)
    Facts₀.scatter_S50000_S640000x1_S640000_n_0_0_1_wf
    (val_main_v31 (F := Ideal)) (val_main_v32 (F := Ideal) x2) (val_main_v30 (F := Ideal)) n).trans ?_
  unfold Spec.cnt
  rw [hits_eq (val_main_v32 (F := Ideal) x2) (fn1 x2) (dst32_read x2) n, val_main_v31_apply, val_main_cst_4_apply]
  refine congrArg₂ (· + ·) (by simp only [Ideal.ofBits_def, Ideal.ofBits_zero_f32]) ?_
  refine Finset.sum_congr rfl fun e _ => ?_
  rw [val_main_v30_apply, val_main_cst_3_apply]
  simp only [Ideal.ofBits_def]

theorem pooled_read (n : Fin 50000) (j : Fin 128) :
    val_main_v38 (F := Ideal) x0 x1 x2 x3 x4 x5 x6 (ix2 n j)
      = Spec.pooled (Spec.psum (Spec.msgOf (fn2 x0) (fn1 x1) (fn1 x2) (fn2 x3) (fn1 x4) (fn2 x5) (fn1 x6)) (fn1 x2))
          (Spec.cnt (fn1 x2)) n j := by
  rw [val_main_v38_apply, psum_read, val_main_v37_apply, val_main_v36_apply, val_main_v35_apply]
  have ec : idx_main_v36 (idx_main_v37 (ix2 n j)) = ix1 n := funext fun a => Fin.ext (by
    match a with
    | ⟨0, _⟩ => rfl)
  rw [ec, cnt_read, val_main_v34_apply, val_main_cst_5_apply]
  unfold Spec.pooled
  simp only [Ideal.hostDivf_def, Ideal.maximumf_def, Ideal.ofBits_def]

/-! ### The update, the next state and its normalisation -/

/-- The node projection of the arguments. -/
abbrev H := Spec.h0 (fn2 x0) (fn2 x3) (fn1 x4)
/-- The mean message of the arguments. -/
abbrev PL := Spec.pooled (Spec.psum (Spec.msgOf (fn2 x0) (fn1 x1) (fn1 x2) (fn2 x3) (fn1 x4) (fn2 x5) (fn1 x6)) (fn1 x2))
  (Spec.cnt (fn1 x2))
/-- The next node state of the arguments, before normalisation. -/
abbrev HN := Spec.hnOf (fn2 x0) (fn1 x1) (fn1 x2) (fn2 x3) (fn1 x4) (fn2 x5) (fn1 x6) (fn2 x7) (fn1 x8)

theorem lo39_idx (k : Fin 128) (j : Fin 128) : idx_main_v39 (ix2 k j) = ix2 (Spec.lo k) j :=
  funext fun a => Fin.ext (by
    match a with
    | ⟨0, _⟩ => rfl
    | ⟨1, _⟩ => rfl)

theorem hi41_idx (k : Fin 128) (j : Fin 128) : idx_main_v41 (ix2 k j) = ix2 (Spec.hi k) j :=
  funext fun a => Fin.ext (by
    match a with
    | ⟨0, _⟩ => rfl
    | ⟨1, _⟩ => rfl)

theorem upd_h_read (n : Fin 50000) (j : Fin 128) :
    val_main_v40 (F := Ideal) x0 x3 x4 x7 (ix2 n j) = ∑ k : Fin 128, H x0 x3 x4 n k * fn2 x7 (Spec.lo k) j := by
  rw [val_main_v40_apply]
  refine Finset.sum_congr rfl fun k _ => ?_
  have el : lidx_main_v40 (ix2 n j) k = ix2 n k := funext fun a => Fin.ext (by
    match a with
    | ⟨0, _⟩ => rfl
    | ⟨1, _⟩ => rfl)
  have er : ridx_main_v40 (ix2 n j) k = ix2 k j := funext fun a => Fin.ext (by
    match a with
    | ⟨0, _⟩ => rfl
    | ⟨1, _⟩ => rfl)
  rw [el, er, h0_read, val_main_v39_apply, lo39_idx]

theorem upd_p_read (n : Fin 50000) (j : Fin 128) :
    val_main_v42 (F := Ideal) x0 x1 x2 x3 x4 x5 x6 x7 (ix2 n j)
      = ∑ k : Fin 128, PL x0 x1 x2 x3 x4 x5 x6 n k * fn2 x7 (Spec.hi k) j := by
  rw [val_main_v42_apply]
  refine Finset.sum_congr rfl fun k _ => ?_
  have el : lidx_main_v42 (ix2 n j) k = ix2 n k := funext fun a => Fin.ext (by
    match a with
    | ⟨0, _⟩ => rfl
    | ⟨1, _⟩ => rfl)
  have er : ridx_main_v42 (ix2 n j) k = ix2 k j := funext fun a => Fin.ext (by
    match a with
    | ⟨0, _⟩ => rfl
    | ⟨1, _⟩ => rfl)
  rw [el, er, pooled_read, val_main_v41_apply, hi41_idx]

theorem upd_read (n : Fin 50000) (j : Fin 128) :
    val_main_v46 (F := Ideal) x0 x1 x2 x3 x4 x5 x6 x7 x8 (ix2 n j)
      = Spec.upd (H x0 x3 x4) (PL x0 x1 x2 x3 x4 x5 x6) (fn2 x7) (fn1 x8) n j := by
  rw [val_main_v46_apply, val_main_v43_apply, upd_h_read, upd_p_read, val_main_v45_apply, val_main_v44_apply]
  have eb : idx_main_v44 (idx_main_v45 (ix2 n j)) = ix1 j := funext fun a => Fin.ext (by
    match a with
    | ⟨0, _⟩ => rfl)
  rw [eb]
  unfold Spec.upd
  simp only [Ideal.addf_def]

theorem hn_read (n : Fin 50000) (j : Fin 128) :
    val_main_v48 (F := Ideal) x0 x1 x2 x3 x4 x5 x6 x7 x8 (ix2 n j) = HN x0 x1 x2 x3 x4 x5 x6 x7 x8 n j := by
  rw [val_main_v48_apply, val_main_v47_apply, h0_read, upd_read, val_main_call1_v0_apply, val_main_call1_cst_apply]
  show _ = Spec.hn (H x0 x3 x4) (Spec.upd (H x0 x3 x4) (PL x0 x1 x2 x3 x4 x5 x6) (fn2 x7) (fn1 x8)) n j
  unfold Spec.hn
  simp only [Ideal.maximumf_def, Ideal.addf_def, Ideal.ofBits_def, Ideal.ofBits_zero_f32]

theorem mu_read (n : Fin 50000) :
    val_main_v52 (F := Ideal) x0 x1 x2 x3 x4 x5 x6 x7 x8 (ix2 n (0 : Fin 1))
      = Spec.mu (HN x0 x1 x2 x3 x4 x5 x6 x7 x8) n := by
  rw [val_main_v52_apply, val_main_v50_apply, val_main_v49_apply, val_main_v51_apply, val_main_cst_7_apply,
    val_main_cst_6_apply]
  have e : ∀ k : Fin 128, idx_main_v49 (idx_main_v50 (ix2 n (0 : Fin 1))) k = ix2 n k := fun k =>
    funext fun a => Fin.ext (by
      match a with
      | ⟨0, _⟩ => rfl
      | ⟨1, _⟩ => rfl)
  unfold Spec.mu
  simp only [Ideal.hostDivf_def, Ideal.ofBits_def, Ideal.ofBits_zero_f32]
  refine congrArg (fun s => Ideal.div (0 + s) Spec.c128) (Finset.sum_congr rfl fun k _ => ?_)
  rw [e k]
  exact hn_read x0 x1 x2 x3 x4 x5 x6 x7 x8 n k

theorem dev_read (n : Fin 50000) (j : Fin 128) :
    val_main_v54 (F := Ideal) x0 x1 x2 x3 x4 x5 x6 x7 x8 (ix2 n j)
      = Spec.dev (HN x0 x1 x2 x3 x4 x5 x6 x7 x8) n j := by
  rw [val_main_v54_apply, hn_read, val_main_v53_apply]
  have e : idx_main_v53 (ix2 n j) = ix2 n (0 : Fin 1) := funext fun a => Fin.ext (by
    match a with
    | ⟨0, _⟩ => rfl
    | ⟨1, _⟩ => rfl)
  rw [e, mu_read]
  unfold Spec.dev
  simp only [Ideal.subf_def]

theorem dev'_read (n : Fin 50000) (j : Fin 128) :
    val_main_v61 (F := Ideal) x0 x1 x2 x3 x4 x5 x6 x7 x8 (ix2 n j)
      = Spec.dev (HN x0 x1 x2 x3 x4 x5 x6 x7 x8) n j := by
  rw [val_main_v61_apply, hn_read, val_main_v60_apply]
  have e : idx_main_v60 (ix2 n j) = ix2 n (0 : Fin 1) := funext fun a => Fin.ext (by
    match a with
    | ⟨0, _⟩ => rfl
    | ⟨1, _⟩ => rfl)
  rw [e, mu_read]
  unfold Spec.dev
  simp only [Ideal.subf_def]

theorem var_read (n : Fin 50000) :
    val_main_v59 (F := Ideal) x0 x1 x2 x3 x4 x5 x6 x7 x8 (ix2 n (0 : Fin 1))
      = Spec.var (HN x0 x1 x2 x3 x4 x5 x6 x7 x8) n := by
  rw [val_main_v59_apply, val_main_v57_apply, val_main_v56_apply, val_main_v58_apply, val_main_cst_9_apply,
    val_main_cst_8_apply]
  have e : ∀ k : Fin 128, idx_main_v56 (idx_main_v57 (ix2 n (0 : Fin 1))) k = ix2 n k := fun k =>
    funext fun a => Fin.ext (by
      match a with
      | ⟨0, _⟩ => rfl
      | ⟨1, _⟩ => rfl)
  unfold Spec.var
  simp only [Ideal.hostDivf_def, Ideal.ofBits_def, Ideal.ofBits_zero_f32]
  refine congrArg (fun s => Ideal.div (0 + s) Spec.c128) (Finset.sum_congr rfl fun k _ => ?_)
  rw [e k, val_main_v55_apply, dev_read]
  simp only [Ideal.mulf_def]

theorem y_read (n : Fin 50000) (j : Fin 128) :
    val_main_v72 (F := Ideal) x0 x1 x2 x3 x4 x5 x6 x7 x8 x9 x10 (ix2 n j)
      = Spec.y (HN x0 x1 x2 x3 x4 x5 x6 x7 x8) (fn1 x9) (fn1 x10) n j := by
  rw [val_main_v72_apply, val_main_v69_apply, val_main_v66_apply, dev'_read, val_main_v65_apply, val_main_v64_apply,
    val_main_v63_apply, val_main_v62_apply, val_main_cst_10_apply, val_main_v68_apply, val_main_v67_apply,
    val_main_v71_apply, val_main_v70_apply]
  have e : idx_main_v65 (ix2 n j) = ix2 n (0 : Fin 1) := funext fun a => Fin.ext (by
    match a with
    | ⟨0, _⟩ => rfl
    | ⟨1, _⟩ => rfl)
  have eg : idx_main_v67 (idx_main_v68 (ix2 n j)) = ix1 j := funext fun a => Fin.ext (by
    match a with
    | ⟨0, _⟩ => rfl)
  have eb : idx_main_v70 (idx_main_v71 (ix2 n j)) = ix1 j := funext fun a => Fin.ext (by
    match a with
    | ⟨0, _⟩ => rfl)
  rw [e, var_read, eg, eb]
  unfold Spec.y
  simp only [Ideal.addf_def, Ideal.mulf_def, Ideal.hostUnary_rsqrt_def, Ideal.ofBits_def]

/-! ### The column means and the readout -/

theorem g_read (j : Fin 128) :
    val_main_v76 (F := Ideal) x0 x1 x2 x3 x4 x5 x6 x7 x8 x9 x10 (ix2 (0 : Fin 1) j)
      = Spec.g (Spec.y (HN x0 x1 x2 x3 x4 x5 x6 x7 x8) (fn1 x9) (fn1 x10)) j := by
  rw [val_main_v76_apply, val_main_v74_apply, val_main_v73_apply, val_main_v75_apply, val_main_cst_12_apply,
    val_main_cst_11_apply]
  have e : ∀ k : Fin 50000, idx_main_v73 (idx_main_v74 (ix2 (0 : Fin 1) j)) k = ix2 k j := fun k =>
    funext fun a => Fin.ext (by
      match a with
      | ⟨0, _⟩ => rfl
      | ⟨1, _⟩ => rfl)
  unfold Spec.g Spec.colsum
  simp only [Ideal.hostDivf_def, Ideal.ofBits_def, Ideal.ofBits_zero_f32]
  refine congrArg (fun s => Ideal.div (0 + s) Spec.c50000) (Finset.sum_congr rfl fun k _ => ?_)
  rw [e k]
  exact y_read x0 x1 x2 x3 x4 x5 x6 x7 x8 x9 x10 k j

/-- The program's result at an entry is the specification's. -/
theorem out_read (o : Fin 32) :
    val_main_v79 (F := Ideal) x0 x1 x2 x3 x4 x5 x6 x7 x8 x9 x10 x11 x12 (ix2 (0 : Fin 1) o)
      = Spec.out (fn2 x0) (fn1 x1) (fn1 x2) (fn2 x3) (fn1 x4) (fn2 x5) (fn1 x6) (fn2 x7) (fn1 x8) (fn1 x9) (fn1 x10)
          (fn2 x11) (fn1 x12) o := by
  rw [val_main_v79_apply, val_main_v77_apply, val_main_v78_apply]
  unfold Spec.out Spec.readout
  simp only [Ideal.addf_def]
  refine congrArg₂ (· + ·) (Finset.sum_congr rfl fun k _ => ?_) ?_
  · have el : lidx_main_v77 (ix2 (0 : Fin 1) o) k = ix2 (0 : Fin 1) k := funext fun a => Fin.ext (by
      match a with
      | ⟨0, _⟩ => rfl
      | ⟨1, _⟩ => rfl)
    have er : ridx_main_v77 (ix2 (0 : Fin 1) o) k = ix2 k o := funext fun a => Fin.ext (by
      match a with
      | ⟨0, _⟩ => rfl
      | ⟨1, _⟩ => rfl)
    rw [el, er, g_read]
  · exact congrArg x12 (funext fun a => Fin.ext (by
      match a with
      | ⟨0, _⟩ => rfl))

/-- The program's result array is the specification's `out` of the argument arrays, read by its second coordinate. -/
theorem val_out :
    val_main_v79 (F := Ideal) x0 x1 x2 x3 x4 x5 x6 x7 x8 x9 x10 x11 x12
      = fun i => Spec.out (fn2 x0) (fn1 x1) (fn1 x2) (fn2 x3) (fn1 x4) (fn2 x5) (fn1 x6) (fn2 x7) (fn1 x8) (fn1 x9)
          (fn1 x10) (fn2 x11) (fn1 x12) (i 1) := by
  funext i
  obtain ⟨z, o, rfl⟩ : ∃ (z : Fin 1) (o : Fin 32), i = ix2 z o := ⟨i 0, i 1, eq_ix2 i⟩
  obtain rfl : z = 0 := Subsingleton.elim _ _
  exact out_read x0 x1 x2 x3 x4 x5 x6 x7 x8 x9 x10 x11 x12 o

/-- The reference run's result term is the specification's `out` of the launch contents of the thirteen arguments. -/
theorem res_out (m : (ℓ : Loc nD τ sig) → Buf (Elt Ideal) ℓ) (c : Dev nD) :
    Cert.ReferenceIdeal.Value.res_main_v79 (F := Ideal) m c
      = fun i => Spec.out
          (fn2 (a := 50000) (b := 128) (α := EReal) (m ((c.tc : Thread nD τ).loc main_arg0)))
          (fn1 (a := 640000) (α := BitVec 32) (m ((c.tc : Thread nD τ).loc main_arg1)))
          (fn1 (a := 640000) (α := BitVec 32) (m ((c.tc : Thread nD τ).loc main_arg2)))
          (fn2 (a := 128) (b := 128) (α := EReal) (m ((c.tc : Thread nD τ).loc main_arg3)))
          (fn1 (a := 128) (α := EReal) (m ((c.tc : Thread nD τ).loc main_arg4)))
          (fn2 (a := 256) (b := 128) (α := EReal) (m ((c.tc : Thread nD τ).loc main_arg5)))
          (fn1 (a := 128) (α := EReal) (m ((c.tc : Thread nD τ).loc main_arg6)))
          (fn2 (a := 256) (b := 128) (α := EReal) (m ((c.tc : Thread nD τ).loc main_arg7)))
          (fn1 (a := 128) (α := EReal) (m ((c.tc : Thread nD τ).loc main_arg8)))
          (fn1 (a := 128) (α := EReal) (m ((c.tc : Thread nD τ).loc main_arg9)))
          (fn1 (a := 128) (α := EReal) (m ((c.tc : Thread nD τ).loc main_arg10)))
          (fn2 (a := 128) (b := 32) (α := EReal) (m ((c.tc : Thread nD τ).loc main_arg11)))
          (fn1 (a := 32) (α := EReal) (m ((c.tc : Thread nD τ).loc main_arg12))) (i 1) := by
  rw [val_main_v79_eq]
  exact val_out _ _ _ _ _ _ _ _ _ _ _ _ _

end Cert.ReferenceIdeal.RefValue

end
-- ==== Proof.Claims.lean ====
/-
  The five claims about the message-passing layer, assembled from the two programs' runs.

  Each program's frame is its run with everything but the argument arrays dropped. The one rewrite of the
  idealization names the constant 1 / 50000. For the algebraic claim both results are read as the specification's
  `out` of the argument arrays: the reference's result is that function of its own arguments, which agree with
  the kernel's; the kernel's result array is a [1, 32] row whose entry o is `out … o`.
-/
import proofs.«113755_j53815940219242_2_alg».proof.Defs
import proofs.«113755_j53815940219242_2_alg».proof.Proof.Gen.Kernel
import proofs.«113755_j53815940219242_2_alg».proof.Proof.Gen.KernelIdeal
import proofs.«113755_j53815940219242_2_alg».proof.Proof.Gen.ReferenceIdeal
import proofs.«113755_j53815940219242_2_alg».proof.Proof.Gen.ReferenceIdeal.Run
import proofs.«113755_j53815940219242_2_alg».proof.Proof.Gen.Pre_finite_inputs
import proofs.«113755_j53815940219242_2_alg».proof.Proof.KRun
import proofs.«113755_j53815940219242_2_alg».proof.Proof.Run
import proofs.«113755_j53815940219242_2_alg».proof.Proof.RefValue
import Idealize.ShloMosaic.Lib.ValueIdx
import Idealize.ShloMosaic.PureOps.IdealRules

noncomputable section

namespace Cert.Proof.Claims

open Idealize.ShloMosaic Idealize.ShloMosaic.TcCoe Idealize.SL.Sem Idealize.ShloMosaic.ValueIdx
open Cert.ReferenceIdeal.RefValue (fn1 fn2)

/-! ## The frames -/

theorem frame_K : Cert.frame_Kernel := fun m ρ _ => Cert.Kernel.Run.frame m ρ

theorem frame_KI : Cert.frame_KernelIdeal := fun m ρ _ => Cert.KernelIdeal.Run.frame m ρ

theorem frame_RI : Cert.frame_ReferenceIdeal := fun m ρ _ =>
  (θ_run Cert.ReferenceIdeal.defs _ _).mono (fun _ h c => (h c).2) (Cert.ReferenceIdeal.Value.run (F := Ideal) m ρ)

/-! ## The named constant -/

/-- The constant the last kernel scales the column sums by is named 1 / 50000, and at the extended reals it is that. -/
theorem preserves : Cert.preserves_Kernel_KernelIdeal :=
  IdealRules.named_const.statement Cert.KernelIdeal.κ "inv_50000" .f32 0x37A7C5AC#32 ((1 / 50000 : ℝ) : EReal) rfl

/-! ## The two results are one function of the arguments -/

/-- The specification's result of the kernel's thirteen argument arrays on core c, as a [1, 32] row. -/
abbrev outRow (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v39) :=
  fun i => Cert.Spec.out
      (fn2 (a := 50000) (b := 128) (α := EReal) (m ((c.tc : Thread Cert.KernelIdeal.nD Cert.KernelIdeal.τ).loc Cert.KernelIdeal.main_arg0)))
      (fn1 (a := 640000) (α := BitVec 32) (m ((c.tc : Thread Cert.KernelIdeal.nD Cert.KernelIdeal.τ).loc Cert.KernelIdeal.main_arg1)))
      (fn1 (a := 640000) (α := BitVec 32) (m ((c.tc : Thread Cert.KernelIdeal.nD Cert.KernelIdeal.τ).loc Cert.KernelIdeal.main_arg2)))
      (fn2 (a := 128) (b := 128) (α := EReal) (m ((c.tc : Thread Cert.KernelIdeal.nD Cert.KernelIdeal.τ).loc Cert.KernelIdeal.main_arg3)))
      (fn1 (a := 128) (α := EReal) (m ((c.tc : Thread Cert.KernelIdeal.nD Cert.KernelIdeal.τ).loc Cert.KernelIdeal.main_arg4)))
      (fn2 (a := 256) (b := 128) (α := EReal) (m ((c.tc : Thread Cert.KernelIdeal.nD Cert.KernelIdeal.τ).loc Cert.KernelIdeal.main_arg5)))
      (fn1 (a := 128) (α := EReal) (m ((c.tc : Thread Cert.KernelIdeal.nD Cert.KernelIdeal.τ).loc Cert.KernelIdeal.main_arg6)))
      (fn2 (a := 256) (b := 128) (α := EReal) (m ((c.tc : Thread Cert.KernelIdeal.nD Cert.KernelIdeal.τ).loc Cert.KernelIdeal.main_arg7)))
      (fn1 (a := 128) (α := EReal) (m ((c.tc : Thread Cert.KernelIdeal.nD Cert.KernelIdeal.τ).loc Cert.KernelIdeal.main_arg8)))
      (fn1 (a := 128) (α := EReal) (m ((c.tc : Thread Cert.KernelIdeal.nD Cert.KernelIdeal.τ).loc Cert.KernelIdeal.main_arg9)))
      (fn1 (a := 128) (α := EReal) (m ((c.tc : Thread Cert.KernelIdeal.nD Cert.KernelIdeal.τ).loc Cert.KernelIdeal.main_arg10)))
      (fn2 (a := 128) (b := 32) (α := EReal) (m ((c.tc : Thread Cert.KernelIdeal.nD Cert.KernelIdeal.τ).loc Cert.KernelIdeal.main_arg11)))
      (fn1 (a := 32) (α := EReal) (m ((c.tc : Thread Cert.KernelIdeal.nD Cert.KernelIdeal.τ).loc Cert.KernelIdeal.main_arg12))) (i 1)

/-- The algebraic claim, given what the kernel's result array holds after the second region (`hfin`: some row
    `K m c`) and that this row is the specification's result entry by entry (`hout`). -/
theorem algebraic_of
    (K : (m : (ℓ : Loc Cert.KernelIdeal.nD Cert.KernelIdeal.τ Cert.KernelIdeal.sig) → Buf (Elt Ideal) ℓ) → (c : Dev Cert.KernelIdeal.nD) →
      Buf (Elt Ideal) ((c.tc : Thread Cert.KernelIdeal.nD Cert.KernelIdeal.τ).loc Cert.KernelIdeal.main_v39))
    (hfin : ∀ m c, (Cert.KernelIdeal.R1.dat1 (F := Ideal) (Cert.KernelIdeal.Run.E5 m) c).arrAt 10 Cert.KernelIdeal.cfg1.N = K m c)
    (hout : ∀ m c (o : Fin 32), (K m c : Cert.KernelIdeal.S1x32.Idx → EReal) (ix2 (0 : Fin 1) o) = outRow m c (ix2 (0 : Fin 1) o)) :
    Cert.algebraic_KernelIdeal_ReferenceIdeal := by
  intro m ρ m' ρ' _ hagree
  refine ⟨fun c => outRow m c, ?_, ?_⟩
  · refine (θ_run Cert.KernelIdeal.defs _ _).mono (fun _ h c => ⟨(h c).1.trans ((hfin m c).trans ?_), (h c).2⟩)
      (Cert.KernelIdeal.Run.run_result (F := Ideal) m ρ)
    funext i
    obtain ⟨z, o, rfl⟩ : ∃ (z : Fin 1) (o : Fin 32), i = ix2 z o := ⟨i 0, i 1, eq_ix2 i⟩
    obtain rfl : z = 0 := Subsingleton.elim _ _
    exact hout m c o
  · refine (θ_run Cert.ReferenceIdeal.defs _ _).mono (fun _ h c => ⟨?_, (h c).2⟩)
      (Cert.ReferenceIdeal.Value.run (F := Ideal) m' ρ')
    rw [(h c).1, Cert.ReferenceIdeal.RefValue.res_out, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    rfl

end Cert.Proof.Claims

end
-- ==== Proof.R1Value.lean ====
/-
  What each kind of grid point of the second kernel leaves, read back as values. A point adds to the accumulator
  the column sums of its block's normalised rows: `step` of the block's inputs and the accumulator it found. The
  first point finds the zero row it has just stored; the last point also leaves, in the result buffer, the dense
  head of the new accumulator.
-/
import proofs.«113755_j53815940219242_2_alg».proof.Proof.R1Body
import Idealize.ShloMosaic.Lib.Pipeline.Value
import Idealize.ShloMosaic.Lib.Tactic

set_option maxRecDepth 16384

noncomputable section

namespace Cert.KernelIdeal.R1V

open Idealize.ShloMosaic Idealize.ShloMosaic.TcCoe Idealize.ShloMosaic.Tactic Idealize.SL.Sem
open Idealize.ShloMosaic.Pipeline (Dat)
open Cert.KernelIdeal Cert.KernelIdeal.Gen Cert.KernelIdeal.R1

variable {F : FTy → Type} [FloatOps F] [Named F]

theorem hz2 : (![0, 0] : Fin 2 → Nat) = fun _ => 0 := funext fun a => by fin_cases a <;> rfl

/-- One point's new accumulator: the old one plus the column sums of the block's rows after the residual update,
    the rectifier and the layer norm (the kernel's own arithmetic, as one term). -/
def step (x0 x1 : Vec F S2000x128 .f32) (x2 : Vec F S2000x1 .f32) (x3 x4 : Vec F S128x128 .f32) (x5 x6 x7 : Vec F S1x128 .f32)
    (acc : Vec F S1x128 .f32) : Vec F S1x128 .f32 :=
  k1_pay1 (k1_pay4 x0 x1 x2 x3 x4 x5) (k1_pay5 x0 x1 x2 x3 x4 x5) (k1_pay6 x0 x1 x2 x3 x4 x5) x6 x7 acc

/-- The zero row the first point stores before accumulating. -/
abbrev zeroRow : Vec F S1x128 .f32 := k1_pay3 (F := F)

/-- A middle point leaves `step` of what it found. -/
theorem sout_B (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : ¬cond1_0 i) (hc1 : ¬cond1_1 i) (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) (xs0 : Vec F S1x128 .f32) :
    sout1_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0 = step x0 x1 x2 x3 x4 x5 x6 x7 xs0 := by
  unfold sout1_B_0
  rw [View.read_writes_eq_canon _ _ _ (scover1_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0)]
  unfold kernelRun1_B
  dsimp only
  rw [View.canon_unit_zero hz2]
  unfold step
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S2000x128) hz2, View.ld_unit_zero (S := S2000x1) hz2, View.ld_unit_zero (S := S128x128) hz2, View.ld_unit_zero (S := S1x128) hz2, View.ld_unit_zero (S := S128x32) hz2, View.ld_unit_zero (S := S1x32) hz2]

/-- The last point leaves `step` of what it found in the accumulator, -/
theorem sout_C (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : ¬cond1_0 i) (hc1 : cond1_1 i) (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) (xs0 : Vec F S1x128 .f32) :
    sout1_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0 = step x0 x1 x2 x3 x4 x5 x6 x7 xs0 := by
  unfold sout1_C_0
  rw [View.read_writes_eq_canon _ _ _ (scover1_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0)]
  unfold kernelRun1_C
  dsimp only
  sl_unfold_words
  rw [View.canon_unit_zero hz2]
  unfold step
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S2000x128) hz2, View.ld_unit_zero (S := S2000x1) hz2, View.ld_unit_zero (S := S128x128) hz2, View.ld_unit_zero (S := S1x128) hz2, View.ld_unit_zero (S := S128x32) hz2, View.ld_unit_zero (S := S1x32) hz2]

/-- and the dense head of that new accumulator in the result buffer. -/
theorem out_C (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : ¬cond1_0 i) (hc1 : cond1_1 i) (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) (xs0 : Vec F S1x128 .f32) :
    out1_C_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0 = k1_pay2 (step x0 x1 x2 x3 x4 x5 x6 x7 xs0) x8 x9 := by
  unfold out1_C_10
  rw [View.read_writes_eq_canon _ _ _ (cover1_C_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0)]
  unfold kernelRun1_C
  dsimp only
  sl_unfold_words
  rw [View.canon_unit_zero hz2]
  unfold step
  simp only [View.readAt_eq_ld, View.readCov_unit_zero (S := S1x128) _ hz2, harg1.read_unread, harg2.read_unread, harg3.read_unread, harg4.read_unread, harg5.read_unread, harg6.read_unread, harg7.read_unread, harg8.read_unread, harg9.read_unread, harg10.read_unread, harg11.read_unread, harg12.read_unread, View.ld_unit_zero (S := S2000x128) hz2, View.ld_unit_zero (S := S2000x1) hz2, View.ld_unit_zero (S := S128x128) hz2, View.ld_unit_zero (S := S1x128) hz2, View.ld_unit_zero (S := S128x32) hz2, View.ld_unit_zero (S := S1x32) hz2]

/-- The first point stores the zero row, reads it back, and leaves `step` of it. -/
theorem sout_A (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S1x128 .f32) (harg12 : arg12.IsWhole) (hc0 : cond1_0 i) (hc1 : ¬cond1_1 i) (x0 : Vec F S2000x128 .f32) (x1 : Vec F S2000x128 .f32) (x2 : Vec F S2000x1 .f32) (x3 : Vec F S128x128 .f32) (x4 : Vec F S128x128 .f32) (x5 : Vec F S1x128 .f32) (x6 : Vec F S1x128 .f32) (x7 : Vec F S1x128 .f32) (x8 : Vec F S128x32 .f32) (x9 : Vec F S1x32 .f32) :
    sout1_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 = step x0 x1 x2 x3 x4 x5 x6 x7 zeroRow := by
  unfold sout1_A_0
  rw [View.read_writes_eq_canon _ _ _ (scover1_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9)]
  unfold kernelRun1_A
  dsimp only
  sl_unfold_words
  rw [View.canon_cons_unit_zero (S := S1x128) hz2, View.readCov_unit_zero (S := S1x128) _ hz2]
  unfold step
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S2000x128) hz2, View.ld_unit_zero (S := S2000x1) hz2, View.ld_unit_zero (S := S128x128) hz2, View.ld_unit_zero (S := S1x128) hz2, View.ld_unit_zero (S := S128x32) hz2, View.ld_unit_zero (S := S1x32) hz2]

end Cert.KernelIdeal.R1V

end
-- ==== Proof.R1Acc.lean ====
/-
  The accumulator over the 25 grid points is the fold of `step` over the points' blocks from the zero row; this is
  what the region's point-by-point contents hold (by induction on the point). The result array is written back
  once, after the last point, and its one block is the whole array: it ends holding the dense head of the final
  accumulator.
-/
import proofs.«113755_j53815940219242_2_alg».proof.Proof.R1Value

set_option maxRecDepth 16384

noncomputable section

namespace Cert.KernelIdeal.R1V

open Idealize.ShloMosaic Idealize.ShloMosaic.TcCoe Idealize.ShloMosaic.Tactic Idealize.SL.Sem
open Idealize.ShloMosaic.Pipeline (Dat)
open Cert.KernelIdeal Cert.KernelIdeal.Gen Cert.KernelIdeal.R1

variable {F : FTy → Type} [FloatOps F] [Named F]

variable (V : (c : Dev nD) → (b : Ref sig .tc) → Buf (Elt F) ((c : Thread nD τ).loc b))

/-- One point's step on its own blocks. -/
abbrev blkStep (c : Dev nD) (t : Fin cfg1.N) (acc : Vec F S1x128 .f32) : Vec F S1x128 .f32 :=
  step (iblk1 V c 0 t) (iblk1 V c 1 t) (iblk1 V c 2 t) (iblk1 V c 3 t) (iblk1 V c 4 t) (iblk1 V c 5 t) (iblk1 V c 6 t) (iblk1 V c 7 t) acc

/-- The accumulator after point `n`. -/
def accAt (c : Dev nD) : (n : ℕ) → n < cfg1.N → Vec F S1x128 .f32
  | 0, h => blkStep V c ⟨0, h⟩ zeroRow
  | n + 1, h => blkStep V c ⟨n + 1, h⟩ (accAt c n (Nat.lt_of_succ_lt h))

/-- The region's accumulator contents after point `n` are that fold. -/
theorem outsAt_acc (c : Dev nD) : ∀ (n : ℕ) (h : n < cfg1.N), (outsAt1 V c n h).2 = accAt V c n h
  | 0, h => by
    refine (congrArg Prod.snd (outsAt1_A V c ⟨0, h⟩ rfl (by dsimp only; omega))).trans ?_
    dsimp only
    rw [sout_A]
    rfl
  | n + 1, h => by
    have hN : cfg1.N = 25 := N_1
    have h0 : ¬(⟨n + 1, h⟩ : Fin cfg1.N).val % 25 = 0 := by dsimp only; omega
    by_cases h1 : (⟨n + 1, h⟩ : Fin cfg1.N).val % 25 = 24
    · refine (congrArg Prod.snd (outsAt1_C V c ⟨n + 1, h⟩ h0 h1)).trans ?_
      dsimp only
      rw [sout_C]
      show blkStep V c ⟨n + 1, h⟩ (outsAt1 V c n _).2 = blkStep V c ⟨n + 1, h⟩ (accAt V c n _)
      rw [outsAt_acc c n]
    · refine (congrArg Prod.snd (outsAt1_B V c ⟨n + 1, h⟩ h0 h1)).trans ?_
      dsimp only
      rw [sout_B]
      show blkStep V c ⟨n + 1, h⟩ (outsAt1 V c n _).2 = blkStep V c ⟨n + 1, h⟩ (accAt V c n _)
      rw [outsAt_acc c n]

/-- The last point. -/
abbrev t24 : Fin cfg1.N := ⟨24, by rw [show cfg1.N = 25 from N_1]; decide⟩

/-- The result: the dense head of the accumulator after the last point. -/
abbrev result (c : Dev nD) : Buf (Elt F) ((c : Thread nD τ).loc main_v39) :=
  k1_pay2 (F := F) (accAt V c 24 t24.isLt) (iblk1 V c 8 t24) (iblk1 V c 9 t24)

theorem out_last (c : Dev nD) : (outsAt1 V c 24 t24.isLt).1 = result V c := by
  have h0 : ¬(t24 : Fin cfg1.N).val % 25 = 0 := by decide
  have h1 : (t24 : Fin cfg1.N).val % 25 = 24 := by decide
  refine (congrArg Prod.fst (outsAt1_C V c t24 h0 h1)).trans ?_
  dsimp only
  rw [out_C]
  show k1_pay2 (F := F) (blkStep V c t24 (outsAt1 V c 23 _).2) _ _ = k1_pay2 (F := F) (blkStep V c t24 (accAt V c 23 _)) _ _
  rw [outsAt_acc V c 23]

/-- The one write-back, at the last point, writes the result: block (0, 0) of the [1,32] array is the array. -/
theorem flushed_eq (c : Dev nD) (t : Fin cfg1.N) (hf : (cfg1.win 10).flush t = true) :
    (dat1 V c).flushed 10 t = ((cfg1.win 10).blk t).view.read (Elt F) (result V c) := by
  have hN : cfg1.N = 25 := N_1
  have h24 : t.val = 24 := by have := (flush1_10 t).mp hf; have := t.isLt; omega
  obtain rfl : t = t24 := Fin.ext h24
  show (cfg1.win 10).cut (grid1.coords t24) ((dat1 V c).after 10 t24) = _
  rw [after1_10, out_last]
  have hz' : (fun a => win1_10.index t24 a * main_v39.ty.shape.size a) = fun _ => 0 := funext fun a => by fin_cases a <;> decide
  exact (Memref.read_access_unit_zero (Elt F) main_v39 hz' (fun a => by rw [congrFun hz' a]; simp) (result V c)).symm

/-- So the result array ends holding the dense head of the final accumulator. -/
theorem final_out (c : Dev nD) : (dat1 V c).arrAt 10 cfg1.N = result V c :=
  (dat1 V c).arrAt_eq_of_cover 10 (result V c) (flushed_eq V c) fun i =>
    ⟨t24, (flush1_10 t24).mpr rfl, by
      show i ∈ ((View.whole main_v39).slice (win1_10.rect t24)).set
      rw [View.set_slice_whole, Rect.mem_set_unit]
      intro a
      have h0 : (i 0 : Nat) < 1 := (i 0).isLt
      have h1 : (i 1 : Nat) < 32 := (i 1).isLt
      match a with
      | ⟨0, _⟩ => show win1_10.index t24 0 * win1_10.size 0 ≤ (i 0 : Nat) ∧ (i 0 : Nat) < win1_10.index t24 0 * win1_10.size 0 + win1_10.xsize (grid1.coords t24) 0
                  rw [show win1_10.index t24 0 * win1_10.size 0 = 0 from by decide +kernel, show win1_10.xsize (grid1.coords t24) 0 = 1 from by decide +kernel]; omega
      | ⟨1, _⟩ => show win1_10.index t24 1 * win1_10.size 1 ≤ (i 1 : Nat) ∧ (i 1 : Nat) < win1_10.index t24 1 * win1_10.size 1 + win1_10.xsize (grid1.coords t24) 1
                  rw [show win1_10.index t24 1 * win1_10.size 1 = 0 from by decide +kernel, show win1_10.xsize (grid1.coords t24) 1 = 32 from by decide +kernel]; omega⟩

end Cert.KernelIdeal.R1V

end
-- ==== Proof.HostValue0.lean ====
/-
  The first stretch of array operations, read entry by entry over the extended reals.

  Six vectors are re-laid as one-row matrices: entry (0, j) of the row is entry j of the vector. The 256-row weight
  matrix of the message map is cut into its upper and lower 128 rows: entry (k, j) of the upper half is entry (k, j) of
  the matrix, entry (k, j) of the lower half is entry (128 + k, j). Every statement is for arbitrary contents of the
  arrays before the stretch.
-/
import proofs.«113755_j53815940219242_2_alg».proof.Proof.Gen.KernelIdeal.Launch
import proofs.«113755_j53815940219242_2_alg».proof.Proof.Gen.KernelIdeal.Regions
import proofs.«113755_j53815940219242_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HostV

open Idealize.ShloMosaic Idealize.ShloMosaic.ValueIdx
open Cert.KernelIdeal Cert.KernelIdeal.Gen

variable (W : Valuation τ sig (Elt Ideal))

/-- A vector re-laid as a one-row matrix: entry (0, j) is entry j. -/
theorem row_of_vec_apply {α : Type} {n : Nat} (x : (⟨1, ![n]⟩ : Shape).Idx → α)
    (h : (⟨1, ![n]⟩ : Shape).ShapeCasts ⟨2, ![1, n]⟩) (j : Fin n) :
    shapeCast ⟨2, ![1, n]⟩ x h (ix2 (0 : Fin 1) j) = x (ix1 j) := by
  refine shapeCast_apply _ _ _ _ ?_
  rw [Shape.rowMajor_val_one, Shape.rowMajor_val_two]
  show j.val = 0 * n + j.val
  omega

/-- The upper 128 rows of a 256-row matrix: entry (k, j) is entry (k, j). -/
theorem upper_half_apply {α : Type} (x : S256x128.Idx → α) (h : S256x128.Slices ![0, 0] S128x128) (k j : Fin 128) :
    extractStridedSlice S128x128 ![0, 0] x h (ix2 k j) = x (ix2 (Cert.Spec.lo k) j) := by
  refine extractStridedSlice_apply _ _ _ _ _ ?_
  intro a
  match a with
  | ⟨0, _⟩ => show k.val = 0 + k.val; omega
  | ⟨1, _⟩ => show j.val = 0 + j.val; omega

/-- The lower 128 rows of a 256-row matrix: entry (k, j) is entry (128 + k, j). -/
theorem lower_half_apply {α : Type} (x : S256x128.Idx → α) (h : S256x128.Slices ![128, 0] S128x128) (k j : Fin 128) :
    extractStridedSlice S128x128 ![128, 0] x h (ix2 k j) = x (ix2 (Cert.Spec.hi k) j) := by
  refine extractStridedSlice_apply _ _ _ _ _ ?_
  intro a
  match a with
  | ⟨0, _⟩ => show 128 + k.val = 128 + k.val; rfl
  | ⟨1, _⟩ => show j.val = 0 + j.val; omega

/-- The one-row matrix `main_v0` holds the vector `main_arg4`. -/
theorem main_v0_apply (j : Fin 128) :
    (StableHlo.after (hostOps0 (F := Ideal)) W (Proc.devRef .tc main_v0) : S1x128.Idx → EReal) (ix2 (0 : Fin 1) j)
      = (W (Proc.devRef .tc main_arg4) : S128.Idx → EReal) (ix1 j) := by
  have e : (StableHlo.after (hostOps0 (F := Ideal)) W (Proc.devRef .tc main_v0) : S1x128.Idx → EReal)
      = shapeCast S1x128 (W (Proc.devRef .tc main_arg4) : S128.Idx → EReal) shapeCasts_S128_S1x128 := by
    simp only [hostOps0]; after_results; rfl
  rw [e]
  exact row_of_vec_apply _ _ j

/-- The one-row matrix `main_v1` holds the vector `main_arg6`. -/
theorem main_v1_apply (j : Fin 128) :
    (StableHlo.after (hostOps0 (F := Ideal)) W (Proc.devRef .tc main_v1) : S1x128.Idx → EReal) (ix2 (0 : Fin 1) j)
      = (W (Proc.devRef .tc main_arg6) : S128.Idx → EReal) (ix1 j) := by
  have e : (StableHlo.after (hostOps0 (F := Ideal)) W (Proc.devRef .tc main_v1) : S1x128.Idx → EReal)
      = shapeCast S1x128 (W (Proc.devRef .tc main_arg6) : S128.Idx → EReal) shapeCasts_S128_S1x128 := by
    simp only [hostOps0]; after_results; rfl
  rw [e]
  exact row_of_vec_apply _ _ j

/-- The one-row matrix `main_v2` holds the vector `main_arg8`. -/
theorem main_v2_apply (j : Fin 128) :
    (StableHlo.after (hostOps0 (F := Ideal)) W (Proc.devRef .tc main_v2) : S1x128.Idx → EReal) (ix2 (0 : Fin 1) j)
      = (W (Proc.devRef .tc main_arg8) : S128.Idx → EReal) (ix1 j) := by
  have e : (StableHlo.after (hostOps0 (F := Ideal)) W (Proc.devRef .tc main_v2) : S1x128.Idx → EReal)
      = shapeCast S1x128 (W (Proc.devRef .tc main_arg8) : S128.Idx → EReal) shapeCasts_S128_S1x128 := by
    simp only [hostOps0]; after_results; rfl
  rw [e]
  exact row_of_vec_apply _ _ j

/-- The one-row matrix `main_v3` holds the vector `main_arg9`. -/
theorem main_v3_apply (j : Fin 128) :
    (StableHlo.after (hostOps0 (F := Ideal)) W (Proc.devRef .tc main_v3) : S1x128.Idx → EReal) (ix2 (0 : Fin 1) j)
      = (W (Proc.devRef .tc main_arg9) : S128.Idx → EReal) (ix1 j) := by
  have e : (StableHlo.after (hostOps0 (F := Ideal)) W (Proc.devRef .tc main_v3) : S1x128.Idx → EReal)
      = shapeCast S1x128 (W (Proc.devRef .tc main_arg9) : S128.Idx → EReal) shapeCasts_S128_S1x128 := by
    simp only [hostOps0]; after_results; rfl
  rw [e]
  exact row_of_vec_apply _ _ j

/-- The one-row matrix `main_v4` holds the vector `main_arg10`. -/
theorem main_v4_apply (j : Fin 128) :
    (StableHlo.after (hostOps0 (F := Ideal)) W (Proc.devRef .tc main_v4) : S1x128.Idx → EReal) (ix2 (0 : Fin 1) j)
      = (W (Proc.devRef .tc main_arg10) : S128.Idx → EReal) (ix1 j) := by
  have e : (StableHlo.after (hostOps0 (F := Ideal)) W (Proc.devRef .tc main_v4) : S1x128.Idx → EReal)
      = shapeCast S1x128 (W (Proc.devRef .tc main_arg10) : S128.Idx → EReal) shapeCasts_S128_S1x128 := by
    simp only [hostOps0]; after_results; rfl
  rw [e]
  exact row_of_vec_apply _ _ j

/-- The one-row matrix `main_v5` holds the vector `main_arg12`. -/
theorem main_v5_apply (o : Fin 32) :
    (StableHlo.after (hostOps0 (F := Ideal)) W (Proc.devRef .tc main_v5) : S1x32.Idx → EReal) (ix2 (0 : Fin 1) o)
      = (W (Proc.devRef .tc main_arg12) : S32.Idx → EReal) (ix1 o) := by
  have e : (StableHlo.after (hostOps0 (F := Ideal)) W (Proc.devRef .tc main_v5) : S1x32.Idx → EReal)
      = shapeCast S1x32 (W (Proc.devRef .tc main_arg12) : S32.Idx → EReal) shapeCasts_S32_S1x32 := by
    simp only [hostOps0]; after_results; rfl
  rw [e]
  exact row_of_vec_apply _ _ o

/-- `main_v6` is the upper half of the message weights `main_arg5`. -/
theorem main_v6_apply (k j : Fin 128) :
    (StableHlo.after (hostOps0 (F := Ideal)) W (Proc.devRef .tc main_v6) : S128x128.Idx → EReal) (ix2 k j)
      = (W (Proc.devRef .tc main_arg5) : S256x128.Idx → EReal) (ix2 (Cert.Spec.lo k) j) := by
  have e : (StableHlo.after (hostOps0 (F := Ideal)) W (Proc.devRef .tc main_v6) : S128x128.Idx → EReal)
      = extractStridedSlice S128x128 ![0, 0] (W (Proc.devRef .tc main_arg5) : S256x128.Idx → EReal)
          slices_S256x128_S128x128_0_0 := by
    simp only [hostOps0]; after_results
  rw [e]
  exact upper_half_apply _ _ k j

/-- `main_v7` is the lower half of the message weights `main_arg5`. -/
theorem main_v7_apply (k j : Fin 128) :
    (StableHlo.after (hostOps0 (F := Ideal)) W (Proc.devRef .tc main_v7) : S128x128.Idx → EReal) (ix2 k j)
      = (W (Proc.devRef .tc main_arg5) : S256x128.Idx → EReal) (ix2 (Cert.Spec.hi k) j) := by
  have e : (StableHlo.after (hostOps0 (F := Ideal)) W (Proc.devRef .tc main_v7) : S128x128.Idx → EReal)
      = extractStridedSlice S128x128 ![128, 0] (W (Proc.devRef .tc main_arg5) : S256x128.Idx → EReal)
          slices_S256x128_S128x128_128_0 := by
    simp only [hostOps0]; after_results
  rw [e]
  exact lower_half_apply _ _ k j

end Cert.KernelIdeal.HostV

end
-- ==== Proof.HostValue1.lean ====
/-
  The array operations between the two kernels, read entry by entry over the extended reals.

  First stretch: each endpoint word of an edge is raised by 50000 if negative; row e of two gathered arrays is the row
  of the two node arrays that the raised source and target words of edge e select (signed, clamped into [0, 49999]);
  the two gathered rows and the one-row bias are added. Second stretch: the larger of that sum and zero. Third stretch:
  row n of the pooled sums is zero plus the sum of the rows e of the rectified array over the edges e whose target word,
  signed as it stands, is n; the count of row n is zero plus a one for each such edge, laid out as a column; and the 256-row
  weight matrix of the update map is cut into its upper and lower 128 rows. Every statement is for arbitrary contents of
  the arrays before the stretches; arrays that no operation of the three stretches writes keep their contents.
-/
import proofs.«113755_j53815940219242_2_alg».proof.Proof.Gen.KernelIdeal.Launch
import proofs.«113755_j53815940219242_2_alg».proof.Proof.Gen.KernelIdeal.Regions
import proofs.«113755_j53815940219242_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import Idealize.ShloMosaic.Lib.KernelVsHost
import proofs.«113755_j53815940219242_2_alg».proof.Proof.HostValue0
import proofs.«113755_j53815940219242_2_alg».proof.Proof.LibGatherRows
import proofs.«113755_j53815940219242_2_alg».proof.Proof.LibScatterRows
import proofs.«113755_j53815940219242_2_alg».proof.Proof.LibScatterVec

noncomputable section

namespace Cert.KernelIdeal.HostV

open Idealize.ShloMosaic Idealize.ShloMosaic.ValueIdx
open Cert.KernelIdeal Cert.KernelIdeal.Gen

variable (W : Valuation τ sig (Elt Ideal))

open scoped BigOperators

/-! ## Layout pieces at an entry -/

/-- A vector of 640000 words laid out as a column: entry (e, 0) is entry e. -/
theorem col_apply (s : S640000.Idx → BitVec 32) (e : Fin 640000) :
    broadcastInDim S640000x1 ![0] bcast_S640000_S640000x1_0 s (ix2 e (0 : Fin 1)) = s (ix1 e) := by
  refine broadcastInDim_apply _ _ _ (ix2 e (0 : Fin 1)) (ix1 e) ?_
  intro a
  match a with
  | ⟨0, _⟩ =>
    show e.val = if (640000 : ℕ) = 1 then 0 else e.val
    rw [if_neg (by omega)]

/-- A vector laid out as a one-column matrix: entry (i, 0) is entry i. -/
theorem col_of_vec_apply {α : Type} {n : Nat} (x : (⟨1, ![n]⟩ : Shape).Idx → α)
    (h : (⟨1, ![n]⟩ : Shape).ShapeCasts ⟨2, ![n, 1]⟩) (i : Fin n) :
    shapeCast ⟨2, ![n, 1]⟩ x h (ix2 i (0 : Fin 1)) = x (ix1 i) := by
  refine shapeCast_apply _ _ _ _ ?_
  rw [Shape.rowMajor_val_one, Shape.rowMajor_val_two]
  show i.val = i.val * 1 + 0
  omega

/-- The endpoint words, each raised by 50000 if negative, as a column of start rows. -/
abbrev wrapCol (s : S640000.Idx → BitVec 32) : S640000x1.Idx → BitVec 32 :=
  broadcastInDim S640000x1 ![0] bcast_S640000_S640000x1_0
    (select (cmpi .slt s (broadcastInDim S640000 ![] bcast_S_S640000 (constantI S_ 32 0#32)))
      (addi s (broadcastInDim S640000 ![] bcast_S_S640000 (constantI S_ 32 50000#32))) s)

/-- Entry (e, 0) of the column of raised words is the raised word of edge e. -/
theorem wrapCol_apply (s : S640000.Idx → BitVec 32) (e : Fin 640000) :
    wrapCol s (ix2 e (0 : Fin 1)) = Cert.Spec.wrap (s (ix1 e)) :=
  (col_apply _ e).trans rfl

/-- The row a gather reads for edge e from the raised words: the raised word, signed, clamped into [0, 49999]. -/
theorem rowOf_wrapCol (s : S640000.Idx → BitVec 32) (e : Fin 640000) :
    GatherRows.rowOf (N := 50000) (by decide) (wrapCol s) e = Cert.Spec.row (s (ix1 e)) :=
  Fin.ext (congrArg (fun b : BitVec 32 => min b.toInt.toNat (50000 - 1)) (wrapCol_apply s e))

/-- The program's gather is a row gather of a [50000, 128] array at 640000 start rows. -/
theorem gather_dims_eq : gather_S50000x128_S640000x1_S640000x128_1_0_n_n_0_1_1128
    = GatherRows.rowDims 50000 640000 128 gather_S50000x128_S640000x1_S640000x128_1_0_n_n_0_1_1128_wf := rfl

/-- The program's row scatter is a row scatter of 640000 update rows into a [50000, 128] array. -/
theorem rows_dims_eq : scatter_S50000x128_S640000x1_S640000x128_1_0_0_1
    = ScatterRows.rowDims 50000 640000 128 scatter_S50000x128_S640000x1_S640000x128_1_0_0_1_wf := rfl

/-- The program's vector scatter is a scatter of 640000 updates into a vector of 50000 entries. -/
theorem vec_dims_eq : scatter_S50000_S640000x1_S640000_n_0_0_1
    = ScatterVec.vecDims 50000 640000 scatter_S50000_S640000x1_S640000_n_0_0_1_wf := rfl

/-- Over the extended reals the accumulating scatter is the exact one, whatever its dimension numbers. -/
theorem hostScatterAdd_eq {s si su : Shape} {φ : FTy} (d : ScatterDims s si su) {w : Nat} (x : FVec Ideal s φ)
    (idx : IVec si w) (upd : FVec Ideal su φ) :
    Host.scatterAdd (F := Ideal) d x idx upd = Ideal.hostScatterAdd d x idx upd := rfl

/-- The row gather of this program at (e, j): the operand at the clamped start row and column j. -/
theorem gather_apply {α : Type} (x : S50000x128.Idx → α) (idx : S640000x1.Idx → BitVec 32) (e : Fin 640000) (j : Fin 128) :
    Host.gather gather_S50000x128_S640000x1_S640000x128_1_0_n_n_0_1_1128 x idx (ix2 e j)
      = x (ix2 (GatherRows.rowOf (N := 50000) (by decide) idx e) j) := by
  rw [gather_dims_eq]
  exact GatherRows.gather_rows_apply (N := 50000) (R := 640000) (C := 128) (by decide)
    gather_S50000x128_S640000x1_S640000x128_1_0_n_n_0_1_1128_wf x idx e j

/-- The edges a scatter by the raw words lands on row n are the edges whose word, signed, is n. -/
theorem hits_col (s : S640000.Idx → BitVec 32) (n : Fin 50000) :
    ScatterRows.hits (N := 50000) (broadcastInDim S640000x1 ![0] bcast_S640000_S640000x1_0 s) n
      = Cert.Spec.hits (fun e => s (ix1 e)) n := by
  unfold ScatterRows.hits Cert.Spec.hits
  refine Finset.filter_congr fun e _ => ?_
  rw [col_apply]

/-! ## Each stretch as one term of the contents before it -/

theorem v27_eq :
    (StableHlo.after (hostOps1 (F := Ideal)) W (Proc.devRef .tc main_v27) : FVec Ideal S640000x128 .f32)
      = addf (F := Ideal) (addf (F := Ideal)
          (extf (F := Ideal) .f32 (Host.gather gather_S50000x128_S640000x1_S640000x128_1_0_n_n_0_1_1128
            (W (Proc.devRef .tc main_v8_1) : FVec Ideal S50000x128 .bf16) (wrapCol (W (Proc.devRef .tc main_arg1)))) bitsLt_bf16_f32)
          (extf (F := Ideal) .f32 (Host.gather gather_S50000x128_S640000x1_S640000x128_1_0_n_n_0_1_1128
            (W (Proc.devRef .tc main_v8_2) : FVec Ideal S50000x128 .bf16) (wrapCol (W (Proc.devRef .tc main_arg2)))) bitsLt_bf16_f32))
          (broadcastInDim S640000x128 ![0, 1] bcast_S1x128_S640000x128_0_1 (W (Proc.devRef .tc main_v1) : FVec Ideal S1x128 .f32)) := by
  simp only [hostOps1]; after_results_simp

theorem v28_eq :
    (StableHlo.after (hostOps1_1 (F := Ideal)) W (Proc.devRef .tc main_v28) : FVec Ideal S640000x128 .f32)
      = maximumf (F := Ideal) (W (Proc.devRef .tc main_v27) : FVec Ideal S640000x128 .f32)
          (broadcastInDim S640000x128 ![] bcast_S_S640000x128 (constant (F := Ideal) S_ .f32 0x00000000#32)) := by
  simp only [hostOps1_1]; after_results; rfl

theorem v31_eq :
    (StableHlo.after (hostOps1_2 (F := Ideal)) W (Proc.devRef .tc main_v31) : FVec Ideal S50000x128 .f32)
      = Host.scatterAdd (F := Ideal) scatter_S50000x128_S640000x1_S640000x128_1_0_0_1
          (broadcastInDim S50000x128 ![] bcast_S_S50000x128 (constant (F := Ideal) S_ .f32 0x00000000#32))
          (broadcastInDim S640000x1 ![0] bcast_S640000_S640000x1_0 (W (Proc.devRef .tc main_arg2) : S640000.Idx → BitVec 32))
          (W (Proc.devRef .tc main_v28) : FVec Ideal S640000x128 .f32) := by
  simp only [hostOps1_2]; after_results

theorem v36_eq :
    (StableHlo.after (hostOps1_2 (F := Ideal)) W (Proc.devRef .tc main_v36) : FVec Ideal S50000x1 .f32)
      = shapeCast S50000x1 (Host.scatterAdd (F := Ideal) scatter_S50000_S640000x1_S640000_n_0_0_1
          (broadcastInDim S50000 ![] bcast_S_S50000 (constant (F := Ideal) S_ .f32 0x00000000#32))
          (broadcastInDim S640000x1 ![0] bcast_S640000_S640000x1_0 (W (Proc.devRef .tc main_arg2) : S640000.Idx → BitVec 32))
          (broadcastInDim S640000 ![] bcast_S_S640000 (constant (F := Ideal) S_ .f32 0x3F800000#32))) shapeCasts_S50000_S50000x1 := by
  simp only [hostOps1_2]; after_results; rfl

/-! ## The arrays by name

The arrays the stretches read and the two intermediate arrays, as functions of literal coordinates. -/

/-- The first node array (the source half of the message map). -/
abbrev AM (n : Fin 50000) (j : Fin 128) : EReal := (W (Proc.devRef .tc main_v8_1) : S50000x128.Idx → EReal) (ix2 n j)
/-- The second node array (the target half of the message map). -/
abbrev AD (n : Fin 50000) (j : Fin 128) : EReal := (W (Proc.devRef .tc main_v8_2) : S50000x128.Idx → EReal) (ix2 n j)
/-- The source endpoint words. -/
abbrev src (e : Fin 640000) : BitVec 32 := (W (Proc.devRef .tc main_arg1) : S640000.Idx → BitVec 32) (ix1 e)
/-- The target endpoint words. -/
abbrev dst (e : Fin 640000) : BitVec 32 := (W (Proc.devRef .tc main_arg2) : S640000.Idx → BitVec 32) (ix1 e)
/-- The message bias, a one-row matrix. -/
abbrev bm (j : Fin 128) : EReal := (W (Proc.devRef .tc main_v1) : S1x128.Idx → EReal) (ix2 (0 : Fin 1) j)
/-- The summed array, before the rectifier. -/
abbrev pre (e : Fin 640000) (j : Fin 128) : EReal := (W (Proc.devRef .tc main_v27) : S640000x128.Idx → EReal) (ix2 e j)
/-- The rectified array. -/
abbrev rect (e : Fin 640000) (j : Fin 128) : EReal := (W (Proc.devRef .tc main_v28) : S640000x128.Idx → EReal) (ix2 e j)

/-! ## Each stretch at an entry -/

/-- After the first stretch, entry (e, j) of the summed array: the two node arrays at the rows the endpoints of edge e
    select, plus the bias. -/
theorem v27_apply (e : Fin 640000) (j : Fin 128) :
    pre (StableHlo.after (hostOps1 (F := Ideal)) W) e j
      = (AM W (Cert.Spec.row (src W e)) j + AD W (Cert.Spec.row (dst W e)) j) + bm W j := by
  show (StableHlo.after (hostOps1 (F := Ideal)) W (Proc.devRef .tc main_v27) : S640000x128.Idx → EReal) (ix2 e j) = _
  rw [v27_eq W, addf_apply, addf_apply, extf_apply, extf_apply, gather_apply, gather_apply, rowOf_wrapCol, rowOf_wrapCol,
    broadcastInDim_oneRow_apply]

/-- After the second stretch, entry (e, j) of the rectified array: the larger of the summed entry and zero. -/
theorem v28_apply (e : Fin 640000) (j : Fin 128) :
    rect (StableHlo.after (hostOps1_1 (F := Ideal)) W) e j = max (pre W e j) 0 := by
  show (StableHlo.after (hostOps1_1 (F := Ideal)) W (Proc.devRef .tc main_v28) : S640000x128.Idx → EReal) (ix2 e j) = _
  rw [v28_eq W, maximumf_apply, broadcastInDim_scalar_apply, constant_apply, Ideal.ofBits_zero_f32]

/-- After the third stretch, entry (n, j) of the pooled sums: zero plus the rectified entries (e, j) over the edges e whose
    target word is n. -/
theorem v31_apply (n : Fin 50000) (j : Fin 128) :
    (StableHlo.after (hostOps1_2 (F := Ideal)) W (Proc.devRef .tc main_v31) : S50000x128.Idx → EReal) (ix2 n j)
      = Cert.Spec.psum (rect W) (dst W) n j := by
  rw [v31_eq W, hostScatterAdd_eq, rows_dims_eq, ScatterRows.scatterAdd_rows_apply]
  unfold Cert.Spec.psum
  rw [broadcastInDim_scalar_apply, constant_apply, Ideal.ofBits_zero_f32, hits_col]

/-- After the third stretch, entry (n, 0) of the count column: zero plus a one for each edge whose target word is n. -/
theorem v36_apply (n : Fin 50000) :
    (StableHlo.after (hostOps1_2 (F := Ideal)) W (Proc.devRef .tc main_v36) : S50000x1.Idx → EReal) (ix2 n (0 : Fin 1))
      = Cert.Spec.cnt (dst W) n := by
  rw [v36_eq W, hostScatterAdd_eq, vec_dims_eq]
  refine (col_of_vec_apply _ _ n).trans ?_
  rw [ScatterVec.scatterAdd_vec_apply]
  unfold Cert.Spec.cnt
  rw [broadcastInDim_scalar_apply, constant_apply, Ideal.ofBits_zero_f32, hits_col]
  refine congrArg (fun t : EReal => 0 + t) (Finset.sum_congr rfl fun e _ => ?_)
  rw [broadcastInDim_scalar_apply, constant_apply]

/-- After the third stretch, `main_v37` is the upper half of the update weights `main_arg7`. -/
theorem v37_apply (k j : Fin 128) :
    (StableHlo.after (hostOps1_2 (F := Ideal)) W (Proc.devRef .tc main_v37) : S128x128.Idx → EReal) (ix2 k j)
      = (W (Proc.devRef .tc main_arg7) : S256x128.Idx → EReal) (ix2 (Cert.Spec.lo k) j) := by
  have e : (StableHlo.after (hostOps1_2 (F := Ideal)) W (Proc.devRef .tc main_v37) : S128x128.Idx → EReal)
      = extractStridedSlice S128x128 ![0, 0] (W (Proc.devRef .tc main_arg7) : S256x128.Idx → EReal)
          slices_S256x128_S128x128_0_0 := by
    simp only [hostOps1_2]; after_results
  rw [e]
  exact upper_half_apply _ _ k j

/-- After the third stretch, `main_v38` is the lower half of the update weights `main_arg7`. -/
theorem v38_apply (k j : Fin 128) :
    (StableHlo.after (hostOps1_2 (F := Ideal)) W (Proc.devRef .tc main_v38) : S128x128.Idx → EReal) (ix2 k j)
      = (W (Proc.devRef .tc main_arg7) : S256x128.Idx → EReal) (ix2 (Cert.Spec.hi k) j) := by
  have e : (StableHlo.after (hostOps1_2 (F := Ideal)) W (Proc.devRef .tc main_v38) : S128x128.Idx → EReal)
      = extractStridedSlice S128x128 ![128, 0] (W (Proc.devRef .tc main_arg7) : S256x128.Idx → EReal)
          slices_S256x128_S128x128_128_0 := by
    simp only [hostOps1_2]; after_results
  rw [e]
  exact lower_half_apply _ _ k j

/-! ## What the stretches leave alone -/

/-- An array that neither of the first two stretches writes keeps its contents through them. -/
theorem keep2 (r : Ref sig .tc) (h1 : r ∉ hostOps1_W) (h2 : r ∉ hostOps1_1_W) :
    StableHlo.after (hostOps1_1 (F := Ideal)) (StableHlo.after (hostOps1 (F := Ideal)) W) (Proc.devRef .tc r)
      = W (Proc.devRef .tc r) :=
  (StableHlo.after_of_writes_sub hostOps1_1 _ (hostOps1_1_writes (F := Ideal)) h2).trans
    (StableHlo.after_of_writes_sub hostOps1 W (hostOps1_writes (F := Ideal)) h1)

/-- An array that none of the three stretches writes keeps its contents through them. -/
theorem keep3 (r : Ref sig .tc) (h1 : r ∉ hostOps1_W) (h2 : r ∉ hostOps1_1_W) (h3 : r ∉ hostOps1_2_W) :
    StableHlo.after (hostOps1_2 (F := Ideal))
        (StableHlo.after (hostOps1_1 (F := Ideal)) (StableHlo.after (hostOps1 (F := Ideal)) W)) (Proc.devRef .tc r)
      = W (Proc.devRef .tc r) :=
  (StableHlo.after_of_writes_sub hostOps1_2 _ (hostOps1_2_writes (F := Ideal)) h3).trans (keep2 W r h1 h2)

end Cert.KernelIdeal.HostV

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.R0Value.lean ====
/-
  What the projection region leaves in its three output arrays, entry by entry, over the extended reals and for
  arbitrary contents of the arrays it reads.

  The region walks the 50000 feature rows in 25 blocks of 2000. On each block it forms h = x Wp + bp (row p of the
  block times column q of the weights, plus the bias at q) and then h Wt and h Wb for the two halves of the message
  weights; a change of float format is the identity here, and a product into a zero accumulator is the plain sum.
  Row p of block t is row 2000 t + p of the feature array, the weights and the bias are read whole at every block,
  and row n of each output lies in block n / 2000, so the three arrays end at h, h Wt and h Wb on all 50000 rows.
-/
import proofs.«113755_j53815940219242_2_alg».proof.Proof.R0Body
import proofs.«113755_j53815940219242_2_alg».proof.Proof.Spec
import proofs.«113755_j53815940219242_2_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.R0V

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at an entry -/

/-- The kernel's [2000,128] by [128,128] product is the plain one: rows times columns, no batch axis. -/
theorem dot_plain : dot_S2000x128_S128x128_S2000x128_1_0_0_1_n_n = DotDims.plain 2000 128 128 := rfl

/-- The projected block at (p, q): row p of the feature block times column q of the weights, plus the bias at q. -/
theorem pay1_apply (x0 : Vec Ideal S2000x128 .f32) (x1 : Vec Ideal S128x128 .f32) (x2 : Vec Ideal S1x128 .f32)
    (p : Fin 2000) (q : Fin 128) :
    k0_pay1 x0 x1 x2 (ix2 p q) = (∑ k : Fin 128, x0 (ix2 p k) * x1 (ix2 k q)) + x2 (ix2 (0 : Fin 1) q) := by
  unfold k0_pay1
  refine congrArg₂ (· + ·) ?_ ?_
  · exact MatmulPlain.matmul_zero_apply (M := 2000) (K := 128) (N := 128) none _ _ (ix2 p q)
  · refine (broadcastTo_1b_ab_apply _ _ p q).trans ?_
    rw [shapeCast_self]

/-- The projected block times a second weight matrix, at (p, q). -/
theorem pay_second_apply (h : FVec Ideal S2000x128 .bf16) (x3 : Vec Ideal S128x128 .f32) (p : Fin 2000) (q : Fin 128) :
    (truncf .bf16 (matmul dot_S2000x128_S128x128_S2000x128_1_0_0_1_n_n none h
        (truncf .bf16 (shapeCast S128x128 x3 shapeCasts_S128x128_S128x128) bitsLt_bf16_f32)
        (constant (F := Ideal) S2000x128 .f32 0x00000000#32)) bitsLt_bf16_f32 : FVec Ideal S2000x128 .bf16) (ix2 p q)
      = ∑ k : Fin 128, h (ix2 p k) * x3 (ix2 k q) := by
  refine (MatmulPlain.matmul_zero_apply (M := 2000) (K := 128) (N := 128) none _ _ (ix2 p q)).trans ?_
  refine Finset.sum_congr rfl fun k _ => ?_
  show h (ix2 p k) * shapeCast S128x128 x3 shapeCasts_S128x128_S128x128 (ix2 k q) = _
  rw [shapeCast_self]

theorem pay3_apply (x0 : Vec Ideal S2000x128 .f32) (x1 : Vec Ideal S128x128 .f32) (x2 : Vec Ideal S1x128 .f32)
    (x3 : Vec Ideal S128x128 .f32) (p : Fin 2000) (q : Fin 128) :
    k0_pay3 x0 x1 x2 x3 (ix2 p q) = ∑ k : Fin 128, k0_pay1 x0 x1 x2 (ix2 p k) * x3 (ix2 k q) := by
  unfold k0_pay3
  exact pay_second_apply (k0_pay2 x0 x1 x2) x3 p q

theorem pay4_apply (x0 : Vec Ideal S2000x128 .f32) (x1 : Vec Ideal S128x128 .f32) (x2 : Vec Ideal S1x128 .f32)
    (x4 : Vec Ideal S128x128 .f32) (p : Fin 2000) (q : Fin 128) :
    k0_pay4 x0 x1 x2 x4 (ix2 p q) = ∑ k : Fin 128, k0_pay1 x0 x1 x2 (ix2 p k) * x4 (ix2 k q) := by
  unfold k0_pay4
  exact pay_second_apply (k0_pay2 x0 x1 x2) x4 p q

/-! ## The arrays the region reads, as functions on literal index types -/

variable (V : (c : Dev nD) → (b : Ref sig .tc) → Buf (Elt Ideal) ((c : Thread nD τ).loc b))

/-- The node features, [50000, 128]. -/
abbrev X (c : Dev nD) : Fin 50000 → Fin 128 → EReal := fun n k => (V c main_arg0 : S50000x128.Idx → EReal) (ix2 n k)
/-- The projection weights, [128, 128]. -/
abbrev Wp (c : Dev nD) : Fin 128 → Fin 128 → EReal := fun k j => (V c main_arg3 : S128x128.Idx → EReal) (ix2 k j)
/-- The projection bias, the one row of a [1, 128] array. -/
abbrev Bp (c : Dev nD) : Fin 128 → EReal := fun j => (V c main_v0 : S1x128.Idx → EReal) (ix2 (0 : Fin 1) j)
/-- The upper half of the message weights, [128, 128]. -/
abbrev Wt (c : Dev nD) : Fin 128 → Fin 128 → EReal := fun k j => (V c main_v6 : S128x128.Idx → EReal) (ix2 k j)
/-- The lower half of the message weights, [128, 128]. -/
abbrev Wb (c : Dev nD) : Fin 128 → Fin 128 → EReal := fun k j => (V c main_v7 : S128x128.Idx → EReal) (ix2 k j)

/-! ## The grid: 25 points, point t owning rows 2000 t … 2000 t + 1999 -/

theorem hz : (![0, 0] : Fin 2 → Nat) = fun _ => 0 := funext fun a => by fin_cases a <;> rfl

/-- The block indices: the feature window and the three outputs move down the rows with the point; the weights and
    the bias stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row p of point t's block is row 2000 t + p of the array. -/
def rowOf (t : Fin cfg0.N) (p : Fin 2000) : Fin 50000 :=
  ⟨2000 * t.val + p.val, by have h : t.val < 25 := Nat.lt_of_lt_of_eq t.isLt N_0
                            have := p.isLt; omega⟩

theorem rowOf_val (t : Fin cfg0.N) (p : Fin 2000) : (rowOf t p).val = 2000 * t.val + p.val := rfl

/-! ## The input blocks read off the arrays -/

theorem iblk0_0_apply (c : Dev nD) (t : Fin cfg0.N) (p : Fin 2000) (k : Fin 128) :
    (R0.iblk0 V c 0 t : Vec Ideal S2000x128 .f32) (ix2 p k) = X V c (rowOf t p) k := by
  obtain ⟨e0, e1, -⟩ := idx_facts t
  unfold R0.iblk0
  rw [View.read_apply]
  show V c main_arg0 _ = V c main_arg0 _
  refine congrArg (V c main_arg0) ?_
  funext a
  apply Fin.ext
  match a with
  | ⟨0, _⟩ => show win0_0.index t (0 : Fin 2) * 2000 + 1 * p.val = 2000 * t.val + p.val; omega
  | ⟨1, _⟩ => show win0_0.index t (1 : Fin 2) * 128 + 1 * k.val = k.val; omega

theorem iblk0_1_apply (c : Dev nD) (t : Fin cfg0.N) (k : Fin 128) (j : Fin 128) :
    (R0.iblk0 V c 1 t : Vec Ideal S128x128 .f32) (ix2 k j) = Wp V c k j := by
  obtain ⟨-, -, e0, e1, -⟩ := idx_facts t
  unfold R0.iblk0
  rw [View.read_apply]
  show V c main_arg3 _ = V c main_arg3 _
  refine congrArg (V c main_arg3) ?_
  funext a
  apply Fin.ext
  match a with
  | ⟨0, _⟩ => show win0_1.index t (0 : Fin 2) * 128 + 1 * k.val = k.val; omega
  | ⟨1, _⟩ => show win0_1.index t (1 : Fin 2) * 128 + 1 * j.val = j.val; omega

theorem iblk0_2_apply (c : Dev nD) (t : Fin cfg0.N) (j : Fin 128) :
    (R0.iblk0 V c 2 t : Vec Ideal S1x128 .f32) (ix2 (0 : Fin 1) j) = Bp V c j := by
  obtain ⟨-, -, -, -, e0, e1, -⟩ := idx_facts t
  unfold R0.iblk0
  rw [View.read_apply]
  show V c main_v0 _ = V c main_v0 _
  refine congrArg (V c main_v0) ?_
  funext a
  apply Fin.ext
  match a with
  | ⟨0, _⟩ => show win0_2.index t (0 : Fin 2) * 1 + 1 * 0 = 0; omega
  | ⟨1, _⟩ => show win0_2.index t (1 : Fin 2) * 128 + 1 * j.val = j.val; omega

theorem iblk0_3_apply (c : Dev nD) (t : Fin cfg0.N) (k : Fin 128) (j : Fin 128) :
    (R0.iblk0 V c 3 t : Vec Ideal S128x128 .f32) (ix2 k j) = Wt V c k j := by
  obtain ⟨-, -, -, -, -, -, e0, e1, -⟩ := idx_facts t
  unfold R0.iblk0
  rw [View.read_apply]
  show V c main_v6 _ = V c main_v6 _
  refine congrArg (V c main_v6) ?_
  funext a
  apply Fin.ext
  match a with
  | ⟨0, _⟩ => show win0_3.index t (0 : Fin 2) * 128 + 1 * k.val = k.val; omega
  | ⟨1, _⟩ => show win0_3.index t (1 : Fin 2) * 128 + 1 * j.val = j.val; omega

theorem iblk0_4_apply (c : Dev nD) (t : Fin cfg0.N) (k : Fin 128) (j : Fin 128) :
    (R0.iblk0 V c 4 t : Vec Ideal S128x128 .f32) (ix2 k j) = Wb V c k j := by
  obtain ⟨-, -, -, -, -, -, -, -, e0, e1, -⟩ := idx_facts t
  unfold R0.iblk0
  rw [View.read_apply]
  show V c main_v7 _ = V c main_v7 _
  refine congrArg (V c main_v7) ?_
  funext a
  apply Fin.ext
  match a with
  | ⟨0, _⟩ => show win0_4.index t (0 : Fin 2) * 128 + 1 * k.val = k.val; omega
  | ⟨1, _⟩ => show win0_4.index t (1 : Fin 2) * 128 + 1 * j.val = j.val; omega

/-- The projected block of point t at (p, k) is the projection of row 2000 t + p at k. -/
theorem pay1_block (c : Dev nD) (t : Fin cfg0.N) (p : Fin 2000) (k : Fin 128) :
    k0_pay1 (R0.iblk0 V c 0 t) (R0.iblk0 V c 1 t) (R0.iblk0 V c 2 t) (ix2 p k)
      = Cert.Spec.h0 (X V c) (Wp V c) (Bp V c) (rowOf t p) k := by
  refine (pay1_apply (R0.iblk0 V c 0 t) (R0.iblk0 V c 1 t) (R0.iblk0 V c 2 t) p k).trans ?_
  unfold Cert.Spec.h0
  exact congrArg₂ (· + ·)
    (Finset.sum_congr rfl fun l _ => congrArg₂ (· * ·) (iblk0_0_apply V c t p l) (iblk0_1_apply V c t l k))
    (iblk0_2_apply V c t k)

/-! ## What the three output arrays hold after the region -/

/-- The projected features. -/
abbrev G5 (c : Dev nD) : S50000x128.Idx → EReal := fun i => Cert.Spec.h0 (X V c) (Wp V c) (Bp V c) (i 0) (i 1)
/-- The projected features times the upper half of the message weights. -/
abbrev G6 (c : Dev nD) : S50000x128.Idx → EReal := fun i => ∑ k : Fin 128, Cert.Spec.h0 (X V c) (Wp V c) (Bp V c) (i 0) k * Wt V c k (i 1)
/-- The projected features times the lower half of the message weights. -/
abbrev G7 (c : Dev nD) : S50000x128.Idx → EReal := fun i => ∑ k : Fin 128, Cert.Spec.h0 (X V c) (Wp V c) (Bp V c) (i 0) k * Wb V c k (i 1)

/-! ## Output window 5 -/

/-- Point t writes back block t of `G5`. -/
theorem flushed5_eq (c : Dev nD) (t : Fin cfg0.N) :
    (R0.dat0 V c).flushed 5 t = ((cfg0.win 5).blk t).view.read (Elt Ideal) (G5 V c) := by
  show (cfg0.win 5).cut (grid0.coords t) ((R0.dat0 V c).after 5 t) = _
  rw [R0.after0_5]
  unfold R0.out0_5
  rw [View.canon_unit_zero hz]
  simp only [View.ld_unit_zero (S := S2000x128) hz, View.ld_unit_zero (S := S128x128) hz, View.ld_unit_zero (S := S1x128) hz]
  show (k0_pay1 (R0.iblk0 V c 0 t) (R0.iblk0 V c 1 t) (R0.iblk0 V c 2 t) : S2000x128.Idx → EReal)
    = fun y : S2000x128.Idx => G5 V c (((cfg0.win 5).blk t).view.emb y)
  funext y
  obtain ⟨p, q, rfl⟩ : ∃ (p : Fin 2000) (q : Fin 128), y = ix2 p q := ⟨y 0, y 1, eq_ix2 y⟩
  have hemb : ((cfg0.win 5).blk t).view.emb (ix2 p q : S2000x128.Idx) = (ix2 (rowOf t p) q : S50000x128.Idx) := by
    obtain ⟨-, -, -, -, -, -, -, -, -, -, e50, e51, e60, e61, e70, e71⟩ := idx_facts t
    funext a
    apply Fin.ext
    match a with
    | ⟨0, _⟩ => show win0_5.index t (0 : Fin 2) * 2000 + 1 * p.val = 2000 * t.val + p.val; omega
    | ⟨1, _⟩ => show win0_5.index t (1 : Fin 2) * 128 + 1 * q.val = q.val; omega
  rw [hemb]
  exact pay1_block V c t p q

/-- An index of the array is in point t's block iff each coordinate is in the block's range. -/
theorem mem_blk5 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v8_0).slice (win0_5.rect t)).set ↔ _
  rw [View.set_slice_whole, Rect.mem_set_unit]
  exact Iff.rfl

/-- Row n lies in the block of point n / 2000, which is written back. -/
theorem cover5 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  have ht : (i 0).val / 2000 < cfg0.N := by rw [hN]; omega
  obtain ⟨-, -, -, -, -, -, -, -, -, -, e50, e51, e60, e61, e70, e71⟩ := idx_facts ⟨(i 0).val / 2000, ht⟩
  refine ⟨⟨(i 0).val / 2000, ht⟩, flush0_5 _, ?_⟩
  rw [mem_blk5]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    have e : win0_5.index ⟨(i 0).val / 2000, ht⟩ (0 : Fin 2) = (i 0).val / 2000 := e50
    omega
  | ⟨1, _⟩ =>
    show win0_5.index ⟨(i 0).val / 2000, ht⟩ (1 : Fin 2) * 128 ≤ (i 1).val ∧ (i 1).val < win0_5.index ⟨(i 0).val / 2000, ht⟩ (1 : Fin 2) * 128 + 128
    omega

/-- The array after the region. -/
theorem arr5 (c : Dev nD) : (R0.dat0 V c).arrAt 5 cfg0.N = G5 V c :=
  (R0.dat0 V c).arrAt_eq_of_cover 5 (G5 V c) (fun t _ => flushed5_eq V c t) cover5

/-! ## Output window 6 -/

/-- Point t writes back block t of `G6`. -/
theorem flushed6_eq (c : Dev nD) (t : Fin cfg0.N) :
    (R0.dat0 V c).flushed 6 t = ((cfg0.win 6).blk t).view.read (Elt Ideal) (G6 V c) := by
  show (cfg0.win 6).cut (grid0.coords t) ((R0.dat0 V c).after 6 t) = _
  rw [R0.after0_6]
  unfold R0.out0_6
  rw [View.canon_unit_zero hz]
  simp only [View.ld_unit_zero (S := S2000x128) hz, View.ld_unit_zero (S := S128x128) hz, View.ld_unit_zero (S := S1x128) hz]
  show (k0_pay3 (R0.iblk0 V c 0 t) (R0.iblk0 V c 1 t) (R0.iblk0 V c 2 t) (R0.iblk0 V c 3 t) : S2000x128.Idx → EReal)
    = fun y : S2000x128.Idx => G6 V c (((cfg0.win 6).blk t).view.emb y)
  funext y
  obtain ⟨p, q, rfl⟩ : ∃ (p : Fin 2000) (q : Fin 128), y = ix2 p q := ⟨y 0, y 1, eq_ix2 y⟩
  have hemb : ((cfg0.win 6).blk t).view.emb (ix2 p q : S2000x128.Idx) = (ix2 (rowOf t p) q : S50000x128.Idx) := by
    obtain ⟨-, -, -, -, -, -, -, -, -, -, e50, e51, e60, e61, e70, e71⟩ := idx_facts t
    funext a
    apply Fin.ext
    match a with
    | ⟨0, _⟩ => show win0_6.index t (0 : Fin 2) * 2000 + 1 * p.val = 2000 * t.val + p.val; omega
    | ⟨1, _⟩ => show win0_6.index t (1 : Fin 2) * 128 + 1 * q.val = q.val; omega
  rw [hemb]
  refine (pay3_apply (R0.iblk0 V c 0 t) (R0.iblk0 V c 1 t) (R0.iblk0 V c 2 t) (R0.iblk0 V c 3 t) p q).trans ?_
  exact Finset.sum_congr rfl fun k _ => congrArg₂ (· * ·) (pay1_block V c t p k) (iblk0_3_apply V c t k q)

/-- An index of the array is in point t's block iff each coordinate is in the block's range. -/
theorem mem_blk6 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v8_1).slice (win0_6.rect t)).set ↔ _
  rw [View.set_slice_whole, Rect.mem_set_unit]
  exact Iff.rfl

/-- Row n lies in the block of point n / 2000, which is written back. -/
theorem cover6 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 25 := N_0
  have ht : (i 0).val / 2000 < cfg0.N := by rw [hN]; omega
  obtain ⟨-, -, -, -, -, -, -, -, -, -, e50, e51, e60, e61, e70, e71⟩ := idx_facts ⟨(i 0).val / 2000, ht⟩
  refine ⟨⟨(i 0).val / 2000, ht⟩, flush0_6 _, ?_⟩
  rw [mem_blk6]
  intro a
  match a with
  | ⟨0, _⟩ =>
    show win0_6.index ⟨(i 0).val / 2000, ht⟩ (0 : Fin 2) * 2000 ≤ (i 0).val ∧ (i 0).val < win0_6.index ⟨(i 0).val / 2000, ht⟩ (0 : Fin 2) * 2000 + 2000
    have e : win0_6.index ⟨(i 0).val / 2000, ht⟩ (0 : Fin 2) = (i 0).val / 2000 := e60
    omega
  | ⟨1, _⟩ =>
    show win0_6.index ⟨(i 0).val / 2000, ht⟩ (1 : Fin 2) * 128 ≤ (i 1).val ∧ (i 1).val < win0_6.index ⟨(i 0).val / 2000, ht⟩ (1 : Fin 2) * 128 + 128
    omega

/-- The array after the region. -/
theorem arr6 (c : Dev nD) : (R0.dat0 V c).arrAt 6 cfg0.N = G6 V c :=
  (R0.dat0 V c).arrAt_eq_of_cover 6 (G6 V c) (fun t _ => flushed6_eq V c t) cover6

/-! ## Output window 7 -/

/-- Point t writes back block t of `G7`. -/
theorem flushed7_eq (c : Dev nD) (t : Fin cfg0.N) :
    (R0.dat0 V c).flushed 7 t = ((cfg0.win 7).blk t).view.read (Elt Ideal) (G7 V c) := by
  show (cfg0.win 7).cut (grid0.coords t) ((R0.dat0 V c).after 7 t) = _
  rw [R0.after0_7]
  unfold R0.out0_7
  rw [View.canon_unit_zero hz]
  simp only [View.ld_unit_zero (S := S2000x128) hz, View.ld_unit_zero (S := S128x128) hz, View.ld_unit_zero (S := S1x128) hz]
  show (k0_pay4 (R0.iblk0 V c 0 t) (R0.iblk0 V c 1 t) (R0.iblk0 V c 2 t) (R0.iblk0 V c 4 t) : S2000x128.Idx → EReal)
    = fun y : S2000x128.Idx => G7 V c (((cfg0.win 7).blk t).view.emb y)
  funext y
  obtain ⟨p, q, rfl⟩ : ∃ (p : Fin 2000) (q : Fin 128), y = ix2 p q := ⟨y 0, y 1, eq_ix2 y⟩
  have hemb : ((cfg0.win 7).blk t).view.emb (ix2 p q : S2000x128.Idx) = (ix2 (rowOf t p) q : S50000x128.Idx) := by
    obtain ⟨-, -, -, -, -, -, -, -, -, -, e50, e51, e60, e61, e70, e71⟩ := idx_facts t
    funext a
    apply Fin.ext
    match a with
    | ⟨0, _⟩ => show win0_7.index t (0 : Fin 2) * 2000 + 1 * p.val = 2000 * t.val + p.val; omega
    | ⟨1, _⟩ => show win0_7.index t (1 : Fin 2) * 128 + 1 * q.val = q.val; omega
  rw [hemb]
  refine (pay4_apply (R0.iblk0 V c 0 t) (R0.iblk0 V c 1 t) (R0.iblk0 V c 2 t) (R0.iblk0 V c 4 t) p q).trans ?_
  exact Finset.sum_congr rfl fun k _ => congrArg₂ (· * ·) (pay1_block V c t p k) (iblk0_4_apply V c t k q)

/-- An index of the array is in point t's block iff each coordinate is in the block's range. -/
theorem mem_blk7 (t : Fin cfg0.N) (i : S50000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v8_2).slice (win0_7.rect t)).set ↔ _
  rw [View.set_slice_whole, Rect.mem_set_unit]
  exact Iff.rfl

/-- Row n lies in the block of point n / 2000, which is written back. -/
theorem cover7 (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have hN : cfg0.N = 25 := N_0
  have ht : (i 0).val / 2000 < cfg0.N := by rw [hN]; omega
  obtain ⟨-, -, -, -, -, -, -, -, -, -, e50, e51, e60, e61, e70, e71⟩ := idx_facts ⟨(i 0).val / 2000, ht⟩
  refine ⟨⟨(i 0).val / 2000, ht⟩, flush0_7 _, ?_⟩
  rw [mem_blk7]
  intro a
  match a with
  | ⟨0, _⟩ =>
    show win0_7.index ⟨(i 0).val / 2000, ht⟩ (0 : Fin 2) * 2000 ≤ (i 0).val ∧ (i 0).val < win0_7.index ⟨(i 0).val / 2000, ht⟩ (0 : Fin 2) * 2000 + 2000
    have e : win0_7.index ⟨(i 0).val / 2000, ht⟩ (0 : Fin 2) = (i 0).val / 2000 := e70
    omega
  | ⟨1, _⟩ =>
    show win0_7.index ⟨(i 0).val / 2000, ht⟩ (1 : Fin 2) * 128 ≤ (i 1).val ∧ (i 1).val < win0_7.index ⟨(i 0).val / 2000, ht⟩ (1 : Fin 2) * 128 + 128
    omega

/-- The array after the region. -/
theorem arr7 (c : Dev nD) : (R0.dat0 V c).arrAt 7 cfg0.N = G7 V c :=
  (R0.dat0 V c).arrAt_eq_of_cover 7 (G7 V c) (fun t _ => flushed7_eq V c t) cover7

/-! ## Entry by entry -/

/-- After the region the first output holds the projection x Wp + bp. -/
theorem arr5_apply (c : Dev nD) (n : Fin 50000) (j : Fin 128) :
    (R0.dat0 (F := Ideal) V c).arrAt 5 cfg0.N (ix2 n j) = Cert.Spec.h0 (X V c) (Wp V c) (Bp V c) n j :=
  congrFun (arr5 V c) (ix2 n j)

/-- The second holds the projection times the upper half of the message weights. -/
theorem arr6_apply (c : Dev nD) (n : Fin 50000) (j : Fin 128) :
    (R0.dat0 (F := Ideal) V c).arrAt 6 cfg0.N (ix2 n j) = ∑ k : Fin 128, Cert.Spec.h0 (X V c) (Wp V c) (Bp V c) n k * Wt V c k j :=
  congrFun (arr6 V c) (ix2 n j)

/-- The third holds the projection times the lower half of the message weights. -/
theorem arr7_apply (c : Dev nD) (n : Fin 50000) (j : Fin 128) :
    (R0.dat0 (F := Ideal) V c).arrAt 7 cfg0.N (ix2 n j) = ∑ k : Fin 128, Cert.Spec.h0 (X V c) (Wp V c) (Bp V c) n k * Wb V c k j :=
  congrFun (arr7 V c) (ix2 n j)

end Cert.KernelIdeal.R0V

end
-- ==== Proof.LibRowReduce.lean ====
/-
  A matrix reduced along one axis, read at an index, at the ideal values.

  For an `[a, b]` matrix `src`: the reduction by `max` along the columns (axis 1) is, at row `i`, the fold of `max`
  from the accumulator's value over `src (i, k)`, `k < b`; the reduction by `+` along the columns is, at row `i`,
  `Σ_k src (i, k)`; and the reduction by `+` along the rows (axis 0) is, at column `j`, `Σ_i src (i, j)`. Arbitrary
  extents and any float format. (The library states these over the reduced shape's own index `h.lift j k`; here the
  index is spelt by its two coordinates.)
-/
import Idealize.ShloMosaic.PureOps.Ideal.Laws
import Idealize.ShloMosaic.Lib.ValueIdx

noncomputable section

namespace Idealize.ShloMosaic.RowReduce

open Idealize.ShloMosaic Idealize.ShloMosaic.ValueIdx

variable {a b : ℕ} {φ : FTy}

/-- The row maxima: at row `i`, the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (Finset.fold max (Ideal.ofBits φ acc) · (Finset.univ : Finset (Fin b))) (funext fun k => ?_)
  exact congrArg src (funext fun c => Fin.ext (by match c with | ⟨0, _⟩ => rfl | ⟨1, _⟩ => rfl))

/-- The row sums: at row `i`, the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => ?_
  exact congrArg src (funext fun c => Fin.ext (by match c with | ⟨0, _⟩ => rfl | ⟨1, _⟩ => rfl))

/-- The column sums: at column `j`, the sum of the column's entries. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun c => Fin.ext (by match c with | ⟨0, _⟩ => rfl | ⟨1, _⟩ => rfl))

end Idealize.ShloMosaic.RowReduce

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.R1Math.lean ====
/-
  The second kernel's arithmetic read entry by entry on the extended reals. For one block of 2000 rows: the rectified
  residual update of a row (`k1_pay4`), its mean (`k1_pay5`), its deviations (`k1_pay6`), and the accumulator after
  the block (`k1_pay1`: the old accumulator plus the column sums of the normalised rows); and the dense head
  (`k1_pay2`). Each is stated over plain block variables and literal index types.
-/
import proofs.«113755_j53815940219242_2_alg».proof.Proof.Gen.KernelIdeal.Skeleton
import proofs.«113755_j53815940219242_2_alg».proof.Proof.LibMatmulPlain
import proofs.«113755_j53815940219242_2_alg».proof.Proof.LibRowReduce
import proofs.«113755_j53815940219242_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.R1M

open Idealize.ShloMosaic Idealize.ShloMosaic.ValueIdx
open Cert.KernelIdeal Cert.KernelIdeal.Gen

/-! ## The operations that are not entrywise, at an entry -/

theorem mm_apply (A : FVec Ideal S2000x128 .bf16) (B : FVec Ideal S128x128 .bf16) (r : Fin 2000) (j : Fin 128) :
    matmul dot_S2000x128_S128x128_S2000x128_1_0_0_1_n_n none A B (constant (F := Ideal) S2000x128 .f32 0x00000000#32) (ix2 r j)
      = ∑ k : Fin 128, A (ix2 r k) * B (ix2 k j) :=
  MatmulPlain.matmul_zero_apply (M := 2000) (K := 128) (N := 128) none A B (ix2 r j)

theorem mm_head_apply (A : FVec Ideal S1x128 .bf16) (B : FVec Ideal S128x32 .bf16) (o : Fin 32) :
    matmul dot_S1x128_S128x32_S1x32_1_0_0_1_n_n none A B (constant (F := Ideal) S1x32 .f32 0x00000000#32) (ix2 (0 : Fin 1) o)
      = ∑ k : Fin 128, A (ix2 (0 : Fin 1) k) * B (ix2 k o) :=
  MatmulPlain.matmul_zero_apply (M := 1) (K := 128) (N := 32) none A B (ix2 (0 : Fin 1) o)

theorem bc_row (v : FVec Ideal S1x128 .f32) (r : Fin 2000) (j : Fin 128) :
    broadcastTo S2000x128 v broadcasts_S1x128_S2000x128 (ix2 r j) = v (ix2 (0 : Fin 1) j) :=
  broadcastTo_1b_ab_apply v _ r j

theorem bc_col (v : FVec Ideal S2000x1 .f32) (r : Fin 2000) (j : Fin 128) :
    broadcastTo S2000x128 v broadcasts_S2000x1_S2000x128 (ix2 r j) = v (ix2 r (0 : Fin 1)) :=
  Keepdims.broadcastTo_a1_ab_apply v _ r j

theorem rowSum (src : FVec Ideal S2000x128 .f32) (r : Fin 2000) :
    multiReduction .add [1] S2000 src 0x00000000#32 reduces_S2000x128_S2000 (.inl rfl) rfl (ix1 r) = ∑ k : Fin 128, src (ix2 r k) :=
  RowReduce.rowSum_apply src 0x00000000#32 reduces_S2000x128_S2000 (.inl rfl) rfl r

theorem colSum (src : FVec Ideal S2000x128 .f32) (j : Fin 128) :
    multiReduction .add [0] S128 src 0x00000000#32 reduces_S2000x128_S128 (.inl rfl) rfl (ix1 j) = ∑ r : Fin 2000, src (ix2 r j) :=
  RowReduce.colSum_apply src 0x00000000#32 reduces_S2000x128_S128 (.inl rfl) rfl j

theorem cast_col (v : FVec Ideal S2000 .f32) (r : Fin 2000) :
    shapeCast S2000x1 v shapeCasts_S2000_S2000x1 (ix2 r (0 : Fin 1)) = v (ix1 r) :=
  Keepdims.shapeCast_a_a1_apply v _ r 0

theorem cast_row (v : FVec Ideal S128 .f32) (j : Fin 128) :
    shapeCast S1x128 v shapeCasts_S128_S1x128 (ix2 (0 : Fin 1) j) = v (ix1 j) :=
  shapeCast_a_1a_apply v _ 0 j

/-! ## The payloads at an entry -/

/-- The words the kernel's scalar constants denote. -/
abbrev w0 : EReal := Ideal.ofBits .f32 0x00000000#32
abbrev w1 : EReal := Ideal.ofBits .f32 0x3F800000#32
abbrev w128 : EReal := Ideal.ofBits .f32 0x43000000#32
abbrev weps : EReal := Ideal.ofBits .f32 0x358637BD#32

/-- The rectified residual update of row `r`, column `j`. -/
theorem pay4_apply (x0 x1 : Vec Ideal S2000x128 .f32) (x2 : Vec Ideal S2000x1 .f32) (x3 x4 : Vec Ideal S128x128 .f32) (x5 : Vec Ideal S1x128 .f32)
    (r : Fin 2000) (j : Fin 128) :
    k1_pay4 x0 x1 x2 x3 x4 x5 (ix2 r j)
      = max (x0 (ix2 r j) + (((∑ k : Fin 128, x0 (ix2 r k) * x3 (ix2 k j))
            + (∑ k : Fin 128, Ideal.div (x1 (ix2 r k)) (max (x2 (ix2 r (0 : Fin 1))) w1) * x4 (ix2 k j))) + x5 (ix2 (0 : Fin 1) j))) w0 := by
  unfold k1_pay4
  simp only [shapeCast_self]
  show max (x0 (ix2 r j) + ((matmul (F := Ideal) _ none _ _ _ (ix2 r j) + matmul (F := Ideal) _ none _ _ _ (ix2 r j)) + broadcastTo S2000x128 x5 _ (ix2 r j))) w0 = _
  rw [mm_apply, mm_apply, bc_row]
  refine congrArg (fun t => max (x0 (ix2 r j) + ((_ + t) + _)) w0) ?_
  refine Finset.sum_congr rfl fun k _ => ?_
  show Ideal.div (x1 (ix2 r k)) (broadcastTo S2000x128 _ _ (ix2 r k)) * _ = _
  rw [bc_col]
  rfl

/-- The mean of row `r` of the rectified update. -/
theorem pay5_apply (x0 x1 : Vec Ideal S2000x128 .f32) (x2 : Vec Ideal S2000x1 .f32) (x3 x4 : Vec Ideal S128x128 .f32) (x5 : Vec Ideal S1x128 .f32)
    (r : Fin 2000) :
    k1_pay5 x0 x1 x2 x3 x4 x5 (ix2 r (0 : Fin 1)) = Ideal.div (∑ k : Fin 128, k1_pay4 x0 x1 x2 x3 x4 x5 (ix2 r k)) w128 := by
  unfold k1_pay5
  show Ideal.div (shapeCast S2000x1 _ _ (ix2 r (0 : Fin 1))) w128 = _
  rw [cast_col, rowSum]

/-- The deviation of entry `(r, j)` from its row's mean. -/
theorem pay6_apply (x0 x1 : Vec Ideal S2000x128 .f32) (x2 : Vec Ideal S2000x1 .f32) (x3 x4 : Vec Ideal S128x128 .f32) (x5 : Vec Ideal S1x128 .f32)
    (r : Fin 2000) (j : Fin 128) :
    k1_pay6 x0 x1 x2 x3 x4 x5 (ix2 r j) = k1_pay4 x0 x1 x2 x3 x4 x5 (ix2 r j) - k1_pay5 x0 x1 x2 x3 x4 x5 (ix2 r (0 : Fin 1)) := by
  unfold k1_pay6
  show k1_pay4 x0 x1 x2 x3 x4 x5 (ix2 r j) - broadcastTo S2000x128 _ _ (ix2 r j) = _
  rw [bc_col]

/-- The accumulator after a block: the old one plus the column sums of the normalised rows. -/
theorem pay1_apply (v31 : FVec Ideal S2000x128 .f32) (v35 : FVec Ideal S2000x1 .f32) (v37 : FVec Ideal S2000x128 .f32)
    (x6 x7 acc : Vec Ideal S1x128 .f32) (j : Fin 128) :
    k1_pay1 v31 v35 v37 x6 x7 acc (ix2 (0 : Fin 1) j)
      = acc (ix2 (0 : Fin 1) j) + ∑ r : Fin 2000,
          (((v31 (ix2 r j) - v35 (ix2 r (0 : Fin 1)))
              * Ideal.rsqrt (Ideal.div (∑ k : Fin 128, v37 (ix2 r k) * v37 (ix2 r k)) w128 + weps)) * x6 (ix2 (0 : Fin 1) j)
            + x7 (ix2 (0 : Fin 1) j)) := by
  unfold k1_pay1
  simp only [shapeCast_self]
  show acc (ix2 (0 : Fin 1) j) + shapeCast S1x128 _ _ (ix2 (0 : Fin 1) j) = _
  rw [cast_row, colSum]
  refine congrArg (acc (ix2 (0 : Fin 1) j) + ·) (Finset.sum_congr rfl fun r _ => ?_)
  show ((v31 (ix2 r j) - broadcastTo S2000x128 v35 _ (ix2 r j)) * broadcastTo S2000x128 _ _ (ix2 r j)) * broadcastTo S2000x128 x6 _ (ix2 r j)
      + broadcastTo S2000x128 x7 _ (ix2 r j) = _
  rw [bc_col, bc_col, bc_row, bc_row]
  show ((_ - _) * Ideal.rsqrt (Ideal.div (shapeCast S2000x1 _ _ (ix2 r (0 : Fin 1))) w128 + weps)) * _ + _ = _
  rw [cast_col, rowSum]
  rfl

end Cert.KernelIdeal.R1M

end
-- ==== Proof.Consts.lean ====
/-
  The float words the two programs spell that the proof has to evaluate, as the extended reals they denote: the
  reference's divisor 50000.0 is the real 50000, and the kernel's named reciprocal is the rational 1/50000 (by the
  certificate's table of named constants). Stated once, here.
-/
import proofs.«113755_j53815940219242_2_alg».proof.KernelIdeal
import Idealize.ShloMosaic.PureOps.Ideal
import Idealize.ShloMosaic.PureOps.IdealRules

noncomputable section

namespace Cert.Consts

open Idealize.ShloMosaic

/-- `50000.0` denotes the real 50000. -/
theorem ofBits_50000 : Ideal.ofBits .f32 0x47435000#32 = ((50000 : ℝ) : EReal) := by
  simp [Ideal.ofBits, Ideal.ieee, -EReal.coe_mul]; norm_num

/-- The kernel's named reciprocal denotes the rational 1/50000. -/
theorem inv_50000 : Named.named (F := Ideal) Cert.KernelIdeal.κ "inv_50000" (φ := .f32) 0x37A7C5AC#32 = ((1 / 50000 : ℝ) : EReal) :=
  IdealRules.named_const.ideal_named_scalar _ _ _ _ rfl

/-- Multiplying by the named reciprocal is dividing by the reference's divisor, on every extended real. -/
theorem mul_inv_50000 (x : EReal) :
    x * Named.named (F := Ideal) Cert.KernelIdeal.κ "inv_50000" (φ := .f32) 0x37A7C5AC#32 = Ideal.div x (Ideal.ofBits .f32 0x47435000#32) := by
  rw [inv_50000, ofBits_50000, Ideal.div_coe (by norm_num : (50000 : ℝ) ≠ 0)]

end Cert.Consts

end
-- ==== Proof.R1Head.lean ====
/-
  The dense head of the second kernel at an entry: the accumulated column sums, each scaled by the named reciprocal
  of the row count, times the head's weights, plus its bias.
-/
import proofs.«113755_j53815940219242_2_alg».proof.Proof.R1Math
import proofs.«113755_j53815940219242_2_alg».proof.Proof.Consts

noncomputable section

namespace Cert.KernelIdeal.R1M

open Idealize.ShloMosaic Idealize.ShloMosaic.ValueIdx
open Cert.KernelIdeal Cert.KernelIdeal.Gen

theorem pay2_apply (acc : Vec Ideal S1x128 .f32) (x8 : Vec Ideal S128x32 .f32) (x9 : Vec Ideal S1x32 .f32) (o : Fin 32) :
    k1_pay2 acc x8 x9 (ix2 (0 : Fin 1) o)
      = (∑ j : Fin 128, Ideal.div (acc (ix2 (0 : Fin 1) j)) (Ideal.ofBits .f32 0x47435000#32) * x8 (ix2 j o)) + x9 (ix2 (0 : Fin 1) o) := by
  unfold k1_pay2
  simp only [shapeCast_self]
  show matmul (F := Ideal) _ none _ _ _ (ix2 (0 : Fin 1) o) + x9 (ix2 (0 : Fin 1) o) = _
  rw [mm_head_apply]
  refine congrArg (· + x9 (ix2 (0 : Fin 1) o)) (Finset.sum_congr rfl fun j _ => ?_)
  show (acc (ix2 (0 : Fin 1) j) * Named.named (F := Ideal) κ "inv_50000" (φ := .f32) 0x37A7C5AC#32) * x8 (ix2 j o) = _
  rw [Cert.Consts.mul_inv_50000]

end Cert.KernelIdeal.R1M

end
-- ==== Proof.LibSumRegroup.lean ====
/-
  Finite sums in a commutative monoid, regrouped (a general lemma file: it imports Mathlib only and mentions no program).

  The kernel adds the squared differences tile by tile and lane by lane; the reference adds them all at once.
  Both are the same finite family of summands, and in a commutative monoid (the extended reals under addition are
  one: `+` is commutative and associative there, infinities included) a finite sum does not depend on how the
  family is cut up or in which order it is run through.  No finiteness of the summands is used anywhere.

  * `sum_range_mul`: `m * n` consecutive terms are `m` runs of `n` terms.
  * `regroup`: rows `(p * K + k) * R + r` (half `p`, step `k`, row `r` inside the tile), summed for each lane
    `l` first over the rows of a tile, then over the steps, then over the lanes, then over the halves, exhaust
    the `P * K * R` rows times `L` lanes exactly once.
  * `regroup_fin`: the same over `Fin`-indexed families.
-/
import Mathlib.Algebra.BigOperators.Group.Finset.Basic
import Mathlib.Algebra.BigOperators.Intervals
import Mathlib.Algebra.BigOperators.Fin

namespace SumLaw

open Finset

variable {M : Type*} [AddCommMonoid M]

/-- `m * n` consecutive terms are `m` runs of `n` terms. -/
theorem sum_range_mul (f : ℕ → M) (m n : ℕ) :
    ∑ x ∈ range (m * n), f x = ∑ i ∈ range m, ∑ r ∈ range n, f (i * n + r) := by
  induction m with
  | zero => simp
  | succ m ih => rw [Nat.succ_mul, sum_range_add, ih, sum_range_succ]

/-- Tile by tile and lane by lane is row by row: every (row, lane) pair is met exactly once. -/
theorem regroup (f : ℕ → ℕ → M) (P K R L : ℕ) :
    ∑ p ∈ range P, ∑ l ∈ range L, ∑ k ∈ range K, ∑ r ∈ range R, f ((p * K + k) * R + r) l
      = ∑ row ∈ range (P * K * R), ∑ l ∈ range L, f row l := by
  rw [sum_range_mul (fun row => ∑ l ∈ range L, f row l) (P * K) R,
    sum_range_mul (fun i => ∑ r ∈ range R, ∑ l ∈ range L, f (i * R + r) l) P K]
  refine sum_congr rfl fun p _ => ?_
  refine sum_comm.trans (sum_congr rfl fun k _ => ?_)
  exact sum_comm

/-- `regroup` for families indexed by `Fin`: `idx p k r` is row `(p * K + k) * R + r`. -/
theorem regroup_fin {P K R L N : ℕ} (hN : P * K * R = N) (g : Fin N → Fin L → M)
    (idx : Fin P → Fin K → Fin R → Fin N)
    (hidx : ∀ p k r, (idx p k r).val = (p.val * K + k.val) * R + r.val) :
    ∑ p : Fin P, ∑ l : Fin L, ∑ k : Fin K, ∑ r : Fin R, g (idx p k r) l
      = ∑ row : Fin N, ∑ l : Fin L, g row l := by
  subst hN
  let f : ℕ → ℕ → M := fun a b => if h : a < P * K * R ∧ b < L then g ⟨a, h.1⟩ ⟨b, h.2⟩ else 0
  have e : ∀ (a : Fin (P * K * R)) (l : Fin L), g a l = f a.val l := fun a l => by
    simp only [f, dif_pos (And.intro a.isLt l.isLt)]
  have key := regroup f P K R L
  simp only [Finset.sum_range] at key
  have lhs : ∀ (p : Fin P) (l : Fin L) (k : Fin K) (r : Fin R),
      g (idx p k r) l = f ((p.val * K + k.val) * R + r.val) l.val := fun p l k r => by rw [e, hidx]
  simp only [lhs, e]
  exact key

end SumLaw
-- ==== Proof.LibBlockSum.lean ====
/-
  A sum over all rows of an array is the sum, block by block, of the sums over each block's rows (a general lemma:
  it imports Mathlib and the regrouping law only, and mentions no program).

  The rows 0 … T−1 are cut into B consecutive blocks of R rows, row r of block s being row s·R + r. In a commutative
  monoid the sum over all rows is the sum over the blocks of the sums within a block. The block sums are written as a
  function of a natural number that is zero past the last block, the form a running accumulator over a grid takes.
-/
import proofs.«113755_j53815940219242_2_alg».proof.Proof.LibSumRegroup
import Mathlib.Algebra.BigOperators.Fin

namespace SumLaw

open Finset

variable {M : Type*} [AddCommMonoid M]

/-- `B` blocks of `R` rows exhaust `T = B * R` rows. -/
theorem sum_blocks {B R T : ℕ} (hT : B * R = T) (f : Fin T → M) (row : (s : ℕ) → s < B → Fin R → Fin T)
    (hrow : ∀ s h r, (row s h r).val = s * R + r.val) :
    ∑ s ∈ range B, (if h : s < B then ∑ r : Fin R, f (row s h r) else 0) = ∑ p : Fin T, f p := by
  subst hT
  let g : ℕ → M := fun a => if h : a < B * R then f ⟨a, h⟩ else 0
  have hg : ∀ p : Fin (B * R), f p = g p.val := fun p => by simp only [g, dif_pos p.isLt]
  have e : ∑ p : Fin (B * R), f p = ∑ a ∈ range (B * R), g a := by
    rw [Finset.sum_range]; exact Finset.sum_congr rfl fun p _ => hg p
  rw [e, sum_range_mul g B R]
  refine Finset.sum_congr rfl fun s hs => ?_
  have h : s < B := Finset.mem_range.mp hs
  rw [dif_pos h, Finset.sum_range]
  refine Finset.sum_congr rfl fun r _ => ?_
  rw [hg, hrow]

end SumLaw
-- ==== Proof.R1Spec.lean ====
/-
  The second kernel's result is the specification's readout. Under the hypotheses that the arrays the region is
  entered with hold the specification's node projection, summed messages, counts, the two halves of the update
  weights, the biases, the scale and shift, and the head's weights and bias: a block's row r at grid point t is
  row 2000·t + r of those arrays; the rectified update, its mean, deviations and variance of that row are the
  specification's at that row; the accumulator after point n is the sum over the rows of blocks 0 … n of the
  normalised rows; after the last block this is the sum over all 50000 rows (the blocks partition the rows; only
  commutativity and associativity of the sum are used); and the dense head of it, with the named reciprocal of the
  row count read as a division by 50000, is the specification's `readout` of the column means.
-/
import proofs.«113755_j53815940219242_2_alg».proof.Proof.R1Acc
import proofs.«113755_j53815940219242_2_alg».proof.Proof.R1Head
import proofs.«113755_j53815940219242_2_alg».proof.Proof.Spec
import proofs.«113755_j53815940219242_2_alg».proof.Proof.LibBlockSum
import Idealize.ShloMosaic.Lib.Pipeline.Value

set_option maxRecDepth 16384

noncomputable section

namespace Cert.KernelIdeal.R1S

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.R1 Cert.KernelIdeal.R1V Cert.KernelIdeal.R1M

variable (V : (c : Dev nD) → (b : Ref sig .tc) → Buf (Elt Ideal) ((c : Thread nD τ).loc b)) (c : Dev nD)

theorem lt25 (t : Fin cfg1.N) : t.val < 25 := lt_of_lt_of_eq t.isLt (show cfg1.N = 25 from N_1)

/-- Row `r` of the block at grid point `t`: row 2000·t + r of the whole array. -/
def grow (t : Fin cfg1.N) (r : Fin 2000) : Fin 50000 := ⟨t.val * 2000 + r.val, by have := lt25 t; omega⟩

/-! ## A window's block at a point, read in the whole array -/

theorem hidx0 : ∀ t : Fin cfg1.N, win1_0.index t 0 = t.val ∧ win1_0.index t 1 = 0 := by decide +kernel
theorem blk0 (t : Fin cfg1.N) (r : Fin 2000) (k : Fin 128) :
    iblk1 V c 0 t (ix2 r k) = V c main_v8_0 (ix2 (grow t r) k) := by
  unfold iblk1
  rw [View.read_apply]
  show V c main_v8_0 _ = V c main_v8_0 _
  refine congrArg (V c main_v8_0) (funext fun a => Fin.ext ?_)
  match a with
  | ⟨0, _⟩ => show win1_0.index t 0 * 2000 + 1 * r.val = t.val * 2000 + r.val; rw [(hidx0 t).1]; omega
  | ⟨1, _⟩ => show win1_0.index t 1 * 128 + 1 * k.val = k.val; rw [(hidx0 t).2]; omega

theorem hidx1 : ∀ t : Fin cfg1.N, win1_1.index t 0 = t.val ∧ win1_1.index t 1 = 0 := by decide +kernel
theorem blk1 (t : Fin cfg1.N) (r : Fin 2000) (k : Fin 128) :
    iblk1 V c 1 t (ix2 r k) = V c main_v31 (ix2 (grow t r) k) := by
  unfold iblk1
  rw [View.read_apply]
  show V c main_v31 _ = V c main_v31 _
  refine congrArg (V c main_v31) (funext fun a => Fin.ext ?_)
  match a with
  | ⟨0, _⟩ => show win1_1.index t 0 * 2000 + 1 * r.val = t.val * 2000 + r.val; rw [(hidx1 t).1]; omega
  | ⟨1, _⟩ => show win1_1.index t 1 * 128 + 1 * k.val = k.val; rw [(hidx1 t).2]; omega

theorem hidx2 : ∀ t : Fin cfg1.N, win1_2.index t 0 = t.val ∧ win1_2.index t 1 = 0 := by decide +kernel
theorem blk2 (t : Fin cfg1.N) (r : Fin 2000) (k : Fin 1) :
    iblk1 V c 2 t (ix2 r k) = V c main_v36 (ix2 (grow t r) k) := by
  unfold iblk1
  rw [View.read_apply]
  show V c main_v36 _ = V c main_v36 _
  refine congrArg (V c main_v36) (funext fun a => Fin.ext ?_)
  match a with
  | ⟨0, _⟩ => show win1_2.index t 0 * 2000 + 1 * r.val = t.val * 2000 + r.val; rw [(hidx2 t).1]; omega
  | ⟨1, _⟩ => show win1_2.index t 1 * 1 + 1 * k.val = k.val; rw [(hidx2 t).2]; omega

theorem hidx3 : ∀ t : Fin cfg1.N, win1_3.index t 0 = 0 ∧ win1_3.index t 1 = 0 := by decide +kernel
theorem blk3 (t : Fin cfg1.N) (r : Fin 128) (k : Fin 128) :
    iblk1 V c 3 t (ix2 r k) = V c main_v37 (ix2 r k) := by
  unfold iblk1
  rw [View.read_apply]
  show V c main_v37 _ = V c main_v37 _
  refine congrArg (V c main_v37) (funext fun a => Fin.ext ?_)
  match a with
  | ⟨0, _⟩ => show win1_3.index t 0 * 128 + 1 * r.val = r.val; rw [(hidx3 t).1]; omega
  | ⟨1, _⟩ => show win1_3.index t 1 * 128 + 1 * k.val = k.val; rw [(hidx3 t).2]; omega

theorem hidx4 : ∀ t : Fin cfg1.N, win1_4.index t 0 = 0 ∧ win1_4.index t 1 = 0 := by decide +kernel
theorem blk4 (t : Fin cfg1.N) (r : Fin 128) (k : Fin 128) :
    iblk1 V c 4 t (ix2 r k) = V c main_v38 (ix2 r k) := by
  unfold iblk1
  rw [View.read_apply]
  show V c main_v38 _ = V c main_v38 _
  refine congrArg (V c main_v38) (funext fun a => Fin.ext ?_)
  match a with
  | ⟨0, _⟩ => show win1_4.index t 0 * 128 + 1 * r.val = r.val; rw [(hidx4 t).1]; omega
  | ⟨1, _⟩ => show win1_4.index t 1 * 128 + 1 * k.val = k.val; rw [(hidx4 t).2]; omega

theorem hidx5 : ∀ t : Fin cfg1.N, win1_5.index t 0 = 0 ∧ win1_5.index t 1 = 0 := by decide +kernel
theorem blk5 (t : Fin cfg1.N) (r : Fin 1) (k : Fin 128) :
    iblk1 V c 5 t (ix2 r k) = V c main_v2 (ix2 r k) := by
  unfold iblk1
  rw [View.read_apply]
  show V c main_v2 _ = V c main_v2 _
  refine congrArg (V c main_v2) (funext fun a => Fin.ext ?_)
  match a with
  | ⟨0, _⟩ => show win1_5.index t 0 * 1 + 1 * r.val = r.val; rw [(hidx5 t).1]; omega
  | ⟨1, _⟩ => show win1_5.index t 1 * 128 + 1 * k.val = k.val; rw [(hidx5 t).2]; omega

theorem hidx6 : ∀ t : Fin cfg1.N, win1_6.index t 0 = 0 ∧ win1_6.index t 1 = 0 := by decide +kernel
theorem blk6 (t : Fin cfg1.N) (r : Fin 1) (k : Fin 128) :
    iblk1 V c 6 t (ix2 r k) = V c main_v3 (ix2 r k) := by
  unfold iblk1
  rw [View.read_apply]
  show V c main_v3 _ = V c main_v3 _
  refine congrArg (V c main_v3) (funext fun a => Fin.ext ?_)
  match a with
  | ⟨0, _⟩ => show win1_6.index t 0 * 1 + 1 * r.val = r.val; rw [(hidx6 t).1]; omega
  | ⟨1, _⟩ => show win1_6.index t 1 * 128 + 1 * k.val = k.val; rw [(hidx6 t).2]; omega

theorem hidx7 : ∀ t : Fin cfg1.N, win1_7.index t 0 = 0 ∧ win1_7.index t 1 = 0 := by decide +kernel
theorem blk7 (t : Fin cfg1.N) (r : Fin 1) (k : Fin 128) :
    iblk1 V c 7 t (ix2 r k) = V c main_v4 (ix2 r k) := by
  unfold iblk1
  rw [View.read_apply]
  show V c main_v4 _ = V c main_v4 _
  refine congrArg (V c main_v4) (funext fun a => Fin.ext ?_)
  match a with
  | ⟨0, _⟩ => show win1_7.index t 0 * 1 + 1 * r.val = r.val; rw [(hidx7 t).1]; omega
  | ⟨1, _⟩ => show win1_7.index t 1 * 128 + 1 * k.val = k.val; rw [(hidx7 t).2]; omega

theorem hidx8 : ∀ t : Fin cfg1.N, win1_8.index t 0 = 0 ∧ win1_8.index t 1 = 0 := by decide +kernel
theorem blk8 (t : Fin cfg1.N) (r : Fin 128) (k : Fin 32) :
    iblk1 V c 8 t (ix2 r k) = V c main_arg11 (ix2 r k) := by
  unfold iblk1
  rw [View.read_apply]
  show V c main_arg11 _ = V c main_arg11 _
  refine congrArg (V c main_arg11) (funext fun a => Fin.ext ?_)
  match a with
  | ⟨0, _⟩ => show win1_8.index t 0 * 128 + 1 * r.val = r.val; rw [(hidx8 t).1]; omega
  | ⟨1, _⟩ => show win1_8.index t 1 * 32 + 1 * k.val = k.val; rw [(hidx8 t).2]; omega

theorem hidx9 : ∀ t : Fin cfg1.N, win1_9.index t 0 = 0 ∧ win1_9.index t 1 = 0 := by decide +kernel
theorem blk9 (t : Fin cfg1.N) (r : Fin 1) (k : Fin 32) :
    iblk1 V c 9 t (ix2 r k) = V c main_v5 (ix2 r k) := by
  unfold iblk1
  rw [View.read_apply]
  show V c main_v5 _ = V c main_v5 _
  refine congrArg (V c main_v5) (funext fun a => Fin.ext ?_)
  match a with
  | ⟨0, _⟩ => show win1_9.index t 0 * 1 + 1 * r.val = r.val; rw [(hidx9 t).1]; omega
  | ⟨1, _⟩ => show win1_9.index t 1 * 32 + 1 * k.val = k.val; rw [(hidx9 t).2]; omega

/-! ## The payloads as the specification's stages -/

section Stages

variable (H PS : Fin 50000 → Fin 128 → EReal) (CN : Fin 50000 → EReal) (Wu : Fin 256 → Fin 128 → EReal)
  (bu gm bt : Fin 128 → EReal) (Wd : Fin 128 → Fin 32 → EReal) (bd : Fin 32 → EReal)
  (hH : ∀ n k, V c main_v8_0 (ix2 n k) = H n k) (hPS : ∀ n k, V c main_v31 (ix2 n k) = PS n k)
  (hCN : ∀ n, V c main_v36 (ix2 n (0 : Fin 1)) = CN n)
  (hWT : ∀ k j, V c main_v37 (ix2 k j) = Wu (Cert.Spec.lo k) j) (hWB : ∀ k j, V c main_v38 (ix2 k j) = Wu (Cert.Spec.hi k) j)
  (hBU : ∀ j, V c main_v2 (ix2 (0 : Fin 1) j) = bu j) (hGM : ∀ j, V c main_v3 (ix2 (0 : Fin 1) j) = gm j)
  (hBT : ∀ j, V c main_v4 (ix2 (0 : Fin 1) j) = bt j)
  (hWD : ∀ j o, V c main_arg11 (ix2 j o) = Wd j o) (hBD : ∀ o, V c main_v5 (ix2 (0 : Fin 1) o) = bd o)

/-- The next node state before normalisation, as the specification composes it. -/
abbrev HN : Fin 50000 → Fin 128 → EReal := Cert.Spec.hn H (Cert.Spec.upd H (Cert.Spec.pooled PS CN) Wu bu)

/-- The six blocks the update reads at point `t`. -/
local notation "P4 " t => k1_pay4 (iblk1 V c 0 t) (iblk1 V c 1 t) (iblk1 V c 2 t) (iblk1 V c 3 t) (iblk1 V c 4 t) (iblk1 V c 5 t)
local notation "P5 " t => k1_pay5 (iblk1 V c 0 t) (iblk1 V c 1 t) (iblk1 V c 2 t) (iblk1 V c 3 t) (iblk1 V c 4 t) (iblk1 V c 5 t)
local notation "P6 " t => k1_pay6 (iblk1 V c 0 t) (iblk1 V c 1 t) (iblk1 V c 2 t) (iblk1 V c 3 t) (iblk1 V c 4 t) (iblk1 V c 5 t)

include hH hPS hCN hWT hWB hBU in
/-- The rectified update of a block's row is the specification's next node state at that row. -/
theorem hn_blk (t : Fin cfg1.N) (r : Fin 2000) (j : Fin 128) :
    (P4 t) (ix2 r j) = HN H PS CN Wu bu (grow t r) j := by
  rw [pay4_apply]
  simp only [blk0 V c, blk1 V c, blk2 V c, blk3 V c, blk4 V c, blk5 V c, hH, hPS, hCN, hWT, hWB, hBU]
  unfold HN Cert.Spec.hn Cert.Spec.upd Cert.Spec.pooled
  rw [show (w0 : EReal) = 0 from Ideal.ofBits_zero_f32]

include hH hPS hCN hWT hWB hBU in
theorem mu_blk (t : Fin cfg1.N) (r : Fin 2000) :
    (P5 t) (ix2 r (0 : Fin 1)) = Cert.Spec.mu (HN H PS CN Wu bu) (grow t r) := by
  rw [pay5_apply, Cert.Spec.mu_eq]
  refine congrArg (Ideal.div · w128) (Finset.sum_congr rfl fun k _ => ?_)
  exact hn_blk V c H PS CN Wu bu hH hPS hCN hWT hWB hBU t r k

include hH hPS hCN hWT hWB hBU in
theorem dev_blk (t : Fin cfg1.N) (r : Fin 2000) (j : Fin 128) :
    (P6 t) (ix2 r j) = Cert.Spec.dev (HN H PS CN Wu bu) (grow t r) j := by
  rw [pay6_apply, hn_blk V c H PS CN Wu bu hH hPS hCN hWT hWB hBU, mu_blk V c H PS CN Wu bu hH hPS hCN hWT hWB hBU]
  rfl

/-- The normalised, scaled and shifted rows. -/
abbrev Y : Fin 50000 → Fin 128 → EReal := Cert.Spec.y (HN H PS CN Wu bu) gm bt

include hH hPS hCN hWT hWB hBU hGM hBT in
/-- One step adds the block's column sums of the specification's normalised rows. -/
theorem step_blk (t : Fin cfg1.N) (acc : Vec Ideal S1x128 .f32) (j : Fin 128) :
    blkStep V c t acc (ix2 (0 : Fin 1) j) = acc (ix2 (0 : Fin 1) j) + ∑ r : Fin 2000, Y H PS CN Wu bu gm bt (grow t r) j := by
  unfold blkStep step
  rw [pay1_apply]
  refine congrArg (acc (ix2 (0 : Fin 1) j) + ·) (Finset.sum_congr rfl fun r _ => ?_)
  rw [hn_blk V c H PS CN Wu bu hH hPS hCN hWT hWB hBU, mu_blk V c H PS CN Wu bu hH hPS hCN hWT hWB hBU,
    blk6 V c, blk7 V c, hGM, hBT]
  simp only [dev_blk V c H PS CN Wu bu hH hPS hCN hWT hWB hBU]
  unfold Y Cert.Spec.y
  rw [Cert.Spec.var_eq]
  rfl

/-- The block sums as a function of the block's number, zero past the last block. -/
def bsum (j : Fin 128) (s : ℕ) : EReal :=
  if h : s < cfg1.N then ∑ r : Fin 2000, Y H PS CN Wu bu gm bt (grow ⟨s, h⟩ r) j else 0

include hH hPS hCN hWT hWB hBU hGM hBT in
/-- The accumulator after point `n`: the sum of the block sums up to `n`. -/
theorem acc_eq : ∀ (n : ℕ) (h : n < cfg1.N) (j : Fin 128),
    accAt V c n h (ix2 (0 : Fin 1) j) = ∑ s ∈ Finset.range (n + 1), bsum H PS CN Wu bu gm bt j s
  | 0, h, j => by
    show blkStep V c ⟨0, h⟩ zeroRow (ix2 (0 : Fin 1) j) = _
    rw [step_blk V c H PS CN Wu bu gm bt hH hPS hCN hWT hWB hBU hGM hBT, Finset.sum_range_one]
    unfold bsum
    rw [dif_pos h]
    show Ideal.ofBits .f32 0x00000000#32 + _ = _
    rw [Ideal.ofBits_zero_f32, zero_add]
  | n + 1, h, j => by
    show blkStep V c ⟨n + 1, h⟩ (accAt V c n _) (ix2 (0 : Fin 1) j) = _
    rw [step_blk V c H PS CN Wu bu gm bt hH hPS hCN hWT hWB hBU hGM hBT, acc_eq n _ j, Finset.sum_range_succ _ (n + 1)]
    unfold bsum
    rw [dif_pos h]

include hH hPS hCN hWT hWB hBU hGM hBT in
/-- After the last point: the sum over all 50000 rows. -/
theorem acc_last (j : Fin 128) :
    accAt V c 24 t24.isLt (ix2 (0 : Fin 1) j) = ∑ n : Fin 50000, Y H PS CN Wu bu gm bt n j := by
  rw [acc_eq V c H PS CN Wu bu gm bt hH hPS hCN hWT hWB hBU hGM hBT 24 t24.isLt j]
  have hN : cfg1.N = 25 := N_1
  have := SumLaw.sum_blocks (B := 25) (R := 2000) (T := 50000) rfl (fun p => Y H PS CN Wu bu gm bt p j)
    (fun s hs r => grow ⟨s, hN ▸ hs⟩ r) (fun s hs r => rfl)
  rw [← this]
  refine Finset.sum_congr rfl fun s hs => ?_
  have hs' : s < 25 := Finset.mem_range.mp hs
  unfold bsum
  rw [dif_pos (hN ▸ hs'), dif_pos hs']

include hH hPS hCN hWT hWB hBU hGM hBT hWD hBD in
/-- THE RESULT of the second kernel is the specification's readout of the column means. -/
theorem result_eq (o : Fin 32) :
    (result V c : S1x32.Idx → EReal) (ix2 (0 : Fin 1) o)
      = Cert.Spec.readout (Cert.Spec.g (Y H PS CN Wu bu gm bt)) Wd bd o := by
  show k1_pay2 (accAt V c 24 t24.isLt) (iblk1 V c 8 t24) (iblk1 V c 9 t24) (ix2 (0 : Fin 1) o) = _
  rw [pay2_apply]
  unfold Cert.Spec.readout Cert.Spec.g
  rw [blk9 V c, hBD]
  refine congrArg (· + bd o) (Finset.sum_congr rfl fun j _ => ?_)
  rw [acc_last V c H PS CN Wu bu gm bt hH hPS hCN hWT hWB hBU hGM hBT j, blk8 V c, hWD, Cert.Spec.colsum_eq]

end Stages

end Cert.KernelIdeal.R1S

end
-- ==== Proof.KernelValue.lean ====
/-
  The kernel program's result is the specification's `out` of its argument arrays.

  The second kernel's result is the specification's readout once the arrays it is entered with hold the
  specification's stages. Those arrays are followed back through the segments of the program to the launch memory:
  a buffer that a stretch of array operations does not write, and that the first kernel does not store into, is
  what it was before; the re-laid vectors and the halves of the weight matrices are entries of the arguments; the
  first kernel's three arrays are the node projection and its two products with the halves of the message weights,
  which are the specification's `am` and `ad`; the gathers, the rectifier and the two segment sums then give the
  summed messages and the counts.
-/
import proofs.«113755_j53815940219242_2_alg».proof.Proof.Run
import proofs.«113755_j53815940219242_2_alg».proof.Proof.HostValue0
import proofs.«113755_j53815940219242_2_alg».proof.Proof.HostValue1
import proofs.«113755_j53815940219242_2_alg».proof.Proof.R0Value
import proofs.«113755_j53815940219242_2_alg».proof.Proof.R1Spec
import proofs.«113755_j53815940219242_2_alg».proof.Proof.Spec

set_option maxRecDepth 16384

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen Cert.KernelIdeal.Run

variable (m : (ℓ : Loc nD τ sig) → Buf (Elt Ideal) ℓ) (c : Dev nD)

/-! ## The argument arrays as functions of their coordinates -/

abbrev x : Fin 50000 → Fin 128 → EReal := fun n k => (m ((c : Thread nD τ).loc main_arg0) : S50000x128.Idx → EReal) (ix2 n k)
abbrev src : Fin 640000 → BitVec 32 := fun e => (m ((c : Thread nD τ).loc main_arg1) : S640000.Idx → BitVec 32) (ix1 e)
abbrev dst : Fin 640000 → BitVec 32 := fun e => (m ((c : Thread nD τ).loc main_arg2) : S640000.Idx → BitVec 32) (ix1 e)
abbrev Wp : Fin 128 → Fin 128 → EReal := fun k j => (m ((c : Thread nD τ).loc main_arg3) : S128x128.Idx → EReal) (ix2 k j)
abbrev bp : Fin 128 → EReal := fun j => (m ((c : Thread nD τ).loc main_arg4) : S128.Idx → EReal) (ix1 j)
abbrev Wm : Fin 256 → Fin 128 → EReal := fun k j => (m ((c : Thread nD τ).loc main_arg5) : S256x128.Idx → EReal) (ix2 k j)
abbrev bm : Fin 128 → EReal := fun j => (m ((c : Thread nD τ).loc main_arg6) : S128.Idx → EReal) (ix1 j)
abbrev Wu : Fin 256 → Fin 128 → EReal := fun k j => (m ((c : Thread nD τ).loc main_arg7) : S256x128.Idx → EReal) (ix2 k j)
abbrev bu : Fin 128 → EReal := fun j => (m ((c : Thread nD τ).loc main_arg8) : S128.Idx → EReal) (ix1 j)
abbrev gamma : Fin 128 → EReal := fun j => (m ((c : Thread nD τ).loc main_arg9) : S128.Idx → EReal) (ix1 j)
abbrev beta : Fin 128 → EReal := fun j => (m ((c : Thread nD τ).loc main_arg10) : S128.Idx → EReal) (ix1 j)
abbrev Wd : Fin 128 → Fin 32 → EReal := fun j o => (m ((c : Thread nD τ).loc main_arg11) : S128x32.Idx → EReal) (ix2 j o)
abbrev bd : Fin 32 → EReal := fun o => (m ((c : Thread nD τ).loc main_arg12) : S32.Idx → EReal) (ix1 o)

/-! ## Buffers a segment leaves alone -/

/-- Not written by the first stretch: as launched. -/
theorem W1_keep (b : Ref sig .tc) (h1 : b ∉ hostOps0_W) :
    W1 m c (Proc.devRef .tc b) = m ((c : Thread nD τ).loc b) :=
  StableHlo.after_of_writes_sub hostOps0 _ hostOps0_writes h1

/-- Not one of the first kernel's three results, not written by the first stretch: as launched. -/
theorem W2_launch (b : Ref sig .tc) (h2a : b ≠ main_v8_0) (h2b : b ≠ main_v8_1) (h2c : b ≠ main_v8_2)
    (h1 : b ∉ hostOps0_W) : W2 m c (Proc.devRef .tc b) = m ((c : Thread nD τ).loc b) :=
  (W2_keep m c b h2a h2b h2c).trans (W1_keep m c b h1)

theorem W3_W2 (b : Ref sig .tc) (h3 : b ∉ hostOps1_W) : W3 m c (Proc.devRef .tc b) = W2 m c (Proc.devRef .tc b) :=
  StableHlo.after_of_writes_sub hostOps1 _ hostOps1_writes h3

theorem W4_W2 (b : Ref sig .tc) (h4 : b ∉ hostOps1_1_W) (h3 : b ∉ hostOps1_W) :
    W4 m c (Proc.devRef .tc b) = W2 m c (Proc.devRef .tc b) :=
  (StableHlo.after_of_writes_sub hostOps1_1 _ hostOps1_1_writes h4).trans (W3_W2 m c b h3)

theorem W5_W2 (b : Ref sig .tc) (h5 : b ∉ hostOps1_2_W) (h4 : b ∉ hostOps1_1_W) (h3 : b ∉ hostOps1_W) :
    W5 m c (Proc.devRef .tc b) = W2 m c (Proc.devRef .tc b) :=
  (StableHlo.after_of_writes_sub hostOps1_2 _ hostOps1_2_writes h5).trans (W4_W2 m c b h4 h3)

/-! ## What the first kernel is entered with -/

theorem X_eq : R0V.X (E1 m) c = x m c := funext fun n => funext fun k => by
  show (W1 m c (Proc.devRef .tc main_arg0) : S50000x128.Idx → EReal) (ix2 n k) = _
  rw [W1_keep m c main_arg0 (by decide)]

theorem Wp_eq : R0V.Wp (E1 m) c = Wp m c := funext fun k => funext fun j => by
  show (W1 m c (Proc.devRef .tc main_arg3) : S128x128.Idx → EReal) (ix2 k j) = _
  rw [W1_keep m c main_arg3 (by decide)]

theorem Bp_eq : R0V.Bp (E1 m) c = bp m c := funext fun j =>
  HostV.main_v0_apply (W0 m c) j

theorem Wt_eq : R0V.Wt (E1 m) c = fun k j => Wm m c (Cert.Spec.lo k) j := funext fun k => funext fun j =>
  HostV.main_v6_apply (W0 m c) k j

theorem Wb_eq : R0V.Wb (E1 m) c = fun k j => Wm m c (Cert.Spec.hi k) j := funext fun k => funext fun j =>
  HostV.main_v7_apply (W0 m c) k j

/-! ## The first kernel's three arrays -/

/-- The node projection, at the first kernel's exit. -/
theorem W2_h (n : Fin 50000) (k : Fin 128) :
    (W2 m c (Proc.devRef .tc main_v8_0) : S50000x128.Idx → EReal) (ix2 n k)
      = Cert.Spec.h0 (x m c) (Wp m c) (bp m c) n k := by
  rw [show W2 m c (Proc.devRef .tc main_v8_0) = (R0.dat0 (E1 m) c).arrAt 5 cfg0.N from W2_arr m c 5,
    R0V.arr5_apply, X_eq, Wp_eq, Bp_eq]

/-- Its product with the upper half of the message weights. -/
theorem W2_am (n : Fin 50000) (j : Fin 128) :
    (W2 m c (Proc.devRef .tc main_v8_1) : S50000x128.Idx → EReal) (ix2 n j)
      = Cert.Spec.am (Cert.Spec.h0 (x m c) (Wp m c) (bp m c)) (Wm m c) n j := by
  rw [show W2 m c (Proc.devRef .tc main_v8_1) = (R0.dat0 (E1 m) c).arrAt 6 cfg0.N from W2_arr m c 6,
    R0V.arr6_apply, X_eq, Wp_eq, Bp_eq, Wt_eq]
  rfl

/-- Its product with the lower half of the message weights. -/
theorem W2_ad (n : Fin 50000) (j : Fin 128) :
    (W2 m c (Proc.devRef .tc main_v8_2) : S50000x128.Idx → EReal) (ix2 n j)
      = Cert.Spec.ad (Cert.Spec.h0 (x m c) (Wp m c) (bp m c)) (Wm m c) n j := by
  rw [show W2 m c (Proc.devRef .tc main_v8_2) = (R0.dat0 (E1 m) c).arrAt 7 cfg0.N from W2_arr m c 7,
    R0V.arr7_apply, X_eq, Wp_eq, Bp_eq, Wb_eq]
  rfl

/-! ## What the second kernel is entered with: the parts that need no gather or segment sum -/

theorem hH (n : Fin 50000) (k : Fin 128) :
    (E5 m c main_v8_0 : S50000x128.Idx → EReal) (ix2 n k) = Cert.Spec.h0 (x m c) (Wp m c) (bp m c) n k := by
  show (W5 m c (Proc.devRef .tc main_v8_0) : S50000x128.Idx → EReal) (ix2 n k) = _
  rw [W5_W2 m c main_v8_0 (by decide) (by decide) (by decide)]
  exact W2_h m c n k

/-- A one-row matrix made by the first stretch and left alone since, at the second kernel's entry. -/
theorem W5_W1 (b : Ref sig .tc) (h5 : b ∉ hostOps1_2_W) (h4 : b ∉ hostOps1_1_W) (h3 : b ∉ hostOps1_W)
    (h2a : b ≠ main_v8_0) (h2b : b ≠ main_v8_1) (h2c : b ≠ main_v8_2) :
    W5 m c (Proc.devRef .tc b) = W1 m c (Proc.devRef .tc b) :=
  (W5_W2 m c b h5 h4 h3).trans (W2_keep m c b h2a h2b h2c)

theorem hBU (j : Fin 128) : (E5 m c main_v2 : S1x128.Idx → EReal) (ix2 (0 : Fin 1) j) = bu m c j := by
  show (W5 m c (Proc.devRef .tc main_v2) : S1x128.Idx → EReal) (ix2 (0 : Fin 1) j) = _
  rw [W5_W1 m c main_v2 (by decide) (by decide) (by decide) (by decide) (by decide) (by decide)]
  exact HostV.main_v2_apply (W0 m c) j

theorem hGM (j : Fin 128) : (E5 m c main_v3 : S1x128.Idx → EReal) (ix2 (0 : Fin 1) j) = gamma m c j := by
  show (W5 m c (Proc.devRef .tc main_v3) : S1x128.Idx → EReal) (ix2 (0 : Fin 1) j) = _
  rw [W5_W1 m c main_v3 (by decide) (by decide) (by decide) (by decide) (by decide) (by decide)]
  exact HostV.main_v3_apply (W0 m c) j

theorem hBT (j : Fin 128) : (E5 m c main_v4 : S1x128.Idx → EReal) (ix2 (0 : Fin 1) j) = beta m c j := by
  show (W5 m c (Proc.devRef .tc main_v4) : S1x128.Idx → EReal) (ix2 (0 : Fin 1) j) = _
  rw [W5_W1 m c main_v4 (by decide) (by decide) (by decide) (by decide) (by decide) (by decide)]
  exact HostV.main_v4_apply (W0 m c) j

theorem hBD (o : Fin 32) : (E5 m c main_v5 : S1x32.Idx → EReal) (ix2 (0 : Fin 1) o) = bd m c o := by
  show (W5 m c (Proc.devRef .tc main_v5) : S1x32.Idx → EReal) (ix2 (0 : Fin 1) o) = _
  rw [W5_W1 m c main_v5 (by decide) (by decide) (by decide) (by decide) (by decide) (by decide)]
  exact HostV.main_v5_apply (W0 m c) o

theorem hWD (j : Fin 128) (o : Fin 32) : (E5 m c main_arg11 : S128x32.Idx → EReal) (ix2 j o) = Wd m c j o := by
  show (W5 m c (Proc.devRef .tc main_arg11) : S128x32.Idx → EReal) (ix2 j o) = _
  rw [W5_W2 m c main_arg11 (by decide) (by decide) (by decide),
    W2_launch m c main_arg11 (by decide) (by decide) (by decide) (by decide)]

/-! ## The gathers, the rectifier and the segment sums -/

theorem AM_eq : HostV.AM (W2 m c) = Cert.Spec.am (Cert.Spec.h0 (x m c) (Wp m c) (bp m c)) (Wm m c) :=
  funext fun n => funext fun j => W2_am m c n j

theorem AD_eq : HostV.AD (W2 m c) = Cert.Spec.ad (Cert.Spec.h0 (x m c) (Wp m c) (bp m c)) (Wm m c) :=
  funext fun n => funext fun j => W2_ad m c n j

theorem src2_eq : HostV.src (W2 m c) = src m c := funext fun e => by
  show (W2 m c (Proc.devRef .tc main_arg1) : S640000.Idx → BitVec 32) (ix1 e) = _
  rw [W2_launch m c main_arg1 (by decide) (by decide) (by decide) (by decide)]

theorem dst2_eq : HostV.dst (W2 m c) = dst m c := funext fun e => by
  show (W2 m c (Proc.devRef .tc main_arg2) : S640000.Idx → BitVec 32) (ix1 e) = _
  rw [W2_launch m c main_arg2 (by decide) (by decide) (by decide) (by decide)]

theorem dst4_eq : HostV.dst (W4 m c) = dst m c := funext fun e => by
  show (W4 m c (Proc.devRef .tc main_arg2) : S640000.Idx → BitVec 32) (ix1 e) = _
  rw [W4_W2 m c main_arg2 (by decide) (by decide),
    W2_launch m c main_arg2 (by decide) (by decide) (by decide) (by decide)]

theorem bm2_eq : HostV.bm (W2 m c) = bm m c := funext fun j => by
  show (W2 m c (Proc.devRef .tc main_v1) : S1x128.Idx → EReal) (ix2 (0 : Fin 1) j) = _
  rw [W2_keep m c main_v1 (by decide) (by decide) (by decide)]
  exact HostV.main_v1_apply (W0 m c) j

/-- The rectified messages at the entry of the last stretch are the specification's. -/
theorem rect_eq : HostV.rect (W4 m c)
    = Cert.Spec.msgOf (x m c) (src m c) (dst m c) (Wp m c) (bp m c) (Wm m c) (bm m c) :=
  funext fun e => funext fun j => by
    refine (HostV.v28_apply (W3 m c) e j).trans ?_
    rw [show HostV.pre (W3 m c) e j = _ from HostV.v27_apply (W2 m c) e j, AM_eq, AD_eq, src2_eq, dst2_eq, bm2_eq]
    rfl

theorem hPS (n : Fin 50000) (k : Fin 128) :
    (E5 m c main_v31 : S50000x128.Idx → EReal) (ix2 n k)
      = Cert.Spec.psum (Cert.Spec.msgOf (x m c) (src m c) (dst m c) (Wp m c) (bp m c) (Wm m c) (bm m c)) (dst m c) n k := by
  refine (HostV.v31_apply (W4 m c) n k).trans ?_
  rw [rect_eq, dst4_eq]

theorem hCN (n : Fin 50000) :
    (E5 m c main_v36 : S50000x1.Idx → EReal) (ix2 n (0 : Fin 1)) = Cert.Spec.cnt (dst m c) n := by
  refine (HostV.v36_apply (W4 m c) n).trans ?_
  rw [dst4_eq]

theorem hWT (k j : Fin 128) :
    (E5 m c main_v37 : S128x128.Idx → EReal) (ix2 k j) = Wu m c (Cert.Spec.lo k) j := by
  refine (HostV.v37_apply (W4 m c) k j).trans ?_
  show (W4 m c (Proc.devRef .tc main_arg7) : S256x128.Idx → EReal) (ix2 (Cert.Spec.lo k) j) = _
  rw [W4_W2 m c main_arg7 (by decide) (by decide),
    W2_launch m c main_arg7 (by decide) (by decide) (by decide) (by decide)]

theorem hWB (k j : Fin 128) :
    (E5 m c main_v38 : S128x128.Idx → EReal) (ix2 k j) = Wu m c (Cert.Spec.hi k) j := by
  refine (HostV.v38_apply (W4 m c) k j).trans ?_
  show (W4 m c (Proc.devRef .tc main_arg7) : S256x128.Idx → EReal) (ix2 (Cert.Spec.hi k) j) = _
  rw [W4_W2 m c main_arg7 (by decide) (by decide),
    W2_launch m c main_arg7 (by decide) (by decide) (by decide) (by decide)]

/-! ## The result -/

/-- The kernel program's result at an entry is the specification's `out` of the launch contents of its arguments. -/
theorem kernel_out (o : Fin 32) :
    (R1V.result (F := Ideal) (E5 m) c : S1x32.Idx → EReal) (ix2 (0 : Fin 1) o)
      = Cert.Spec.out (x m c) (src m c) (dst m c) (Wp m c) (bp m c) (Wm m c) (bm m c) (Wu m c) (bu m c) (gamma m c)
          (beta m c) (Wd m c) (bd m c) o := by
  refine (R1S.result_eq (E5 m) c (Cert.Spec.h0 (x m c) (Wp m c) (bp m c))
    (Cert.Spec.psum (Cert.Spec.msgOf (x m c) (src m c) (dst m c) (Wp m c) (bp m c) (Wm m c) (bm m c)) (dst m c))
    (Cert.Spec.cnt (dst m c)) (Wu m c) (bu m c) (gamma m c) (beta m c) (Wd m c) (bd m c)
    (hH m c) (hPS m c) (hCN m c) (hWT m c) (hWB m c) (hBU m c) (hGM m c) (hBT m c) (hWD m c) (hBD m c) o).trans ?_
  unfold Cert.Spec.out Cert.Spec.hnOf
  rfl

end Cert.KernelIdeal.KV

end
-- ==== Proof.lean ====
/-
  One message-passing layer of a graph network over 50000 nodes and 640000 edges, followed by a mean readout: a
  kernel in two tiled stages with gathers and segment sums between them, against a plain array program.

  The kernel first computes, 2000 rows at a time, the node projection h0 = x·Wp + bp and the two node-space halves
  h0·Wm[upper], h0·Wm[lower] of the message map. Between the stages each edge reads the row of the first half at its
  source and of the second half at its target, adds them and the bias, rectifies, and is summed into its target
  row; the number of edges into each row is counted. The second stage, again 2000 rows at a time, divides the sums by
  the larger of the count and one, applies the residual update and the rectifier, normalises each row to mean zero
  and variance one, scales and shifts it, and adds the block's column sums into an accumulator kept between
  blocks (zeroed before the first block); after the last block it multiplies the accumulator by the reciprocal of the
  row count and applies the last dense map. The plain program gathers the projected rows per edge and multiplies each
  by the message map, and takes the column mean by dividing by the row count.

  On the extended reals the two agree entry by entry: a change of float format is the identity; a row of a matrix
  product is the product of that row, so gathering rows before or after multiplying is the same reindexing; the
  accumulator over 25 blocks is the sum over all 50000 rows because the blocks partition the rows (only commutativity
  and associativity of addition are used, which hold with infinities); and the kernel's reciprocal is named as the
  rational 1/50000, multiplication by which is division by 50000 on every extended real. No finiteness of the inputs
  is needed for the agreement; the precondition is never opened.

  The three frame claims (each program runs to the end, nothing faults, the arguments end unchanged) come, for the
  kernel and its idealization, from the run of the program as six segments with each kernel region's body proved at
  every grid point (the second region's invariant carries the accumulator's contents from block to block), and for
  the plain program from its run as a straight line of array operations. The one rewrite of the idealization, the
  named reciprocal, is the rule's own statement.
-/
import proofs.«113755_j53815940219242_2_alg».proof.Defs
import proofs.«113755_j53815940219242_2_alg».proof.Proof.Gen.Kernel
import proofs.«113755_j53815940219242_2_alg».proof.Proof.Gen.KernelIdeal
import proofs.«113755_j53815940219242_2_alg».proof.Proof.Gen.ReferenceIdeal
import proofs.«113755_j53815940219242_2_alg».proof.Proof.Gen.Pre_finite_inputs
import proofs.«113755_j53815940219242_2_alg».proof.Proof.Claims
import proofs.«113755_j53815940219242_2_alg».proof.Proof.R1Acc
import proofs.«113755_j53815940219242_2_alg».proof.Proof.KernelValue

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Proof.Claims.frame_K, Cert.Proof.Claims.frame_KI, Cert.Proof.Claims.frame_RI, Cert.Proof.Claims.preserves,
  Cert.Proof.Claims.algebraic_of (fun m c => Cert.KernelIdeal.R1V.result (Cert.KernelIdeal.Run.E5 m) c)
    (fun m c => Cert.KernelIdeal.R1V.final_out (Cert.KernelIdeal.Run.E5 m) c)
    (fun m c o => Cert.KernelIdeal.KV.kernel_out m c o)⟩

end Cert.Proof

end
